-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024 : Shape := ⟨2, ![8, 1024]⟩
abbrev S32000x512 : Shape := ⟨2, ![32000, 512]⟩
abbrev S512 : Shape := ⟨1, ![512]⟩
abbrev S8x64x512 : Shape := ⟨3, ![8, 64, 512]⟩
abbrev S8x512x512 : Shape := ⟨3, ![8, 512, 512]⟩
abbrev S_ : Shape := ⟨0, ![]⟩

class Facts : Prop where
  bcast_S_S32000x512 : S_.BroadcastsInDim S32000x512 (![] : Fin 0 → Fin S32000x512.rank)
  reducesTo_S32000x512_S_d0_1 : S32000x512.ReducesTo [0, 1] S_
  h_S_ : 0 < S_.numel
  bcast_S_S512 : S_.BroadcastsInDim S512 (![] : Fin 0 → Fin S512.rank)
  reducesTo_S512_S_d0 : S512.ReducesTo [0] S_
  bcast_S_S8x64x512 : S_.BroadcastsInDim S8x64x512 (![] : Fin 0 → Fin S8x64x512.rank)
  reducesTo_S8x64x512_S_d0_1_2 : S8x64x512.ReducesTo [0, 1, 2] S_
  bcast_S_S8x512x512 : S_.BroadcastsInDim S8x512x512 (![] : Fin 0 → Fin S8x512x512.rank)
  reducesTo_S8x512x512_S_d0_1_2 : S8x512x512.ReducesTo [0, 1, 2] S_

variable [Facts]

def fn_part1 {F : FTy → Type} [FloatOps F] (main_arg5 : FVec F S8x64x512 .f32) (main_arg6 : FVec F S8x512x512 .f32) (main_v13 : IVec S_ 1) (main_v16 : IVec S8x64x512 1) : IVec S_ 1 :=
  let main_c_5 : IVec S_ 1 := constantI S_ 1 1#1
  let main_v17 : IVec S_ 1 := (fun x v => Host.reduce IntOp.andi x v reducesTo_S8x64x512_S_d0_1_2 h_S_) main_v16 main_c_5
  let main_v18 : IVec S_ 1 := andi main_v13 main_v17
  let main_v19 : FVec F S8x64x512 .f32 := Host.absf main_arg5
  let main_cst_6 : FVec F S_ .f32 := constant S_ .f32 0x7F800000#32
  let main_v20 : FVec F S8x64x512 .f32 := broadcastInDim S8x64x512 ![] bcast_S_S8x64x512 main_cst_6
  let main_v21 : IVec S8x64x512 1 := cmpf .olt main_v19 main_v20
  let main_c_7 : IVec S_ 1 := constantI S_ 1 1#1
  let main_v22 : IVec S_ 1 := (fun x v => Host.reduce IntOp.andi x v reducesTo_S8x64x512_S_d0_1_2 h_S_) main_v21 main_c_7
  let main_v23 : IVec S_ 1 := andi main_v18 main_v22
  let main_v24 : FVec F S8x512x512 .f32 := Host.absf main_arg6
  let main_cst_8 : FVec F S_ .f32 := constant S_ .f32 0x7F800000#32
  let main_v25 : FVec F S8x512x512 .f32 := broadcastInDim S8x512x512 ![] bcast_S_S8x512x512 main_cst_8
  let main_v26 : IVec S8x512x512 1 := cmpf .olt main_v24 main_v25
  let main_c_9 : IVec S_ 1 := constantI S_ 1 1#1
  let main_v27 : IVec S_ 1 := (fun x v => Host.reduce IntOp.andi x v reducesTo_S8x512x512_S_d0_1_2 h_S_) main_v26 main_c_9
  let main_v28 : IVec S_ 1 := andi main_v23 main_v27
  main_v28

def fn {F : FTy → Type} [FloatOps F] (main_arg0 : IVec S8x1024 32) (main_arg1 : FVec F S32000x512 .f32) (main_arg2 : FVec F S512 .f32) (main_arg3 : FVec F S512 .f32) (main_arg4 : FVec F S8x64x512 .f32) (main_arg5 : FVec F S8x64x512 .f32) (main_arg6 : FVec F S8x512x512 .f32) : IVec S_ 1 :=
  let main_v0 : FVec F S32000x512 .f32 := Host.absf main_arg1
  let main_cst : FVec F S_ .f32 := constant S_ .f32 0x7F800000#32
  let main_v1 : FVec F S32000x512 .f32 := broadcastInDim S32000x512 ![] bcast_S_S32000x512 main_cst
  let main_v2 : IVec S32000x512 1 := cmpf .olt main_v0 main_v1
  let main_c : IVec S_ 1 := constantI S_ 1 1#1
  let main_v3 : IVec S_ 1 := (fun x v => Host.reduce IntOp.andi x v reducesTo_S32000x512_S_d0_1 h_S_) main_v2 main_c
  let main_v4 : FVec F S512 .f32 := Host.absf main_arg2
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S8x64x512 .f32 := Host.absf main_arg4
  let main_cst_4 : FVec F S_ .f32 := constant S_ .f32 0x7F800000#32
  let main_v15 : FVec F S8x64x512 .f32 := broadcastInDim S8x64x512 ![] bcast_S_S8x64x512 main_cst_4
  let main_v16 : IVec S8x64x512 1 := cmpf .olt main_v14 main_v15
  fn_part1 (F := F) main_arg5 main_arg6 main_v13 main_v16
-- ==== Kernel.lean ====
abbrev S8x1024 : Shape := ⟨2, ![8, 1024]⟩
abbrev S32000x512 : Shape := ⟨2, ![32000, 512]⟩
abbrev S512 : Shape := ⟨1, ![512]⟩
abbrev S8x64x512 : Shape := ⟨3, ![8, 64, 512]⟩
abbrev S8x512x512 : Shape := ⟨3, ![8, 512, 512]⟩
abbrev S_ : Shape := ⟨0, ![]⟩
abbrev S8x1024x1 : Shape := ⟨3, ![8, 1024, 1]⟩
abbrev S8x1024x512 : Shape := ⟨3, ![8, 1024, 512]⟩
abbrev S1x1x512 : Shape := ⟨3, ![1, 1, 512]⟩
abbrev S8x8x1024x64 : Shape := ⟨4, ![8, 8, 1024, 64]⟩
abbrev S8x8x1024x512 : Shape := ⟨4, ![8, 8, 1024, 512]⟩
abbrev S1x1024x512 : Shape := ⟨3, ![1, 1024, 512]⟩
abbrev S1x64x512 : Shape := ⟨3, ![1, 64, 512]⟩
abbrev S1x512x512 : Shape := ⟨3, ![1, 512, 512]⟩
abbrev S1x1x1024x64 : Shape := ⟨4, ![1, 1, 1024, 64]⟩
abbrev S1x1x1024x512 : Shape := ⟨4, ![1, 1, 1024, 512]⟩
abbrev S1024x512 : Shape := ⟨2, ![1024, 512]⟩
abbrev S64x512 : Shape := ⟨2, ![64, 512]⟩
abbrev S512x512 : Shape := ⟨2, ![512, 512]⟩
abbrev S1024x64 : Shape := ⟨2, ![1024, 64]⟩
abbrev S1x1x512x64 : Shape := ⟨4, ![1, 1, 512, 64]⟩
abbrev S1x1x512x512 : Shape := ⟨4, ![1, 1, 512, 512]⟩
abbrev S512x64 : Shape := ⟨2, ![512, 64]⟩
abbrev S512x1024 : Shape := ⟨2, ![512, 1024]⟩
abbrev S512x1 : Shape := ⟨2, ![512, 1]⟩

abbrev nBuf : Space → Nat
  | .hbm => 49
  | .vmem => 22
  | .smem => 0
  | _ => 0

abbrev bufTy : (tb : Table) → Fin (tcTables nBuf tb) → BufTy
  | .hbm, ⟨0, _⟩ => ⟨S8x1024, .i32⟩
  | .hbm, ⟨1, _⟩ => ⟨S32000x512, .f32⟩
  | .hbm, ⟨2, _⟩ => ⟨S512, .f32⟩
  | .hbm, ⟨3, _⟩ => ⟨S512, .f32⟩
  | .hbm, ⟨4, _⟩ => ⟨S8x64x512, .f32⟩
  | .hbm, ⟨5, _⟩ => ⟨S8x64x512, .f32⟩
  | .hbm, ⟨6, _⟩ => ⟨S8x512x512, .f32⟩
  | .hbm, ⟨7, _⟩ => ⟨S_, .i32⟩
  | .hbm, ⟨8, _⟩ => ⟨S8x1024, .i32⟩
  | .hbm, ⟨9, _⟩ => ⟨S8x1024, .i1⟩
  | .hbm, ⟨10, _⟩ => ⟨S_, .i32⟩
  | .hbm, ⟨11, _⟩ => ⟨S8x1024, .i32⟩
  | .hbm, ⟨12, _⟩ => ⟨S8x1024, .i32⟩
  | .hbm, ⟨13, _⟩ => ⟨S8x1024, .i32⟩
  | .hbm, ⟨14, _⟩ => ⟨S8x1024x1, .i32⟩
  | .hbm, ⟨15, _⟩ => ⟨S8x1024x512, .f32⟩
  | .hbm, ⟨16, _⟩ => ⟨S_, .f32⟩
  | .hbm, ⟨17, _⟩ => ⟨S8x1024, .f32⟩
  | .hbm, ⟨18, _⟩ => ⟨S8x1024x1, .f32⟩
  | .hbm, ⟨19, _⟩ => ⟨S_, .f32⟩
  | .hbm, ⟨20, _⟩ => ⟨S8x1024x1, .f32⟩
  | .hbm, ⟨21, _⟩ => ⟨S8x1024x1, .f32⟩
  | .hbm, ⟨22, _⟩ => ⟨S8x1024x512, .f32⟩
  | .hbm, ⟨23, _⟩ => ⟨S8x1024x512, .f32⟩
  | .hbm, ⟨24, _⟩ => ⟨S8x1024x512, .f32⟩
  | .hbm, ⟨25, _⟩ => ⟨S_, .f32⟩
  | .hbm, ⟨26, _⟩ => ⟨S8x1024, .f32⟩
  | .hbm, ⟨27, _⟩ => ⟨S8x1024x1, .f32⟩
  | .hbm, ⟨28, _⟩ => ⟨S_, .f32⟩
  | .hbm, ⟨29, _⟩ => ⟨S8x1024x1, .f32⟩
  | .hbm, ⟨30, _⟩ => ⟨S8x1024x1, .f32⟩
  | .hbm, ⟨31, _⟩ => ⟨S8x1024x512, .f32⟩
  | .hbm, ⟨32, _⟩ => ⟨S8x1024x512, .f32⟩
  | .hbm, ⟨33, _⟩ => ⟨S_, .f32⟩
  | .hbm, ⟨34, _⟩ => ⟨S8x1024x1, .f32⟩
  | .hbm, ⟨35, _⟩ => ⟨S8x1024x1, .f32⟩
  | .hbm, ⟨36, _⟩ => ⟨S8x1024x1, .f32⟩
  | .hbm, ⟨37, _⟩ => ⟨S8x1024x512, .f32⟩
  | .hbm, ⟨38, _⟩ => ⟨S8x1024x512, .f32⟩
  | .hbm, ⟨39, _⟩ => ⟨S1x1x512, .f32⟩
  | .hbm, ⟨40, _⟩ => ⟨S8x1024x512, .f32⟩
  | .hbm, ⟨41, _⟩ => ⟨S8x1024x512, .f32⟩
  | .hbm, ⟨42, _⟩ => ⟨S1x1x512, .f32⟩
  | .hbm, ⟨43, _⟩ => ⟨S8x1024x512, .f32⟩
  | .hbm, ⟨44, _⟩ => ⟨S8x1024x512, .f32⟩
  | .hbm, ⟨45, _⟩ => ⟨S8x8x1024x64, .bf16⟩
  | .hbm, ⟨46, _⟩ => ⟨S8x8x1024x64, .bf16⟩
  | .hbm, ⟨47, _⟩ => ⟨S8x8x1024x512, .bf16⟩
  | .hbm, ⟨48, _⟩ => ⟨S8x8x1024x512, .f32⟩
  | .local _ .vmem, ⟨0, _⟩ => ⟨S1x1024x512, .f32⟩
  | .local _ .vmem, ⟨1, _⟩ => ⟨S1x1024x512, .f32⟩
  | .local _ .vmem, ⟨2, _⟩ => ⟨S1x64x512, .f32⟩
  | .local _ .vmem, ⟨3, _⟩ => ⟨S1x64x512, .f32⟩
  | .local _ .vmem, ⟨4, _⟩ => ⟨S1x64x512, .f32⟩
  | .local _ .vmem, ⟨5, _⟩ => ⟨S1x64x512, .f32⟩
  | .local _ .vmem, ⟨6, _⟩ => ⟨S1x512x512, .f32⟩
  | .local _ .vmem, ⟨7, _⟩ => ⟨S1x512x512, .f32⟩
  | .local _ .vmem, ⟨8, _⟩ => ⟨S1x1x1024x64, .bf16⟩
  | .local _ .vmem, ⟨9, _⟩ => ⟨S1x1x1024x64, .bf16⟩
  | .local _ .vmem, ⟨10, _⟩ => ⟨S1x1x1024x64, .bf16⟩
  | .local _ .vmem, ⟨11, _⟩ => ⟨S1x1x1024x64, .bf16⟩
  | .local _ .vmem, ⟨12, _⟩ => ⟨S1x1x1024x512, .bf16⟩
  | .local _ .vmem, ⟨13, _⟩ => ⟨S1x1x1024x512, .bf16⟩
  | .local _ .vmem, ⟨14, _⟩ => ⟨S1x1x512x64, .bf16⟩
  | .local _ .vmem, ⟨15, _⟩ => ⟨S1x1x512x64, .bf16⟩
  | .local _ .vmem, ⟨16, _⟩ => ⟨S1x1x1024x64, .bf16⟩
  | .local _ .vmem, ⟨17, _⟩ => ⟨S1x1x1024x64, .bf16⟩
  | .local _ .vmem, ⟨18, _⟩ => ⟨S1x1x1024x512, .bf16⟩
  | .local _ .vmem, ⟨19, _⟩ => ⟨S1x1x1024x512, .bf16⟩
  | .local _ .vmem, ⟨20, _⟩ => ⟨S1x1x512x512, .f32⟩
  | .local _ .vmem, ⟨21, _⟩ => ⟨S1x1x512x512, .f32⟩
  | _, _ => ⟨S8x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31_0 : Ref sig .tc := ⟨.hbm, 45, rfl⟩
abbrev main_v31_1 : Ref sig .tc := ⟨.hbm, 46, rfl⟩
abbrev main_v31_2 : Ref sig .tc := ⟨.hbm, 47, rfl⟩
abbrev main_v32 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x1024x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨3, ![8, 8, 2], ![false, false, false]⟩

def cc1_transform_0 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage1_0 : Fin 2 → Memref sig .tc .vmem S1x1x512x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x1x1024x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x1x1024x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x1x512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

class Facts₀ : Prop where
  bcast_S_S8x1024 : S_.BroadcastsInDim S8x1024 (![] : Fin 0 → Fin S8x1024.rank)
  bcast_S8x1024_S8x1024x1_0_1 : S8x1024.BroadcastsInDim S8x1024x1 (![0, 1] : Fin 2 → Fin S8x1024x1.rank)
  reducesTo_S8x1024x512_S8x1024_d2 : S8x1024x512.ReducesTo [2] S8x1024
  h_S_ : 0 < S_.numel
  bcast_S_S8x1024x1 : S_.BroadcastsInDim S8x1024x1 (![] : Fin 0 → Fin S8x1024x1.rank)
  bcast_S8x1024x1_S8x1024x512_0_1_2 : S8x1024x1.BroadcastsInDim S8x1024x512 (![0, 1, 2] : Fin 3 → Fin S8x1024x512.rank)
  bcast_S512_S1x1x512_2 : S512.BroadcastsInDim S1x1x512 (![2] : Fin 1 → Fin S1x1x512.rank)
  bcast_S1x1x512_S8x1024x512_0_1_2 : S1x1x512.BroadcastsInDim S8x1024x512 (![0, 1, 2] : Fin 3 → Fin S8x1024x512.rank)
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  bitsLt_bf16_f32 : FTy.bits .bf16 < FTy.bits .f32
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  inb_S1x1x1024x64_S1x1x1024x64_0_0_0_0 : ∀ a, (![0, 0, 0, 0] : Fin 4 → Nat) a + S1x1x1024x64.size a ≤ S1x1x1024x64.size a
  h_S1x1x1024x64 : 0 < S1x1x1024x64.numel
  shapeCasts_S1x1x1024x64_S1024x64 : S1x1x1024x64.ShapeCasts S1024x64
  shapeCasts_S1024x64_S1x1x1024x64 : S1024x64.ShapeCasts S1x1x1024x64
  packedbf16_S1x1x1024x64_S1x1x1024x64_0_0_0_0 : (Rect.unit (s := S1x1x1024x64) ![0, 0, 0, 0] S1x1x1024x64.size inb_S1x1x1024x64_S1x1x1024x64_0_0_0_0).PackedRows (EltTy.packing .bf16)
  inb_S1x1x1024x512_S1x1x1024x512_0_0_0_0 : ∀ a, (![0, 0, 0, 0] : Fin 4 → Nat) a + S1x1x1024x512.size a ≤ S1x1x1024x512.size a
  h_S1x1x1024x512 : 0 < S1x1x1024x512.numel
  shapeCasts_S1x1x1024x512_S1024x512 : S1x1x1024x512.ShapeCasts S1024x512
  shapeCasts_S1024x512_S1x1x1024x512 : S1024x512.ShapeCasts S1x1x1024x512
  packedbf16_S1x1x1024x512_S1x1x1024x512_0_0_0_0 : (Rect.unit (s := S1x1x1024x512) ![0, 0, 0, 0] S1x1x1024x512.size inb_S1x1x1024x512_S1x1x1024x512_0_0_0_0).PackedRows (EltTy.packing .bf16)
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  reduces_S512x1024_S512 : S512x1024.Reduces [1] S512
  shapeCasts_S512_S512x1 : S512.ShapeCasts S512x1
  broadcasts_S512x1_S512x1024 : S512x1.Broadcasts S512x1024
  inb_S1x1x512x512_S1x1x512x512_0_0_0_0 : ∀ a, (![0, 0, 0, 0] : Fin 4 → Nat) a + S1x1x512x512.size a ≤ S1x1x512x512.size a
  h_S1x1x512x512 : 0 < S1x1x512x512.numel
  shapeCasts_S1x1x512x512_S512x512 : S1x1x512x512.ShapeCasts S512x512
  shapeCasts_S512x512_S1x1x512x512 : S512x512.ShapeCasts S1x1x512x512
  gather_S32000x512_S8x1024x1_S8x1024x512_2_0_n_n_0_2_1512_wf : GatherDims.WF S32000x512 S8x1024x1 S8x1024x512 [2] [0] [] [0] [] 2 ![1, 512]
  dot_S1024x512_S64x512_S1024x64_1_1_0_0_n_n_wf : DotDims.WF S1024x512 S64x512 S1024x64 [1] [1] [0] [0] [] []
  dot_S1024x512_S512x512_S1024x512_1_1_0_0_n_n_wf : DotDims.WF S1024x512 S512x512 S1024x512 [1] [1] [0] [0] [] []
  dot_S512x64_S1024x64_S512x1024_1_1_0_0_n_n_wf : DotDims.WF S512x64 S1024x64 S512x1024 [1] [1] [0] [0] [] []
  dot_S512x1024_S1024x512_S512x512_1_0_0_1_n_n_wf : DotDims.WF S512x1024 S1024x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S8x1024x512.size a
  hwx0_0 : ∀ i : grid0.Coords, EltTy.bits .f32 = 32 ∨ (Rect.block (s := S8x1024x512) S1x1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x512.size a ≤ S8x64x512.size a
  hwx0_1 : ∀ i : grid0.Coords, EltTy.bits .f32 = 32 ∨ (Rect.block (s := S8x64x512) S1x64x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x512.size a ≤ S8x64x512.size a
  hwx0_2 : ∀ i : grid0.Coords, EltTy.bits .f32 = 32 ∨ (Rect.block (s := S8x64x512) S1x64x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x512.size a ≤ S8x512x512.size a
  hwx0_3 : ∀ i : grid0.Coords, EltTy.bits .f32 = 32 ∨ (Rect.block (s := S8x512x512) S1x512x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1024x64.size a ≤ S8x8x1024x64.size a
  hwx0_4 : ∀ i : grid0.Coords, EltTy.bits .bf16 = 32 ∨ (Rect.block (s := S8x8x1024x64) S1x1x1024x64.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1024x64.size a ≤ S8x8x1024x64.size a
  hwx0_5 : ∀ i : grid0.Coords, EltTy.bits .bf16 = 32 ∨ (Rect.block (s := S8x8x1024x64) S1x1x1024x64.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x1024x512.size a ≤ S8x8x1024x512.size a
  hwx0_6 : ∀ i : grid0.Coords, EltTy.bits .bf16 = 32 ∨ (Rect.block (s := S8x8x1024x512) S1x1x1024x512.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x512x64.size a ≤ S8x8x1024x64.size a
  hwx1_0 : ∀ i : grid1.Coords, EltTy.bits .bf16 = 32 ∨ (Rect.block (s := S8x8x1024x64) S1x1x512x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x1024x64.size a ≤ S8x8x1024x64.size a
  hwx1_1 : ∀ i : grid1.Coords, EltTy.bits .bf16 = 32 ∨ (Rect.block (s := S8x8x1024x64) S1x1x1024x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x1024x512.size a ≤ S8x8x1024x512.size a
  hwx1_2 : ∀ i : grid1.Coords, EltTy.bits .bf16 = 32 ∨ (Rect.block (s := S8x8x1024x512) S1x1x1024x512.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x512x512.size a ≤ S8x8x1024x512.size a
  hwx1_3 : ∀ i : grid1.Coords, EltTy.bits .f32 = 32 ∨ (Rect.block (s := S8x8x1024x512) S1x1x512x512.size (cc1_transform_3 i) (hinb1_3 i)).WholeWords (EltTy.packing .f32)

variable [Facts₀]

def gather_S32000x512_S8x1024x1_S8x1024x512_2_0_n_n_0_2_1512 : GatherDims S32000x512 S8x1024x1 S8x1024x512 where
  offsetDims := [2]
  collapsedSliceDims := [0]
  operandBatchingDims := []
  startIndicesBatchingDims := []
  startIndexMap := [0]
  indexVectorDim := 2
  sliceSizes := ![1, 512]
  wf := gather_S32000x512_S8x1024x1_S8x1024x512_2_0_n_n_0_2_1512_wf
def dot_S1024x512_S64x512_S1024x64_1_1_0_0_n_n : DotDims S1024x512 S64x512 S1024x64 where
  lhsContracting := [1]
  rhsContracting := [1]
  lhsNonContracting := [0]
  rhsNonContracting := [0]
  lhsBatch := []
  rhsBatch := []
  wf := dot_S1024x512_S64x512_S1024x64_1_1_0_0_n_n_wf
def dot_S1024x512_S512x512_S1024x512_1_1_0_0_n_n : DotDims S1024x512 S512x512 S1024x512 where
  lhsContracting := [1]
  rhsContracting := [1]
  lhsNonContracting := [0]
  rhsNonContracting := [0]
  lhsBatch := []
  rhsBatch := []
  wf := dot_S1024x512_S512x512_S1024x512_1_1_0_0_n_n_wf
def dot_S512x64_S1024x64_S512x1024_1_1_0_0_n_n : DotDims S512x64 S1024x64 S512x1024 where
  lhsContracting := [1]
  rhsContracting := [1]
  lhsNonContracting := [0]
  rhsNonContracting := [0]
  lhsBatch := []
  rhsBatch := []
  wf := dot_S512x64_S1024x64_S512x1024_1_1_0_0_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf

abbrev win0_0 : Pipeline.Window sig grid0 :=
  Pipeline.Window.ofSpec (Memref.whole main_v30) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S1x64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S1x64x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S1x512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v31_0) S1x1x1024x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v31_1) S1x1x1024x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v31_2) S1x1x1024x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v31_0) S1x1x512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31_1) S1x1x1024x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v31_2) S1x1x1024x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v32) S1x1x512x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8x1024 : Shape := ⟨2, ![8, 1024]⟩
abbrev S32000x512 : Shape := ⟨2, ![32000, 512]⟩
abbrev S512 : Shape := ⟨1, ![512]⟩
abbrev S8x64x512 : Shape := ⟨3, ![8, 64, 512]⟩
abbrev S8x512x512 : Shape := ⟨3, ![8, 512, 512]⟩
abbrev S_ : Shape := ⟨0, ![]⟩
abbrev S8x1024x1 : Shape := ⟨3, ![8, 1024, 1]⟩
abbrev S8x1024x512 : Shape := ⟨3, ![8, 1024, 512]⟩
abbrev S1x1x512 : Shape := ⟨3, ![1, 1, 512]⟩
abbrev S8x1024x8x64 : Shape := ⟨4, ![8, 1024, 8, 64]⟩
abbrev S8x8x1024x64 : Shape := ⟨4, ![8, 8, 1024, 64]⟩
abbrev S8x1024x8x512 : Shape := ⟨4, ![8, 1024, 8, 512]⟩
abbrev S8x8x1024x512 : Shape := ⟨4, ![8, 8, 1024, 512]⟩
abbrev S8x8x1024x1024 : Shape := ⟨4, ![8, 8, 1024, 1024]⟩
abbrev S8x8x1024 : Shape := ⟨3, ![8, 8, 1024]⟩
abbrev S8x8x1024x1 : Shape := ⟨4, ![8, 8, 1024, 1]⟩

abbrev nBuf : Space → Nat
  | .hbm => 109
  | .vmem => 0
  | .smem => 0
  | _ => 0

abbrev bufTy : (tb : Table) → Fin (tcTables nBuf tb) → BufTy
  | .hbm, ⟨0, _⟩ => ⟨S8x1024, .i32⟩
  | .hbm, ⟨1, _⟩ => ⟨S32000x512, .f32⟩
  | .hbm, ⟨2, _⟩ => ⟨S512, .f32⟩
  | .hbm, ⟨3, _⟩ => ⟨S512, .f32⟩
  | .hbm, ⟨4, _⟩ => ⟨S8x64x512, .f32⟩
  | .hbm, ⟨5, _⟩ => ⟨S8x64x512, .f32⟩
  | .hbm, ⟨6, _⟩ => ⟨S8x512x512, .f32⟩
  | .hbm, ⟨7, _⟩ => ⟨S_, .i32⟩
  | .hbm, ⟨8, _⟩ => ⟨S8x1024, .i32⟩
  | .hbm, ⟨9, _⟩ => ⟨S8x1024, .i1⟩
  | .hbm, ⟨10, _⟩ => ⟨S_, .i32⟩
  | .hbm, ⟨11, _⟩ => ⟨S8x1024, .i32⟩
  | .hbm, ⟨12, _⟩ => ⟨S8x1024, .i32⟩
  | .hbm, ⟨13, _⟩ => ⟨S8x1024, .i32⟩
  | .hbm, ⟨14, _⟩ => ⟨S8x1024x1, .i32⟩
  | .hbm, ⟨15, _⟩ => ⟨S8x1024x512, .f32⟩
  | .hbm, ⟨16, _⟩ => ⟨S_, .f32⟩
  | .hbm, ⟨17, _⟩ => ⟨S8x1024, .f32⟩
  | .hbm, ⟨18, _⟩ => ⟨S8x1024x1, .f32⟩
  | .hbm, ⟨19, _⟩ => ⟨S_, .f32⟩
  | .hbm, ⟨20, _⟩ => ⟨S8x1024x1, .f32⟩
  | .hbm, ⟨21, _⟩ => ⟨S8x1024x1, .f32⟩
  | .hbm, ⟨22, _⟩ => ⟨S8x1024x512, .f32⟩
  | .hbm, ⟨23, _⟩ => ⟨S8x1024x512, .f32⟩
  | .hbm, ⟨24, _⟩ => ⟨S8x1024x512, .f32⟩
  | .hbm, ⟨25, _⟩ => ⟨S_, .f32⟩
  | .hbm, ⟨26, _⟩ => ⟨S8x1024, .f32⟩
  | .hbm, ⟨27, _⟩ => ⟨S8x1024x1, .f32⟩
  | .hbm, ⟨28, _⟩ => ⟨S_, .f32⟩
  | .hbm, ⟨29, _⟩ => ⟨S8x1024x1, .f32⟩
  | .hbm, ⟨30, _⟩ => ⟨S8x1024x1, .f32⟩
  | .hbm, ⟨31, _⟩ => ⟨S8x1024x512, .f32⟩
  | .hbm, ⟨32, _⟩ => ⟨S8x1024x512, .f32⟩
  | .hbm, ⟨33, _⟩ => ⟨S_, .f32⟩
  | .hbm, ⟨34, _⟩ => ⟨S8x1024x1, .f32⟩
  | .hbm, ⟨35, _⟩ => ⟨S8x1024x1, .f32⟩
  | .hbm, ⟨36, _⟩ => ⟨S8x1024x1, .f32⟩
  | .hbm, ⟨37, _⟩ => ⟨S8x1024x512, .f32⟩
  | .hbm, ⟨38, _⟩ => ⟨S8x1024x512, .f32⟩
  | .hbm, ⟨39, _⟩ => ⟨S1x1x512, .f32⟩
  | .hbm, ⟨40, _⟩ => ⟨S8x1024x512, .f32⟩
  | .hbm, ⟨41, _⟩ => ⟨S8x1024x512, .f32⟩
  | .hbm, ⟨42, _⟩ => ⟨S1x1x512, .f32⟩
  | .hbm, ⟨43, _⟩ => ⟨S8x1024x512, .f32⟩
  | .hbm, ⟨44, _⟩ => ⟨S8x1024x512, .f32⟩
  | .hbm, ⟨45, _⟩ => ⟨S8x1024x8x64, .f32⟩
  | .hbm, ⟨46, _⟩ => ⟨S8x8x1024x64, .f32⟩
  | .hbm, ⟨47, _⟩ => ⟨S8x1024x8x64, .f32⟩
  | .hbm, ⟨48, _⟩ => ⟨S8x8x1024x64, .f32⟩
  | .hbm, ⟨49, _⟩ => ⟨S8x1024x8x512, .f32⟩
  | .hbm, ⟨50, _⟩ => ⟨S8x8x1024x512, .f32⟩
  | .hbm, ⟨51, _⟩ => ⟨S8x8x1024x1024, .f32⟩
  | .hbm, ⟨52, _⟩ => ⟨S_, .f32⟩
  | .hbm, ⟨53, _⟩ => ⟨S8x8x1024x1024, .f32⟩
  | .hbm, ⟨54, _⟩ => ⟨S8x8x1024x1024, .f32⟩
  | .hbm, ⟨55, _⟩ => ⟨S_, .f32⟩
  | .hbm, ⟨56, _⟩ => ⟨S8x8x1024, .f32⟩
  | .hbm, ⟨57, _⟩ => ⟨S8x8x1024x1, .f32⟩
  | .hbm, ⟨58, _⟩ => ⟨S_, .f32⟩
  | .hbm, ⟨59, _⟩ => ⟨S8x8x1024, .f32⟩
  | .hbm, ⟨60, _⟩ => ⟨S8x8x1024x1, .f32⟩
  | .hbm, ⟨61, _⟩ => ⟨S8x8x1024x1024, .f32⟩
  | .hbm, ⟨62, _⟩ => ⟨S8x8x1024x1024, .f32⟩
  | .hbm, ⟨63, _⟩ => ⟨S8x8x1024x1, .f32⟩
  | .hbm, ⟨64, _⟩ => ⟨S8x8x1024x1024, .f32⟩
  | .hbm, ⟨65, _⟩ => ⟨S8x8x1024x1024, .f32⟩
  | .hbm, ⟨66, _⟩ => ⟨S_, .f32⟩
  | .hbm, ⟨67, _⟩ => ⟨S8x8x1024, .f32⟩
  | .hbm, ⟨68, _⟩ => ⟨S8x8x1024x1, .f32⟩
  | .hbm, ⟨69, _⟩ => ⟨S_, .f32⟩
  | .hbm, ⟨70, _⟩ => ⟨S8x8x1024x1, .f32⟩
  | .hbm, ⟨71, _⟩ => ⟨S8x8x1024x1, .f32⟩
  | .hbm, ⟨72, _⟩ => ⟨S_, .f32⟩
  | .hbm, ⟨73, _⟩ => ⟨S8x8x1024x1, .f32⟩
  | .hbm, ⟨74, _⟩ => ⟨S8x8x1024x1, .f32⟩
  | .hbm, ⟨75, _⟩ => ⟨S_, .f32⟩
  | .hbm, ⟨76, _⟩ => ⟨S8x8x1024, .f32⟩
  | .hbm, ⟨77, _⟩ => ⟨S_, .f32⟩
  | .hbm, ⟨78, _⟩ => ⟨S8x8x1024, .f32⟩
  | .hbm, ⟨79, _⟩ => ⟨S8x8x1024, .f32⟩
  | .hbm, ⟨80, _⟩ => ⟨S8x8x1024x1, .f32⟩
  | .hbm, ⟨81, _⟩ => ⟨S8x8x1024x1024, .f32⟩
  | .hbm, ⟨82, _⟩ => ⟨S8x8x1024x1024, .f32⟩
  | .hbm, ⟨83, _⟩ => ⟨S8x8x1024x1024, .f32⟩
  | .hbm, ⟨84, _⟩ => ⟨S_, .f32⟩
  | .hbm, ⟨85, _⟩ => ⟨S8x8x1024, .f32⟩
  | .hbm, ⟨86, _⟩ => ⟨S8x8x1024x1, .f32⟩
  | .hbm, ⟨87, _⟩ => ⟨S8x8x1024x1024, .f32⟩
  | .hbm, ⟨88, _⟩ => ⟨S8x8x1024x1024, .f32⟩
  | .hbm, ⟨89, _⟩ => ⟨S8x8x1024x1024, .f32⟩
  | .hbm, ⟨90, _⟩ => ⟨S8x8x1024x1024, .f32⟩
  | .hbm, ⟨91, _⟩ => ⟨S_, .f32⟩
  | .hbm, ⟨92, _⟩ => ⟨S8x8x1024x1024, .f32⟩
  | .hbm, ⟨93, _⟩ => ⟨S8x8x1024x1024, .f32⟩
  | .hbm, ⟨94, _⟩ => ⟨S_, .f32⟩
  | .hbm, ⟨95, _⟩ => ⟨S8x8x1024x1024, .f32⟩
  | .hbm, ⟨96, _⟩ => ⟨S8x8x1024x1024, .f32⟩
  | .hbm, ⟨97, _⟩ => ⟨S8x8x1024x1024, .f32⟩
  | .hbm, ⟨98, _⟩ => ⟨S8x8x1024x1024, .f32⟩
  | .hbm, ⟨99, _⟩ => ⟨S_, .f32⟩
  | .hbm, ⟨100, _⟩ => ⟨S8x8x1024x1024, .f32⟩
  | .hbm, ⟨101, _⟩ => ⟨S8x8x1024x1024, .f32⟩
  | .hbm, ⟨102, _⟩ => ⟨S_, .f32⟩
  | .hbm, ⟨103, _⟩ => ⟨S8x8x1024x1024, .f32⟩
  | .hbm, ⟨104, _⟩ => ⟨S8x8x1024x1024, .f32⟩
  | .hbm, ⟨105, _⟩ => ⟨S8x8x1024x1024, .f32⟩
  | .hbm, ⟨106, _⟩ => ⟨S8x8x1024x1024, .f32⟩
  | .hbm, ⟨107, _⟩ => ⟨S8x8x1024x1024, .f32⟩
  | .hbm, ⟨108, _⟩ => ⟨S8x8x1024x512, .f32⟩
  | _, _ => ⟨S8x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_5 : Ref sig .tc := ⟨.hbm, 52, rfl⟩
abbrev main_v38 : Ref sig .tc := ⟨.hbm, 53, rfl⟩
abbrev main_v39 : Ref sig .tc := ⟨.hbm, 54, rfl⟩
abbrev main_cst_6 : Ref sig .tc := ⟨.hbm, 55, rfl⟩
abbrev main_v40 : Ref sig .tc := ⟨.hbm, 56, rfl⟩
abbrev main_v41 : Ref sig .tc := ⟨.hbm, 57, rfl⟩
abbrev main_cst_7 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_8 : Ref sig .tc := ⟨.hbm, 66, rfl⟩
abbrev main_v49 : Ref sig .tc := ⟨.hbm, 67, rfl⟩
abbrev main_v50 : Ref sig .tc := ⟨.hbm, 68, rfl⟩
abbrev main_cst_9 : Ref sig .tc := ⟨.hbm, 69, rfl⟩
abbrev main_v51 : Ref sig .tc := ⟨.hbm, 70, rfl⟩
abbrev main_v52 : Ref sig .tc := ⟨.hbm, 71, rfl⟩
abbrev main_cst_10 : Ref sig .tc := ⟨.hbm, 72, rfl⟩
abbrev main_v53 : Ref sig .tc := ⟨.hbm, 73, rfl⟩
abbrev main_v54 : Ref sig .tc := ⟨.hbm, 74, rfl⟩
abbrev main_cst_11 : Ref sig .tc := ⟨.hbm, 75, rfl⟩
abbrev main_v55 : Ref sig .tc := ⟨.hbm, 76, rfl⟩
abbrev main_cst_12 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_13 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_14 : Ref sig .tc := ⟨.hbm, 91, rfl⟩
abbrev main_v68 : Ref sig .tc := ⟨.hbm, 92, rfl⟩
abbrev main_v69 : Ref sig .tc := ⟨.hbm, 93, rfl⟩
abbrev main_cst_15 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_16 : Ref sig .tc := ⟨.hbm, 99, rfl⟩
abbrev main_v74 : Ref sig .tc := ⟨.hbm, 100, rfl⟩
abbrev main_v75 : Ref sig .tc := ⟨.hbm, 101, rfl⟩
abbrev main_cst_17 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩

abbrev nD : Nat := 1
abbrev τ : Topo := Topo.v7x

variable {F : FTy → Type} [FloatOps F]

class Facts₀ : Prop where
  bcast_S_S8x1024 : S_.BroadcastsInDim S8x1024 (![] : Fin 0 → Fin S8x1024.rank)
  bcast_S8x1024_S8x1024x1_0_1 : S8x1024.BroadcastsInDim S8x1024x1 (![0, 1] : Fin 2 → Fin S8x1024x1.rank)
  reducesTo_S8x1024x512_S8x1024_d2 : S8x1024x512.ReducesTo [2] S8x1024
  h_S_ : 0 < S_.numel
  bcast_S_S8x1024x1 : S_.BroadcastsInDim S8x1024x1 (![] : Fin 0 → Fin S8x1024x1.rank)
  bcast_S8x1024x1_S8x1024x512_0_1_2 : S8x1024x1.BroadcastsInDim S8x1024x512 (![0, 1, 2] : Fin 3 → Fin S8x1024x512.rank)
  bcast_S512_S1x1x512_2 : S512.BroadcastsInDim S1x1x512 (![2] : Fin 1 → Fin S1x1x512.rank)
  bcast_S1x1x512_S8x1024x512_0_1_2 : S1x1x512.BroadcastsInDim S8x1024x512 (![0, 1, 2] : Fin 3 → Fin S8x1024x512.rank)
  transposes_S8x1024x8x64_S8x8x1024x64_0_2_1_3 : S8x1024x8x64.Transposes [0, 2, 1, 3] S8x8x1024x64
  transposes_S8x1024x8x512_S8x8x1024x512_0_2_1_3 : S8x1024x8x512.Transposes [0, 2, 1, 3] S8x8x1024x512
  bcast_S_S8x8x1024x1024 : S_.BroadcastsInDim S8x8x1024x1024 (![] : Fin 0 → Fin S8x8x1024x1024.rank)
  reducesTo_S8x8x1024x1024_S8x8x1024_d3 : S8x8x1024x1024.ReducesTo [3] S8x8x1024
  bcast_S8x8x1024_S8x8x1024x1_0_1_2 : S8x8x1024.BroadcastsInDim S8x8x1024x1 (![0, 1, 2] : Fin 3 → Fin S8x8x1024x1.rank)
  bcast_S8x8x1024x1_S8x8x1024x1024_0_1_2_3 : S8x8x1024x1.BroadcastsInDim S8x8x1024x1024 (![0, 1, 2, 3] : Fin 4 → Fin S8x8x1024x1024.rank)
  bcast_S_S8x8x1024x1 : S_.BroadcastsInDim S8x8x1024x1 (![] : Fin 0 → Fin S8x8x1024x1.rank)
  bcast_S_S8x8x1024 : S_.BroadcastsInDim S8x8x1024 (![] : Fin 0 → Fin S8x8x1024.rank)
  gather_S32000x512_S8x1024x1_S8x1024x512_2_0_n_n_0_2_1512_wf : GatherDims.WF S32000x512 S8x1024x1 S8x1024x512 [2] [0] [] [0] [] 2 ![1, 512]
  dot_S8x1024x512_S8x64x512_S8x1024x8x64_2_2_01_01_n_n_wf : DotDims.WF S8x1024x512 S8x64x512 S8x1024x8x64 [2] [2] [0, 1] [0, 1] [] []
  dot_S8x1024x512_S8x512x512_S8x1024x8x512_2_2_01_01_n_n_wf : DotDims.WF S8x1024x512 S8x512x512 S8x1024x8x512 [2] [2] [0, 1] [0, 1] [] []
  dot_S8x8x1024x64_S8x8x1024x64_S8x8x1024x1024_3_3_2_2_01_01_wf : DotDims.WF S8x8x1024x64 S8x8x1024x64 S8x8x1024x1024 [3] [3] [2] [2] [0, 1] [0, 1]
  dot_S8x8x1024x1024_S8x8x1024x512_S8x8x1024x512_3_2_2_3_01_01_wf : DotDims.WF S8x8x1024x1024 S8x8x1024x512 S8x8x1024x512 [3] [2] [2] [3] [0, 1] [0, 1]

variable [Facts₀]

def gather_S32000x512_S8x1024x1_S8x1024x512_2_0_n_n_0_2_1512 : GatherDims S32000x512 S8x1024x1 S8x1024x512 where
  offsetDims := [2]
  collapsedSliceDims := [0]
  operandBatchingDims := []
  startIndicesBatchingDims := []
  startIndexMap := [0]
  indexVectorDim := 2
  sliceSizes := ![1, 512]
  wf := gather_S32000x512_S8x1024x1_S8x1024x512_2_0_n_n_0_2_1512_wf
def dot_S8x1024x512_S8x64x512_S8x1024x8x64_2_2_01_01_n_n : DotDims S8x1024x512 S8x64x512 S8x1024x8x64 where
  lhsContracting := [2]
  rhsContracting := [2]
  lhsNonContracting := [0, 1]
  rhsNonContracting := [0, 1]
  lhsBatch := []
  rhsBatch := []
  wf := dot_S8x1024x512_S8x64x512_S8x1024x8x64_2_2_01_01_n_n_wf
def dot_S8x1024x512_S8x512x512_S8x1024x8x512_2_2_01_01_n_n : DotDims S8x1024x512 S8x512x512 S8x1024x8x512 where
  lhsContracting := [2]
  rhsContracting := [2]
  lhsNonContracting := [0, 1]
  rhsNonContracting := [0, 1]
  lhsBatch := []
  rhsBatch := []
  wf := dot_S8x1024x512_S8x512x512_S8x1024x8x512_2_2_01_01_n_n_wf
def dot_S8x8x1024x64_S8x8x1024x64_S8x8x1024x1024_3_3_2_2_01_01 : DotDims S8x8x1024x64 S8x8x1024x64 S8x8x1024x1024 where
  lhsContracting := [3]
  rhsContracting := [3]
  lhsNonContracting := [2]
  rhsNonContracting := [2]
  lhsBatch := [0, 1]
  rhsBatch := [0, 1]
  wf := dot_S8x8x1024x64_S8x8x1024x64_S8x8x1024x1024_3_3_2_2_01_01_wf
def dot_S8x8x1024x1024_S8x8x1024x512_S8x8x1024x512_3_2_2_3_01_01 : DotDims S8x8x1024x1024 S8x8x1024x512 S8x8x1024x512 where
  lhsContracting := [3]
  rhsContracting := [2]
  lhsNonContracting := [2]
  rhsNonContracting := [3]
  lhsBatch := [0, 1]
  rhsBatch := [0, 1]
  wf := dot_S8x8x1024x1024_S8x8x1024x512_S8x8x1024x512_3_2_2_3_01_01_wf

class Facts : Prop extends Facts₀ where

variable [Facts]
-- ==== Proof.KernelRun.lean ====
/-
  The kernel program's run with its result named.

  The program is a stretch of host operations followed by two kernel launches. Every weakly fair execution
  terminates with each buffer the thread still holds at the contents the last launch leaves (`Gen.W3`): the
  result buffer is read there like the argument buffers, which end as they were launched.
-/
import proofs.«155498_j13322988552231_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at what the second launch leaves in it, the arguments unchanged. -/
theorem run_result : θ_run defs (onTc (τ := τ) (main (F := F))) ⟨m, fun _ => 0, ρ⟩ (fun r => ∀ c : Dev nD,
      r.2.mem ((c.tc : Thread nD τ).loc main_v32) = W3 m ρ c (Proc.devRef .tc main_v32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v32 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c)⟩)

end Cert.KernelIdeal.Hand

end
-- ==== Proof.LibMatmulNT.lean ====
/-
  A product of an `M×K` matrix with the transpose of an `N×K` matrix, read at an entry.

  When both operands are contracted on their second axis the accumulator-free product has, at `(r, j)`,
  the value `Σ_k lhs(r, k) · rhs(j, k)`: the contraction index has one coordinate, the left operand keeps the
  output row and the right operand keeps the output column on its first axis.
-/
import Idealize.ShloMosaic.Lib.ValueIdx
import Idealize.ShloMosaic.Lib.Pipeline.Value
import Idealize.ShloMosaic.PureOps.Ideal.Laws

noncomputable section

open scoped BigOperators

namespace Cert.LibMatmulNT

open Idealize.ShloMosaic Idealize.ShloMosaic.ValueIdx

/-- The left operand's index at output `(r, j)` keeps the output row on its first axis; -/
theorem nt_lhs0 (M K N : ℕ) (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin 2) ∈ (DotDims.transposedRhs M K N).lhsBatch by simp [DotDims.transposedRhs]),
    dif_pos (show (0 : Fin 2) ∈ (DotDims.transposedRhs M K N).lhsNonContracting by simp [DotDims.transposedRhs])]
  rfl

/-- and the right operand's keeps the output column on its first axis. -/
theorem nt_rhs0 (M K N : ℕ) (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin 2) ∈ (DotDims.transposedRhs M K N).rhsBatch by simp [DotDims.transposedRhs]),
    dif_pos (show (0 : Fin 2) ∈ (DotDims.transposedRhs M K N).rhsNonContracting by simp [DotDims.transposedRhs])]
  rfl

/-- An `M×K` by (`N×K`)ᵀ product into the zero accumulator, at `(r, j)`: the sum over `k` of
    `lhs (r, k) * rhs (j, k)`. -/
theorem matmul_nt_apply {M K N : ℕ} {φ₁ φ₂ : FTy} (d : DotDims ⟨2, ![M, K]⟩ ⟨2, ![N, K]⟩ ⟨2, ![M, N]⟩)
    (hd : d = DotDims.transposedRhs M K N) (prec : Option ContractPrecision)
    (lhs : FVec Ideal ⟨2, ![M, K]⟩ φ₁) (rhs : FVec Ideal ⟨2, ![N, K]⟩ φ₂) (r : Fin M) (j : Fin N) :
    FloatOps.matmul d prec lhs rhs (constant ⟨2, ![M, N]⟩ .f32 0x00000000#32) (ix2 r j)
      = ∑ k : Fin K, lhs (ix2 r k) * rhs (ix2 j k) := by
  subst hd
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 r j) ((contrEquiv1 (DotDims.transposedRhs M K N) K rfl rfl).symm k) = ix2 r k :=
    funext fun ax => Fin.ext (by
      match ax with
      | ⟨0, _⟩ => exact nt_lhs0 M K N _ _
      | ⟨1, _⟩ => exact ((DotDims.transposedRhs M K N).lhsIdx_val_of_single (cl := (1 : Fin 2)) rfl _ _).trans hk)
  have er : (DotDims.transposedRhs M K N).rhsIdx (ix2 r j) ((contrEquiv1 (DotDims.transposedRhs M K N) K rfl rfl).symm k) = ix2 j k :=
    funext fun ax => Fin.ext (by
      match ax with
      | ⟨0, _⟩ => exact nt_rhs0 M K N _ _
      | ⟨1, _⟩ => exact ((DotDims.transposedRhs M K N).rhsIdx_val_of_single (cr := (1 : Fin 2)) rfl _ _).trans hk)
  rw [el, er]

end Cert.LibMatmulNT

end
-- ==== Proof.ProjBody.lean ====
/-
  The projection kernel's three stored values, read at an entry.

  At one grid point the body loads a `[1, 1024, 512]` block `x` of the embeddings and a weight block `w`
  (`[1, 64, 512]` for queries and keys, `[1, 512, 512]` for values) and stores, as a `[1, 1, 1024, n]` block,
  the product of `x` with the transpose of `w`: entry `(0, 0, s, a)` is `Σ_e x(0, s, e) · w(0, a, e)`.
  Changes of float format are the identity on extended reals, and the leading unit axes only rename indices.
-/
import proofs.«155498_j13322988552231_1_alg».proof.Proof.Gen.KernelIdeal.Skeleton
import proofs.«155498_j13322988552231_1_alg».proof.Proof.LibMatmulNT
import Idealize.ShloMosaic.Lib.ValueIdx
import Idealize.ShloMosaic.Lib.Pipeline.Value
import Idealize.ShloMosaic.PureOps.Ideal.Laws

noncomputable section

open scoped BigOperators

namespace Cert.KernelIdeal.Hand

open Cert.KernelIdeal Cert.KernelIdeal.Gen Idealize.ShloMosaic Idealize.ShloMosaic.ValueIdx Cert.LibMatmulNT

/-- A `[1, 1024, 512]` block viewed as `[1024, 512]`, at `(s, e)`. -/
theorem rows_apply (x : Vec Ideal S1x1024x512 .f32) (s : Fin 1024) (e : Fin 512) :
    k0_pay1 x (ix2 s e) = x (ix3 (0 : Fin 1) s e) := by
  unfold k0_pay1
  exact shapeCast_apply x _ (ix2 s e) (ix3 (0 : Fin 1) s e) (by
    rw [Shape.rowMajor_val_three, Shape.rowMajor_val_two]
    show (0 * 1024 + s.val) * 512 + e.val = s.val * 512 + e.val
    omega)

/-- A `[1, 64, 512]` weight block viewed as `[64, 512]`, at `(a, e)`. -/
theorem w64_apply (w : Vec Ideal S1x64x512 .f32) (a : Fin 64) (e : Fin 512) :
    shapeCast S64x512 w shapeCasts_S1x64x512_S64x512 (ix2 a e) = w (ix3 (0 : Fin 1) a e) :=
  shapeCast_apply w _ (ix2 a e) (ix3 (0 : Fin 1) a e) (by
    rw [Shape.rowMajor_val_three, Shape.rowMajor_val_two]
    show (0 * 64 + a.val) * 512 + e.val = a.val * 512 + e.val
    omega)

/-- A `[1, 512, 512]` weight block viewed as `[512, 512]`, at `(a, e)`. -/
theorem w512_apply (w : Vec Ideal S1x512x512 .f32) (a : Fin 512) (e : Fin 512) :
    shapeCast S512x512 w shapeCasts_S1x512x512_S512x512 (ix2 a e) = w (ix3 (0 : Fin 1) a e) :=
  shapeCast_apply w _ (ix2 a e) (ix3 (0 : Fin 1) a e) (by
    rw [Shape.rowMajor_val_three, Shape.rowMajor_val_two]
    show (0 * 512 + a.val) * 512 + e.val = a.val * 512 + e.val
    omega)

/-- A `[1024, 64]` result stored as a `[1, 1, 1024, 64]` block, at `(0, 0, s, a)`. -/
theorem blk64_apply (v : FVec Ideal S1024x64 .bf16) (s : Fin 1024) (a : Fin 64) :
    shapeCast S1x1x1024x64 v shapeCasts_S1024x64_S1x1x1024x64 (ix4 (0 : Fin 1) (0 : Fin 1) s a) = v (ix2 s a) :=
  shapeCast_apply v _ (ix4 (0 : Fin 1) (0 : Fin 1) s a) (ix2 s a) (by
    rw [Shape.rowMajor_val_four, Shape.rowMajor_val_two]
    show s.val * 64 + a.val = ((0 * 1 + 0) * 1024 + s.val) * 64 + a.val
    omega)

/-- A `[1024, 512]` result stored as a `[1, 1, 1024, 512]` block, at `(0, 0, s, a)`. -/
theorem blk512_apply (v : FVec Ideal S1024x512 .bf16) (s : Fin 1024) (a : Fin 512) :
    shapeCast S1x1x1024x512 v shapeCasts_S1024x512_S1x1x1024x512 (ix4 (0 : Fin 1) (0 : Fin 1) s a) = v (ix2 s a) :=
  shapeCast_apply v _ (ix4 (0 : Fin 1) (0 : Fin 1) s a) (ix2 s a) (by
    rw [Shape.rowMajor_val_four, Shape.rowMajor_val_two]
    show s.val * 512 + a.val = ((0 * 1 + 0) * 1024 + s.val) * 512 + a.val
    omega)

/-- The query block: `Σ_e x(0, s, e) · w(0, a, e)`. -/
theorem payQ_apply (x : Vec Ideal S1x1024x512 .f32) (w : Vec Ideal S1x64x512 .f32) (s : Fin 1024) (a : Fin 64) :
    k0_pay2 x w (ix4 (0 : Fin 1) (0 : Fin 1) s a) = ∑ e : Fin 512, x (ix3 (0 : Fin 1) s e) * w (ix3 (0 : Fin 1) a e) := by
  unfold k0_pay2
  refine (blk64_apply _ s a).trans ?_
  refine (matmul_nt_apply (M := 1024) (K := 512) (N := 64) dot_S1024x512_S64x512_S1024x64_1_1_0_0_n_n rfl none _ _ s a).trans ?_
  exact Finset.sum_congr rfl fun e _ => congrArg₂ (· * ·) (rows_apply x s e) (w64_apply w a e)

/-- The key block: the same product with the key weights. -/
theorem payK_apply (x : Vec Ideal S1x1024x512 .f32) (w : Vec Ideal S1x64x512 .f32) (s : Fin 1024) (a : Fin 64) :
    k0_pay3 x w (ix4 (0 : Fin 1) (0 : Fin 1) s a) = ∑ e : Fin 512, x (ix3 (0 : Fin 1) s e) * w (ix3 (0 : Fin 1) a e) := by
  unfold k0_pay3
  refine (blk64_apply _ s a).trans ?_
  refine (matmul_nt_apply (M := 1024) (K := 512) (N := 64) dot_S1024x512_S64x512_S1024x64_1_1_0_0_n_n rfl none _ _ s a).trans ?_
  exact Finset.sum_congr rfl fun e _ => congrArg₂ (· * ·) (rows_apply x s e) (w64_apply w a e)

/-- The value block: the same product with the value weights, `512` output features. -/
theorem payV_apply (x : Vec Ideal S1x1024x512 .f32) (w : Vec Ideal S1x512x512 .f32) (s : Fin 1024) (a : Fin 512) :
    k0_pay4 x w (ix4 (0 : Fin 1) (0 : Fin 1) s a) = ∑ e : Fin 512, x (ix3 (0 : Fin 1) s e) * w (ix3 (0 : Fin 1) a e) := by
  unfold k0_pay4
  refine (blk512_apply _ s a).trans ?_
  refine (matmul_nt_apply (M := 1024) (K := 512) (N := 512) dot_S1024x512_S512x512_S1024x512_1_1_0_0_n_n rfl none _ _ s a).trans ?_
  exact Finset.sum_congr rfl fun e _ => congrArg₂ (· * ·) (rows_apply x s e) (w512_apply w a e)

end Cert.KernelIdeal.Hand

end
-- ==== Proof.Spec.lean ====
/-
  The function both programs compute, as plain formulas on the extended reals.

  With `h` the layer-normalised embeddings `[8, 1024, 512]` and three weight arrays, a head `hh` of batch `b` has

    q(s, a) = Σ_e h(b, s, e) · Wq(hh, a, e)      k(t, a) = Σ_e h(b, t, e) · Wk(hh, a, e)
    v(t, e') = Σ_e h(b, t, e) · Wv(hh, e', e)    score(s, t) = Σ_a q(s, a) · k(t, a).

  Row `s` of the scores is rescaled (`scale`), normalised by its minimum and maximum to
  `sn(t) = (x(t) − min x) / (max x − min x)`, and with `M = max sn` the weights are
  `(1 − M) · softmax(sn)(t) + M · 1 / (1 + exp(−(10 · sn(t) − 5)))`; the output is the weights times `v`.
  The two programs differ in `scale` only: one multiplies by a constant, the other divides by another constant,
  and the min–max normalisation forgets any positive rescaling of a row of real numbers.
-/
import Idealize.ShloMosaic.PureOps.Ideal
import Idealize.ShloMosaic.Lib.ValueIdx

noncomputable section

open scoped BigOperators

namespace Cert.Attn

open Idealize.ShloMosaic Idealize.ShloMosaic.ValueIdx

/-- The embeddings after layer normalisation, `[batch, position, feature]`. -/
abbrev SHid : Shape := ⟨3, ![8, 1024, 512]⟩
/-- The query and key weights, `[head, attention feature, feature]`. -/
abbrev SWqk : Shape := ⟨3, ![8, 64, 512]⟩
/-- The value weights, `[head, output feature, feature]`. -/
abbrev SWv : Shape := ⟨3, ![8, 512, 512]⟩
/-- Queries and keys, `[batch, head, position, attention feature]`. -/
abbrev SQK : Shape := ⟨4, ![8, 8, 1024, 64]⟩
/-- Values and the output, `[batch, head, position, output feature]`. -/
abbrev SVal : Shape := ⟨4, ![8, 8, 1024, 512]⟩

/-- The multiplier of the scores in one program: the single-precision number nearest `1/√512`. -/
abbrev mulConst : EReal := Ideal.ofBits .f32 0x3D3504F3#32
/-- The divisor of the scores in the other program: the single-precision number nearest `√512`. -/
abbrev divConst : EReal := Ideal.ofBits .f32 0x41B504F3#32

/-- An array all of whose entries are real numbers. -/
def AllReal {ι : Type} (x : ι → EReal) : Prop := ∀ i, ∃ r : ℝ, x i = (r : EReal)

/-- A query or key entry: the contraction of a position's features with a head's weight row. -/
def proj64 (h : SHid.Idx → EReal) (w : SWqk.Idx → EReal) (b hh : Fin 8) (s : Fin 1024) (a : Fin 64) : EReal :=
  ∑ e : Fin 512, h (ix3 b s e) * w (ix3 hh a e)

/-- A value entry: the same contraction with the value weights. -/
def proj512 (h : SHid.Idx → EReal) (w : SWv.Idx → EReal) (b hh : Fin 8) (t : Fin 1024) (e' : Fin 512) : EReal :=
  ∑ e : Fin 512, h (ix3 b t e) * w (ix3 hh e' e)

/-- The queries (or keys) as an array. -/
def projQK (h : SHid.Idx → EReal) (w : SWqk.Idx → EReal) : SQK.Idx → EReal :=
  fun j => proj64 h w (j 0) (j 1) (j 2) (j 3)

/-- The values as an array. -/
def projV (h : SHid.Idx → EReal) (w : SWv.Idx → EReal) : SVal.Idx → EReal :=
  fun j => proj512 h w (j 0) (j 1) (j 2) (j 3)

/-- The unscaled score of query position `s` against key position `t`. -/
def score (q k : SQK.Idx → EReal) (b hh : Fin 8) (s t : Fin 1024) : EReal :=
  ∑ a : Fin 64, q (ix4 b hh s a) * k (ix4 b hh t a)

/-- The maximum of a row, folded from `−∞`. -/
def rowMax (x : Fin 1024 → EReal) : EReal :=
  (Finset.univ : Finset (Fin 1024)).fold max (Ideal.ofBits .f32 0xFF800000#32) x

/-- The minimum of a row, folded from `+∞`. -/
def rowMin (x : Fin 1024 → EReal) : EReal :=
  (Finset.univ : Finset (Fin 1024)).fold min (Ideal.ofBits .f32 0x7F800000#32) x

/-- Min–max normalisation of a row. -/
def normed (x : Fin 1024 → EReal) (t : Fin 1024) : EReal :=
  Ideal.div (x t - rowMin x) (rowMax x - rowMin x)

/-- The attention weights of a normalised row: the softmax weighted by `1 − M` plus the logistic of
    `10 · sn − 5` weighted by `M`, where `M` is the row's maximum. -/
def blend (sn : Fin 1024 → EReal) (t : Fin 1024) : EReal :=
  (Ideal.ofBits .f32 0x3F800000#32 - rowMax sn)
      * Ideal.div (Ideal.exp (sn t - rowMax sn)) (∑ u : Fin 1024, Ideal.exp (sn u - rowMax sn))
    + rowMax sn
      * Ideal.div (Ideal.ofBits .f32 0x3F800000#32)
          (Ideal.ofBits .f32 0x3F800000#32
            + Ideal.exp (Ideal.ofBits .f32 0x00000000#32
                - (sn t * Ideal.ofBits .f32 0x41200000#32 - Ideal.ofBits .f32 0x40A00000#32)))

/-- The same weights as the other program spells them: the softmax's shift is `max(−∞, M)`, its sum starts from
    the zero word, the logistic's weight is `1 − (1 − M)` and its argument is negated rather than subtracted
    from zero. -/
def blendR (sn : Fin 1024 → EReal) (t : Fin 1024) : EReal :=
  (Ideal.ofBits .f32 0x3F800000#32 - rowMax sn)
      * Ideal.div (Ideal.exp (sn t - max (Ideal.ofBits .f32 0xFF800000#32) (rowMax sn)))
          (Ideal.ofBits .f32 0x00000000#32
            + ∑ u : Fin 1024, Ideal.exp (sn u - max (Ideal.ofBits .f32 0xFF800000#32) (rowMax sn)))
    + (Ideal.ofBits .f32 0x3F800000#32 - (Ideal.ofBits .f32 0x3F800000#32 - rowMax sn))
      * Ideal.div (Ideal.ofBits .f32 0x3F800000#32)
          (Ideal.ofBits .f32 0x3F800000#32
            + Ideal.exp (-(sn t * Ideal.ofBits .f32 0x41200000#32 - Ideal.ofBits .f32 0x40A00000#32)))

/-- The output entry for a given rescaling of the scores and a given spelling `wts` of the weights. -/
def outAt (wts : (Fin 1024 → EReal) → Fin 1024 → EReal) (scale : EReal → EReal)
    (q k : SQK.Idx → EReal) (v : SVal.Idx → EReal) (b hh : Fin 8) (s : Fin 1024) (e' : Fin 512) : EReal :=
  ∑ t : Fin 1024, wts (normed fun t' => scale (score q k b hh s t')) t * v (ix4 b hh t e')

/-- The output array of the program that multiplies the scores. -/
def outMul (q k : SQK.Idx → EReal) (v : SVal.Idx → EReal) : SVal.Idx → EReal :=
  fun j => outAt blend (fun x => x * mulConst) q k v (j 0) (j 1) (j 2) (j 3)

/-- The output array of the program that divides the scores. -/
def outDiv (q k : SQK.Idx → EReal) (v : SVal.Idx → EReal) : SVal.Idx → EReal :=
  fun j => outAt blendR (fun x => Ideal.div x divConst) q k v (j 0) (j 1) (j 2) (j 3)

end Cert.Attn

end
-- ==== Proof.ProjArr.lean ====
/-
  The projection kernel's output arrays as whole-array functions of what the region finds.

  Grid point `(b, hh)` reads block `b` of the embeddings and block `hh` of each weight array and writes block
  `(b, hh)` of each output; the blocks tile the outputs, so after the last point the query array is
  `Σ_e h(b, s, e) · Wq(hh, a, e)` at every `(b, hh, s, a)`, and likewise the keys and the values.
-/
import proofs.«155498_j13322988552231_1_alg».proof.Proof.Gen.KernelIdeal.Frame
import proofs.«155498_j13322988552231_1_alg».proof.Proof.ProjBody
import proofs.«155498_j13322988552231_1_alg».proof.Proof.Spec
import Idealize.ShloMosaic.Lib.Pipeline.Value
import Idealize.ShloMosaic.Lib.Tactic

set_option maxRecDepth 16384

noncomputable section

open scoped BigOperators

namespace Cert.KernelIdeal.Hand

open Cert.KernelIdeal Cert.KernelIdeal.Gen Idealize.ShloMosaic Idealize.ShloMosaic.TcCoe Idealize.ShloMosaic.ValueIdx Idealize.SL.Sem Cert.Attn
open Idealize.ShloMosaic.Pipeline (Dat)

variable (V : (c : Dev nD) → (b : Ref sig .tc) → Buf (Elt Ideal) ((c : Thread nD τ).loc b))

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The index maps over the grid: the embeddings move with the outputs' batch block, the weights with their head
    block, every other block index is zero, and the three outputs move together. -/
theorem idx_facts0 : ∀ t : Fin cfg0.N,
    win0_0.index t (0 : Fin 3) = win0_4.index t (0 : Fin 4) ∧ win0_0.index t (1 : Fin 3) = 0 ∧ win0_0.index t (2 : Fin 3) = 0
    ∧ win0_1.index t (0 : Fin 3) = win0_4.index t (1 : Fin 4) ∧ win0_1.index t (1 : Fin 3) = 0 ∧ win0_1.index t (2 : Fin 3) = 0
    ∧ win0_2.index t (0 : Fin 3) = win0_4.index t (1 : Fin 4) ∧ win0_2.index t (1 : Fin 3) = 0 ∧ win0_2.index t (2 : Fin 3) = 0
    ∧ win0_3.index t (0 : Fin 3) = win0_4.index t (1 : Fin 4) ∧ win0_3.index t (1 : Fin 3) = 0 ∧ win0_3.index t (2 : Fin 3) = 0
    ∧ win0_4.index t (2 : Fin 4) = 0 ∧ win0_4.index t (3 : Fin 4) = 0
    ∧ win0_4.index t (0 : Fin 4) ≤ 7 ∧ win0_4.index t (1 : Fin 4) ≤ 7
    ∧ win0_5.index t = win0_4.index t ∧ win0_6.index t = win0_4.index t :=
  (by decide +kernel : ∀ t : Fin grid0.N, _)

/-- Every block `(b, hh)` of an output is some point's. -/
theorem idx_onto0 : ∀ (q0 : Fin 8) (q1 : Fin 8), ∃ t : Fin cfg0.N, win0_4.index t = ![q0.val, q1.val, 0, 0] :=
  (by decide +kernel : ∀ (q0 : Fin 8) (q1 : Fin 8), ∃ t : Fin grid0.N, win0_4.index t = ![q0.val, q1.val, 0, 0])

/-- What point `t` writes back to the Q array is block `t` of the projection of what the region finds. -/
theorem flushedQ (c : Dev nD) (t : Fin cfg0.N) :
    (dat0 V c).flushed 4 t = ((cfg0.win 4).blk t).view.read (Elt Ideal) (projQK (V c main_v30) (V c main_arg4)) := by
  show (cfg0.win 4).cut (grid0.coords t) ((dat0 V c).after 4 t) = _
  rw [after0_4]
  unfold out0_4
  rw [View.canon_unit_zero hz4]
  simp only [View.ld_unit_zero (S := S1x1024x512) hz3, View.ld_unit_zero (S := S1x64x512) hz3]
  obtain ⟨e00, e01, e02, e10, e11, e12, e20, e21, e22, e30, e31, e32, e42, e43, -, -, e5, e6⟩ := idx_facts0 t
  have f0 : win0_4.index t (0 : Fin 4) = win0_4.index t (0 : Fin 4) := rfl
  have f1 : win0_4.index t (1 : Fin 4) = win0_4.index t (1 : Fin 4) := rfl
  have f2 : win0_4.index t (2 : Fin 4) = win0_4.index t (2 : Fin 4) := rfl
  have f3 : win0_4.index t (3 : Fin 4) = win0_4.index t (3 : Fin 4) := rfl
  refine funext fun (y : S1x1x1024x64.Idx) => ?_
  obtain ⟨y0, y1, s, a, rfl⟩ : ∃ (y0 y1 : Fin 1) (s : Fin 1024) (a : Fin 64), y = ix4 y0 y1 s a :=
    ⟨y 0, y 1, y 2, y 3, eq_ix4 y⟩
  obtain rfl : y0 = 0 := Subsingleton.elim _ _
  obtain rfl : y1 = 0 := Subsingleton.elim _ _
  show k0_pay2 (iblk0 V c 0 t) (iblk0 V c 1 t) (ix4 0 0 s a)
    = projQK (V c main_v30) (V c main_arg4) (((cfg0.win 4).blk t).view.emb (ix4 0 0 s a))
  refine (payQ_apply (iblk0 V c 0 t) (iblk0 V c 1 t) s a).trans ?_
  show _ = proj64 (V c main_v30) (V c main_arg4) _ _ _ _
  unfold proj64
  refine Finset.sum_congr rfl fun e _ => ?_
  refine congrArg₂ (· * ·) ?_ ?_
  · show V c main_v30 (((cfg0.win 0).blk t).view.emb (ix3 0 s e)) = V c main_v30 _
    refine congrArg (V c main_v30) (funext fun ax => Fin.ext ?_)
    match ax with
    | ⟨0, _⟩ => show win0_0.index t (0 : Fin 3) * 1 + 1 * 0 = win0_4.index t (0 : Fin 4) * 1 + 1 * 0; omega
    | ⟨1, _⟩ => show win0_0.index t (1 : Fin 3) * 1024 + 1 * s.val = win0_4.index t (2 : Fin 4) * 1024 + 1 * s.val; omega
    | ⟨2, _⟩ => show win0_0.index t (2 : Fin 3) * 512 + 1 * e.val = e.val; omega
  · show V c main_arg4 (((cfg0.win 1).blk t).view.emb (ix3 0 a e)) = V c main_arg4 _
    refine congrArg (V c main_arg4) (funext fun ax => Fin.ext ?_)
    match ax with
    | ⟨0, _⟩ => show win0_1.index t (0 : Fin 3) * 1 + 1 * 0 = win0_4.index t (1 : Fin 4) * 1 + 1 * 0; omega
    | ⟨1, _⟩ => show win0_1.index t (1 : Fin 3) * 64 + 1 * a.val = win0_4.index t (3 : Fin 4) * 64 + 1 * a.val; omega
    | ⟨2, _⟩ => show win0_1.index t (2 : Fin 3) * 512 + 1 * e.val = e.val; omega

/-- An index of the Q array is in point `t`'s block iff each coordinate is in the block's range on its axis. -/
theorem mem_blkQ (t : Fin cfg0.N) (i : S8x8x1024x64.Idx) :
    i ∈ ((cfg0.win 4).blk t).view.set ↔ ∀ a : Fin 4, win0_4.index t a * S1x1x1024x64.size a ≤ (i a).val
      ∧ (i a).val < win0_4.index t a * S1x1x1024x64.size a + S1x1x1024x64.size a := by
  show i ∈ ((View.whole main_v31_0).slice (win0_4.rect t)).set ↔ _
  rw [View.set_slice_whole, Rect.mem_set_unit]
  exact Iff.rfl

/-- Every index of the Q array is in the block of the point at its batch and head. -/
theorem coverQ (i : S8x8x1024x64.Idx) :
    ∃ t : Fin cfg0.N, (cfg0.win 4).flush t = true ∧ i ∈ ((cfg0.win 4).blk t).view.set := by
  have hi0 : (i 0).val < 8 := (i 0).isLt
  have hi1 : (i 1).val < 8 := (i 1).isLt
  have hi2 : (i 2).val < 1024 := (i 2).isLt
  have hi3 : (i 3).val < 64 := (i 3).isLt
  obtain ⟨t, ht⟩ := idx_onto0 ⟨(i 0).val, hi0⟩ ⟨(i 1).val, hi1⟩
  obtain ⟨-, -, -, -, -, -, -, -, -, -, -, -, -, -, -, -, e5, e6⟩ := idx_facts0 t
  have q0 : win0_4.index t (0 : Fin 4) = (i 0).val := congrFun ht 0
  have q1 : win0_4.index t (1 : Fin 4) = (i 1).val := congrFun ht 1
  have q2 : win0_4.index t (2 : Fin 4) = 0 := congrFun ht 2
  have q3 : win0_4.index t (3 : Fin 4) = 0 := congrFun ht 3
  refine ⟨t, flush0_4 t, ?_⟩
  rw [mem_blkQ]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 1 ≤ (i 1).val ∧ (i 1).val < win0_4.index t (1 : Fin 4) * 1 + 1; omega
  | ⟨2, _⟩ => show win0_4.index t (2 : Fin 4) * 1024 ≤ (i 2).val ∧ (i 2).val < win0_4.index t (2 : Fin 4) * 1024 + 1024; omega
  | ⟨3, _⟩ => show win0_4.index t (3 : Fin 4) * 64 ≤ (i 3).val ∧ (i 3).val < win0_4.index t (3 : Fin 4) * 64 + 64; omega

/-- The Q array after the launch: the projection of what the region finds, at every index. -/
theorem finalQ (c : Dev nD) : (dat0 V c).arrAt 4 cfg0.N = projQK (V c main_v30) (V c main_arg4) :=
  (dat0 V c).arrAt_eq_of_cover 4 _ (fun t _ => flushedQ V c t) coverQ

/-- What point `t` writes back to the K array is block `t` of the projection of what the region finds. -/
theorem flushedK (c : Dev nD) (t : Fin cfg0.N) :
    (dat0 V c).flushed 5 t = ((cfg0.win 5).blk t).view.read (Elt Ideal) (projQK (V c main_v30) (V c main_arg5)) := by
  show (cfg0.win 5).cut (grid0.coords t) ((dat0 V c).after 5 t) = _
  rw [after0_5]
  unfold out0_5
  rw [View.canon_unit_zero hz4]
  simp only [View.ld_unit_zero (S := S1x1024x512) hz3, View.ld_unit_zero (S := S1x64x512) hz3]
  obtain ⟨e00, e01, e02, e10, e11, e12, e20, e21, e22, e30, e31, e32, e42, e43, -, -, e5, e6⟩ := idx_facts0 t
  have f0 : win0_5.index t (0 : Fin 4) = win0_4.index t (0 : Fin 4) := congrFun e5 0
  have f1 : win0_5.index t (1 : Fin 4) = win0_4.index t (1 : Fin 4) := congrFun e5 1
  have f2 : win0_5.index t (2 : Fin 4) = win0_4.index t (2 : Fin 4) := congrFun e5 2
  have f3 : win0_5.index t (3 : Fin 4) = win0_4.index t (3 : Fin 4) := congrFun e5 3
  refine funext fun (y : S1x1x1024x64.Idx) => ?_
  obtain ⟨y0, y1, s, a, rfl⟩ : ∃ (y0 y1 : Fin 1) (s : Fin 1024) (a : Fin 64), y = ix4 y0 y1 s a :=
    ⟨y 0, y 1, y 2, y 3, eq_ix4 y⟩
  obtain rfl : y0 = 0 := Subsingleton.elim _ _
  obtain rfl : y1 = 0 := Subsingleton.elim _ _
  show k0_pay3 (iblk0 V c 0 t) (iblk0 V c 2 t) (ix4 0 0 s a)
    = projQK (V c main_v30) (V c main_arg5) (((cfg0.win 5).blk t).view.emb (ix4 0 0 s a))
  refine (payK_apply (iblk0 V c 0 t) (iblk0 V c 2 t) s a).trans ?_
  show _ = proj64 (V c main_v30) (V c main_arg5) _ _ _ _
  unfold proj64
  refine Finset.sum_congr rfl fun e _ => ?_
  refine congrArg₂ (· * ·) ?_ ?_
  · show V c main_v30 (((cfg0.win 0).blk t).view.emb (ix3 0 s e)) = V c main_v30 _
    refine congrArg (V c main_v30) (funext fun ax => Fin.ext ?_)
    match ax with
    | ⟨0, _⟩ => show win0_0.index t (0 : Fin 3) * 1 + 1 * 0 = win0_5.index t (0 : Fin 4) * 1 + 1 * 0; omega
    | ⟨1, _⟩ => show win0_0.index t (1 : Fin 3) * 1024 + 1 * s.val = win0_5.index t (2 : Fin 4) * 1024 + 1 * s.val; omega
    | ⟨2, _⟩ => show win0_0.index t (2 : Fin 3) * 512 + 1 * e.val = e.val; omega
  · show V c main_arg5 (((cfg0.win 2).blk t).view.emb (ix3 0 a e)) = V c main_arg5 _
    refine congrArg (V c main_arg5) (funext fun ax => Fin.ext ?_)
    match ax with
    | ⟨0, _⟩ => show win0_2.index t (0 : Fin 3) * 1 + 1 * 0 = win0_5.index t (1 : Fin 4) * 1 + 1 * 0; omega
    | ⟨1, _⟩ => show win0_2.index t (1 : Fin 3) * 64 + 1 * a.val = win0_5.index t (3 : Fin 4) * 64 + 1 * a.val; omega
    | ⟨2, _⟩ => show win0_2.index t (2 : Fin 3) * 512 + 1 * e.val = e.val; omega

/-- An index of the K array is in point `t`'s block iff each coordinate is in the block's range on its axis. -/
theorem mem_blkK (t : Fin cfg0.N) (i : S8x8x1024x64.Idx) :
    i ∈ ((cfg0.win 5).blk t).view.set ↔ ∀ a : Fin 4, win0_5.index t a * S1x1x1024x64.size a ≤ (i a).val
      ∧ (i a).val < win0_5.index t a * S1x1x1024x64.size a + S1x1x1024x64.size a := by
  show i ∈ ((View.whole main_v31_1).slice (win0_5.rect t)).set ↔ _
  rw [View.set_slice_whole, Rect.mem_set_unit]
  exact Iff.rfl

/-- Every index of the K array is in the block of the point at its batch and head. -/
theorem coverK (i : S8x8x1024x64.Idx) :
    ∃ t : Fin cfg0.N, (cfg0.win 5).flush t = true ∧ i ∈ ((cfg0.win 5).blk t).view.set := by
  have hi0 : (i 0).val < 8 := (i 0).isLt
  have hi1 : (i 1).val < 8 := (i 1).isLt
  have hi2 : (i 2).val < 1024 := (i 2).isLt
  have hi3 : (i 3).val < 64 := (i 3).isLt
  obtain ⟨t, ht⟩ := idx_onto0 ⟨(i 0).val, hi0⟩ ⟨(i 1).val, hi1⟩
  obtain ⟨-, -, -, -, -, -, -, -, -, -, -, -, -, -, -, -, e5, e6⟩ := idx_facts0 t
  have q0 : win0_5.index t (0 : Fin 4) = (i 0).val := (congrFun e5 0).trans (congrFun ht 0)
  have q1 : win0_5.index t (1 : Fin 4) = (i 1).val := (congrFun e5 1).trans (congrFun ht 1)
  have q2 : win0_5.index t (2 : Fin 4) = 0 := (congrFun e5 2).trans (congrFun ht 2)
  have q3 : win0_5.index t (3 : Fin 4) = 0 := (congrFun e5 3).trans (congrFun ht 3)
  refine ⟨t, flush0_5 t, ?_⟩
  rw [mem_blkK]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 1 ≤ (i 1).val ∧ (i 1).val < win0_5.index t (1 : Fin 4) * 1 + 1; omega
  | ⟨2, _⟩ => show win0_5.index t (2 : Fin 4) * 1024 ≤ (i 2).val ∧ (i 2).val < win0_5.index t (2 : Fin 4) * 1024 + 1024; omega
  | ⟨3, _⟩ => show win0_5.index t (3 : Fin 4) * 64 ≤ (i 3).val ∧ (i 3).val < win0_5.index t (3 : Fin 4) * 64 + 64; omega

/-- The K array after the launch: the projection of what the region finds, at every index. -/
theorem finalK (c : Dev nD) : (dat0 V c).arrAt 5 cfg0.N = projQK (V c main_v30) (V c main_arg5) :=
  (dat0 V c).arrAt_eq_of_cover 5 _ (fun t _ => flushedK V c t) coverK

/-- What point `t` writes back to the V array is block `t` of the projection of what the region finds. -/
theorem flushedV (c : Dev nD) (t : Fin cfg0.N) :
    (dat0 V c).flushed 6 t = ((cfg0.win 6).blk t).view.read (Elt Ideal) (projV (V c main_v30) (V c main_arg6)) := by
  show (cfg0.win 6).cut (grid0.coords t) ((dat0 V c).after 6 t) = _
  rw [after0_6]
  unfold out0_6
  rw [View.canon_unit_zero hz4]
  simp only [View.ld_unit_zero (S := S1x1024x512) hz3, View.ld_unit_zero (S := S1x512x512) hz3]
  obtain ⟨e00, e01, e02, e10, e11, e12, e20, e21, e22, e30, e31, e32, e42, e43, -, -, e5, e6⟩ := idx_facts0 t
  have f0 : win0_6.index t (0 : Fin 4) = win0_4.index t (0 : Fin 4) := congrFun e6 0
  have f1 : win0_6.index t (1 : Fin 4) = win0_4.index t (1 : Fin 4) := congrFun e6 1
  have f2 : win0_6.index t (2 : Fin 4) = win0_4.index t (2 : Fin 4) := congrFun e6 2
  have f3 : win0_6.index t (3 : Fin 4) = win0_4.index t (3 : Fin 4) := congrFun e6 3
  refine funext fun (y : S1x1x1024x512.Idx) => ?_
  obtain ⟨y0, y1, s, a, rfl⟩ : ∃ (y0 y1 : Fin 1) (s : Fin 1024) (a : Fin 512), y = ix4 y0 y1 s a :=
    ⟨y 0, y 1, y 2, y 3, eq_ix4 y⟩
  obtain rfl : y0 = 0 := Subsingleton.elim _ _
  obtain rfl : y1 = 0 := Subsingleton.elim _ _
  show k0_pay4 (iblk0 V c 0 t) (iblk0 V c 3 t) (ix4 0 0 s a)
    = projV (V c main_v30) (V c main_arg6) (((cfg0.win 6).blk t).view.emb (ix4 0 0 s a))
  refine (payV_apply (iblk0 V c 0 t) (iblk0 V c 3 t) s a).trans ?_
  show _ = proj512 (V c main_v30) (V c main_arg6) _ _ _ _
  unfold proj512
  refine Finset.sum_congr rfl fun e _ => ?_
  refine congrArg₂ (· * ·) ?_ ?_
  · show V c main_v30 (((cfg0.win 0).blk t).view.emb (ix3 0 s e)) = V c main_v30 _
    refine congrArg (V c main_v30) (funext fun ax => Fin.ext ?_)
    match ax with
    | ⟨0, _⟩ => show win0_0.index t (0 : Fin 3) * 1 + 1 * 0 = win0_6.index t (0 : Fin 4) * 1 + 1 * 0; omega
    | ⟨1, _⟩ => show win0_0.index t (1 : Fin 3) * 1024 + 1 * s.val = win0_6.index t (2 : Fin 4) * 1024 + 1 * s.val; omega
    | ⟨2, _⟩ => show win0_0.index t (2 : Fin 3) * 512 + 1 * e.val = e.val; omega
  · show V c main_arg6 (((cfg0.win 3).blk t).view.emb (ix3 0 a e)) = V c main_arg6 _
    refine congrArg (V c main_arg6) (funext fun ax => Fin.ext ?_)
    match ax with
    | ⟨0, _⟩ => show win0_3.index t (0 : Fin 3) * 1 + 1 * 0 = win0_6.index t (1 : Fin 4) * 1 + 1 * 0; omega
    | ⟨1, _⟩ => show win0_3.index t (1 : Fin 3) * 512 + 1 * a.val = win0_6.index t (3 : Fin 4) * 512 + 1 * a.val; omega
    | ⟨2, _⟩ => show win0_3.index t (2 : Fin 3) * 512 + 1 * e.val = e.val; omega

/-- An index of the V array is in point `t`'s block iff each coordinate is in the block's range on its axis. -/
theorem mem_blkV (t : Fin cfg0.N) (i : S8x8x1024x512.Idx) :
    i ∈ ((cfg0.win 6).blk t).view.set ↔ ∀ a : Fin 4, win0_6.index t a * S1x1x1024x512.size a ≤ (i a).val
      ∧ (i a).val < win0_6.index t a * S1x1x1024x512.size a + S1x1x1024x512.size a := by
  show i ∈ ((View.whole main_v31_2).slice (win0_6.rect t)).set ↔ _
  rw [View.set_slice_whole, Rect.mem_set_unit]
  exact Iff.rfl

/-- Every index of the V array is in the block of the point at its batch and head. -/
theorem coverV (i : S8x8x1024x512.Idx) :
    ∃ t : Fin cfg0.N, (cfg0.win 6).flush t = true ∧ i ∈ ((cfg0.win 6).blk t).view.set := by
  have hi0 : (i 0).val < 8 := (i 0).isLt
  have hi1 : (i 1).val < 8 := (i 1).isLt
  have hi2 : (i 2).val < 1024 := (i 2).isLt
  have hi3 : (i 3).val < 512 := (i 3).isLt
  obtain ⟨t, ht⟩ := idx_onto0 ⟨(i 0).val, hi0⟩ ⟨(i 1).val, hi1⟩
  obtain ⟨-, -, -, -, -, -, -, -, -, -, -, -, -, -, -, -, e5, e6⟩ := idx_facts0 t
  have q0 : win0_6.index t (0 : Fin 4) = (i 0).val := (congrFun e6 0).trans (congrFun ht 0)
  have q1 : win0_6.index t (1 : Fin 4) = (i 1).val := (congrFun e6 1).trans (congrFun ht 1)
  have q2 : win0_6.index t (2 : Fin 4) = 0 := (congrFun e6 2).trans (congrFun ht 2)
  have q3 : win0_6.index t (3 : Fin 4) = 0 := (congrFun e6 3).trans (congrFun ht 3)
  refine ⟨t, flush0_6 t, ?_⟩
  rw [mem_blkV]
  intro a
  match a with
  | ⟨0, _⟩ => show win0_6.index t (0 : Fin 4) * 1 ≤ (i 0).val ∧ (i 0).val < win0_6.index t (0 : Fin 4) * 1 + 1; omega
  | ⟨1, _⟩ => show win0_6.index t (1 : Fin 4) * 1 ≤ (i 1).val ∧ (i 1).val < win0_6.index t (1 : Fin 4) * 1 + 1; omega
  | ⟨2, _⟩ => show win0_6.index t (2 : Fin 4) * 1024 ≤ (i 2).val ∧ (i 2).val < win0_6.index t (2 : Fin 4) * 1024 + 1024; omega
  | ⟨3, _⟩ => show win0_6.index t (3 : Fin 4) * 512 ≤ (i 3).val ∧ (i 3).val < win0_6.index t (3 : Fin 4) * 512 + 512; omega

/-- The V array after the launch: the projection of what the region finds, at every index. -/
theorem finalV (c : Dev nD) : (dat0 V c).arrAt 6 cfg0.N = projV (V c main_v30) (V c main_arg6) :=
  (dat0 V c).arrAt_eq_of_cover 6 _ (fun t _ => flushedV V c t) coverV

end Cert.KernelIdeal.Hand

end
-- ==== Proof.LibReal.lean ====
/-
  Real-valuedness of array operations on the extended reals.

  An array of extended reals is REAL when every entry is a real number (`Cert.Attn.AllReal`). This module
  collects, for the operations a host program is made of, the facts by which realness (or any other property
  of the entries) passes from the operands of an operation to its result:

  * operations that only MOVE entries (broadcast, reshape, slice, gather, concatenate): every entry of the result
    is an entry of an operand (`*_mem`), so every property of all the operand's entries holds of all the
    result's (`*_forall`);
  * entrywise arithmetic (sum, difference, product, maximum, power, square root, quotient, exponential): the
    result of real operands is real, the square root and the quotient away from the corners of their domains;
  * contractions and accumulating scatters: a finite sum of products, or of entries, of reals is real;
  * the single-precision constants `0`, `1`, `-1/2` as reals and `1e-5` as a positive real.
-/
import Idealize.ShloMosaic.PureOps.Ideal
import Idealize.ShloMosaic.PureOps.Ideal.Laws
import Idealize.ShloMosaic.PureOps.ShapeOps
import Idealize.ShloMosaic.PureOps.Vector
import Idealize.ShloMosaic.PureOps.Contract
import proofs.«155498_j13322988552231_1_alg».proof.Proof.Spec

noncomputable section

open scoped BigOperators

namespace Cert.LibReal

open Idealize.ShloMosaic Cert.Attn

/-! ### Operations that move entries -/

section Move
variable {α : Type} {s t : Shape}

/-- If every entry of `y` is an entry of `x`, whatever holds of all entries of `x` holds of all of `y`. -/
theorem forall_of_mem {ι κ : Type} {x : ι → α} {y : κ → α} (hm : ∀ j, ∃ i, y j = x i) {P : α → Prop}
    (hx : ∀ i, P (x i)) : ∀ j, P (y j) := fun j => by
  obtain ⟨i, hi⟩ := hm j
  rw [hi]; exact hx i

/-- Every entry of a broadcast is an entry of its operand. -/
theorem broadcastInDim_mem (dims : Fin s.rank → Fin t.rank) (h : s.BroadcastsInDim t dims) (x : s.Idx → α) :
    ∀ j, ∃ i, broadcastInDim t dims h x j = x i := fun _ => ⟨_, rfl⟩

/-- Every entry of a reshaped array is an entry of its operand. -/
theorem shapeCast_mem (x : s.Idx → α) (h : s.ShapeCasts t) : ∀ j, ∃ i, shapeCast t x h j = x i :=
  fun _ => ⟨_, rfl⟩

/-- Every entry of a slice is an entry of its operand. -/
theorem extractStridedSlice_mem (off : Fin s.rank → Nat) (x : s.Idx → α) (h : s.Slices off t) :
    ∀ j, ∃ i, extractStridedSlice t off x h j = x i := fun _ => ⟨_, rfl⟩

/-- Every entry of a gather is an entry of its operand (the start indices are clamped into the operand). -/
theorem gather_mem {si : Shape} {w : Nat} (d : GatherDims s si t) (x : s.Idx → α) (idx : IVec si w) :
    ∀ j, ∃ i, Host.gather d x idx j = x i := fun _ => ⟨_, rfl⟩

/-- Every entry of a concatenation is an entry of one of the concatenated arrays. -/
theorem concatenate_mem (a : Fin t.rank) (xs : List ((s : Shape) × (s.Idx → α)))
    (h : Shape.Concatenates (xs.map (·.1)) t a) :
    ∀ j, ∃ p ∈ xs, ∃ i, concatenate t a xs h j = p.2 i := fun _ => ⟨_, List.getElem_mem _, _, rfl⟩

/-- What holds of all entries of the operand holds of all entries of its broadcast. -/
theorem broadcastInDim_forall (dims : Fin s.rank → Fin t.rank) (h : s.BroadcastsInDim t dims) (x : s.Idx → α)
    {P : α → Prop} (hx : ∀ i, P (x i)) : ∀ j, P (broadcastInDim t dims h x j) :=
  forall_of_mem (broadcastInDim_mem dims h x) hx

/-- What holds of all entries of the operand holds of all entries of its reshape. -/
theorem shapeCast_forall (x : s.Idx → α) (h : s.ShapeCasts t) {P : α → Prop} (hx : ∀ i, P (x i)) :
    ∀ j, P (shapeCast t x h j) :=
  forall_of_mem (shapeCast_mem x h) hx

/-- What holds of all entries of the operand holds of all entries of a slice of it. -/
theorem extractStridedSlice_forall (off : Fin s.rank → Nat) (x : s.Idx → α) (h : s.Slices off t) {P : α → Prop}
    (hx : ∀ i, P (x i)) : ∀ j, P (extractStridedSlice t off x h j) :=
  forall_of_mem (extractStridedSlice_mem off x h) hx

/-- What holds of all entries of the operand holds of all entries gathered from it. -/
theorem gather_forall {si : Shape} {w : Nat} (d : GatherDims s si t) (x : s.Idx → α) (idx : IVec si w)
    {P : α → Prop} (hx : ∀ i, P (x i)) : ∀ j, P (Host.gather d x idx j) :=
  forall_of_mem (gather_mem d x idx) hx

/-- What holds of all entries of two arrays holds of all entries of their concatenation. -/
theorem concatenate2_forall (a : Fin t.rank) {s₁ s₂ : Shape} (x₁ : s₁.Idx → α) (x₂ : s₂.Idx → α)
    (h : Shape.Concatenates (([⟨s₁, x₁⟩, ⟨s₂, x₂⟩] : List ((s : Shape) × (s.Idx → α))).map (·.1)) t a) {P : α → Prop}
    (h₁ : ∀ i, P (x₁ i)) (h₂ : ∀ i, P (x₂ i)) : ∀ j, P (concatenate t a [⟨s₁, x₁⟩, ⟨s₂, x₂⟩] h j) := fun j => by
  obtain ⟨p, hp, i, hi⟩ := concatenate_mem a [⟨s₁, x₁⟩, ⟨s₂, x₂⟩] h j
  rw [hi]
  rcases List.mem_pair.mp hp with rfl | rfl
  · exact h₁ i
  · exact h₂ i

end Move

/-! ### Constants -/

/-- The pattern of `+0.0` denotes the real `0`. -/
theorem ofBits_zero : Ideal.ofBits .f32 0x00000000#32 = ((0 : ℝ) : EReal) := by
  simp [Ideal.ofBits, Ideal.ieee]

/-- The pattern of `1.0` denotes the real `1`. -/
theorem ofBits_one : Ideal.ofBits .f32 0x3F800000#32 = ((1 : ℝ) : EReal) := by
  simp [Ideal.ofBits, Ideal.ieee, -EReal.coe_mul]; norm_num

/-- The pattern of `-0.5` denotes the real `-1/2`. -/
theorem ofBits_neg_half : Ideal.ofBits .f32 0xBF000000#32 = ((-(1 / 2) : ℝ) : EReal) := by
  simp [Ideal.ofBits, Ideal.ieee, -EReal.coe_mul]; norm_num

/-- The pattern of the single-precision `1e-5` denotes a positive real. -/
theorem ofBits_eps : ∃ e : ℝ, 0 < e ∧ Ideal.ofBits .f32 0x3727C5AC#32 = (e : EReal) := by
  refine ⟨_, ?_, by simp [Ideal.ofBits, Ideal.ieee, -EReal.coe_mul]; rfl⟩
  positivity

/-! ### Entrywise arithmetic -/

section Pointwise
variable {s : Shape} {φ : FTy}

/-- An array whose entries are all one real constant is real. -/
theorem allReal_constant (b : BitVec φ.bits) (h : ∃ r : ℝ, Ideal.ofBits φ b = (r : EReal)) :
    AllReal (constant (F := Ideal) s φ b) := fun _ => h

/-- The sum of two real arrays is real. -/
theorem allReal_addf {x y : FVec Ideal s φ} (hx : AllReal x) (hy : AllReal y) : AllReal (addf x y) := fun i => by
  obtain ⟨a, ha⟩ := hx i
  obtain ⟨b, hb⟩ := hy i
  exact ⟨a + b, by show x i + y i = _; rw [ha, hb, EReal.coe_add]⟩

/-- The difference of two real arrays is real. -/
theorem allReal_subf {x y : FVec Ideal s φ} (hx : AllReal x) (hy : AllReal y) : AllReal (subf x y) := fun i => by
  obtain ⟨a, ha⟩ := hx i
  obtain ⟨b, hb⟩ := hy i
  exact ⟨a - b, by show x i - y i = _; rw [ha, hb, EReal.coe_sub]⟩

/-- The product of two real arrays is real. -/
theorem allReal_mulf {x y : FVec Ideal s φ} (hx : AllReal x) (hy : AllReal y) : AllReal (mulf x y) := fun i => by
  obtain ⟨a, ha⟩ := hx i
  obtain ⟨b, hb⟩ := hy i
  exact ⟨a * b, by show x i * y i = _; rw [ha, hb, EReal.coe_mul]⟩

/-- The entrywise maximum of two real arrays is real. -/
theorem allReal_maximumf {x y : FVec Ideal s φ} (hx : AllReal x) (hy : AllReal y) : AllReal (maximumf x y) :=
  fun i => by
    obtain ⟨a, ha⟩ := hx i
    obtain ⟨b, hb⟩ := hy i
    exact ⟨max a b, by show max (x i) (y i) = _; rw [ha, hb]; exact (EReal.coe_strictMono.monotone.map_max).symm⟩

/-- A real array raised entrywise to a real array of exponents is real. -/
theorem allReal_powf {x y : FVec Ideal s φ} (hx : AllReal x) (hy : AllReal y) : AllReal (Host.powf x y) := fun i => by
  obtain ⟨a, ha⟩ := hx i
  obtain ⟨b, hb⟩ := hy i
  exact ⟨Real.rpow a b, by show Ideal.pow (x i) (y i) = _; rw [ha, hb]; rfl⟩

/-- The exponential of a real array is real. -/
theorem allReal_exp {x : FVec Ideal s φ} (hx : AllReal x) : AllReal (Host.exp x) := fun i => by
  obtain ⟨a, ha⟩ := hx i
  exact ⟨Real.exp a, by show Ideal.exp (x i) = _; rw [ha]; rfl⟩

/-- Every entry is a nonnegative real. -/
def AllNonneg (v : s.Idx → EReal) : Prop := ∀ i, ∃ r : ℝ, 0 ≤ r ∧ v i = (r : EReal)

/-- Every entry is a positive real. -/
def AllPos (v : s.Idx → EReal) : Prop := ∀ i, ∃ r : ℝ, 0 < r ∧ v i = (r : EReal)

/-- A nonnegative array is real. -/
theorem AllNonneg.allReal {v : s.Idx → EReal} (h : AllNonneg v) : AllReal v := fun i => by
  obtain ⟨r, _, hr⟩ := h i
  exact ⟨r, hr⟩

/-- A positive array is real. -/
theorem AllPos.allReal {v : s.Idx → EReal} (h : AllPos v) : AllReal v := fun i => by
  obtain ⟨r, _, hr⟩ := h i
  exact ⟨r, hr⟩

/-- An array whose entries are all one positive constant is positive. -/
theorem allPos_constant (b : BitVec φ.bits) (h : ∃ r : ℝ, 0 < r ∧ Ideal.ofBits φ b = (r : EReal)) :
    AllPos (constant (F := Ideal) s φ b) := fun _ => h

/-- A nonnegative array plus a positive array is positive. -/
theorem allPos_addf {x y : FVec Ideal s φ} (hx : AllNonneg x) (hy : AllPos y) : AllPos (addf x y) := fun i => by
  obtain ⟨a, ha0, ha⟩ := hx i
  obtain ⟨b, hb0, hb⟩ := hy i
  exact ⟨a + b, by linarith, by show x i + y i = _; rw [ha, hb, EReal.coe_add]⟩

/-- The square root of a positive array is positive. -/
theorem allPos_sqrt {x : FVec Ideal s φ} (hx : AllPos x) : AllPos (Host.sqrt x) := fun i => by
  obtain ⟨a, ha0, ha⟩ := hx i
  refine ⟨Real.sqrt a, Real.sqrt_pos.mpr ha0, ?_⟩
  show Ideal.sqrt (x i) = _
  rw [ha, Ideal.sqrt_coe, if_neg (not_lt.mpr ha0.le)]

/-- A real array divided entrywise by a positive array is real. -/
theorem allReal_divf {x y : FVec Ideal s φ} (hx : AllReal x) (hy : AllPos y) : AllReal (Host.divf x y) := fun i => by
  obtain ⟨a, ha⟩ := hx i
  obtain ⟨b, hb0, hb⟩ := hy i
  exact ⟨a * (1 / b), by show Ideal.div (x i) (y i) = _; rw [ha, hb, Ideal.div_coe hb0.ne', EReal.coe_mul]⟩

end Pointwise

/-! ### Moving entries keeps realness, nonnegativity and positivity -/

section MoveReal
variable {s t : Shape}

/-- A broadcast of a real array is real. -/
theorem allReal_broadcastInDim (dims : Fin s.rank → Fin t.rank) (h : s.BroadcastsInDim t dims) {x : s.Idx → EReal}
    (hx : AllReal x) : AllReal (broadcastInDim t dims h x) :=
  broadcastInDim_forall dims h x (P := fun v => ∃ r : ℝ, v = (r : EReal)) hx

/-- A broadcast of a nonnegative array is nonnegative. -/
theorem allNonneg_broadcastInDim (dims : Fin s.rank → Fin t.rank) (h : s.BroadcastsInDim t dims) {x : s.Idx → EReal}
    (hx : AllNonneg x) : AllNonneg (broadcastInDim t dims h x) :=
  broadcastInDim_forall dims h x (P := fun v => ∃ r : ℝ, 0 ≤ r ∧ v = (r : EReal)) hx

/-- A broadcast of a positive array is positive. -/
theorem allPos_broadcastInDim (dims : Fin s.rank → Fin t.rank) (h : s.BroadcastsInDim t dims) {x : s.Idx → EReal}
    (hx : AllPos x) : AllPos (broadcastInDim t dims h x) :=
  broadcastInDim_forall dims h x (P := fun v => ∃ r : ℝ, 0 < r ∧ v = (r : EReal)) hx

/-- A reshape of a real array is real. -/
theorem allReal_shapeCast {x : s.Idx → EReal} (h : s.ShapeCasts t) (hx : AllReal x) : AllReal (shapeCast t x h) :=
  shapeCast_forall x h (P := fun v => ∃ r : ℝ, v = (r : EReal)) hx

/-- A reshape of a nonnegative array is nonnegative. -/
theorem allNonneg_shapeCast {x : s.Idx → EReal} (h : s.ShapeCasts t) (hx : AllNonneg x) :
    AllNonneg (shapeCast t x h) :=
  shapeCast_forall x h (P := fun v => ∃ r : ℝ, 0 ≤ r ∧ v = (r : EReal)) hx

/-- A reshape of a positive array is positive. -/
theorem allPos_shapeCast {x : s.Idx → EReal} (h : s.ShapeCasts t) (hx : AllPos x) : AllPos (shapeCast t x h) :=
  shapeCast_forall x h (P := fun v => ∃ r : ℝ, 0 < r ∧ v = (r : EReal)) hx

/-- A slice of a real array is real. -/
theorem allReal_slice (off : Fin s.rank → Nat) {x : s.Idx → EReal} (h : s.Slices off t) (hx : AllReal x) :
    AllReal (extractStridedSlice t off x h) :=
  extractStridedSlice_forall off x h (P := fun v => ∃ r : ℝ, v = (r : EReal)) hx

/-- A slice of a nonnegative array is nonnegative. -/
theorem allNonneg_slice (off : Fin s.rank → Nat) {x : s.Idx → EReal} (h : s.Slices off t) (hx : AllNonneg x) :
    AllNonneg (extractStridedSlice t off x h) :=
  extractStridedSlice_forall off x h (P := fun v => ∃ r : ℝ, 0 ≤ r ∧ v = (r : EReal)) hx

/-- A slice of a positive array is positive. -/
theorem allPos_slice (off : Fin s.rank → Nat) {x : s.Idx → EReal} (h : s.Slices off t) (hx : AllPos x) :
    AllPos (extractStridedSlice t off x h) :=
  extractStridedSlice_forall off x h (P := fun v => ∃ r : ℝ, 0 < r ∧ v = (r : EReal)) hx

/-- Entries gathered from a real array are real. -/
theorem allReal_gather {si : Shape} {w : Nat} (d : GatherDims s si t) {x : s.Idx → EReal} (idx : IVec si w)
    (hx : AllReal x) : AllReal (Host.gather d x idx) :=
  gather_forall d x idx (P := fun v => ∃ r : ℝ, v = (r : EReal)) hx

/-- Entries gathered from a nonnegative array are nonnegative. -/
theorem allNonneg_gather {si : Shape} {w : Nat} (d : GatherDims s si t) {x : s.Idx → EReal} (idx : IVec si w)
    (hx : AllNonneg x) : AllNonneg (Host.gather d x idx) :=
  gather_forall d x idx (P := fun v => ∃ r : ℝ, 0 ≤ r ∧ v = (r : EReal)) hx

/-- The concatenation of two real arrays is real. -/
theorem allReal_concatenate2 (a : Fin t.rank) {s₁ s₂ : Shape} {x₁ : s₁.Idx → EReal} {x₂ : s₂.Idx → EReal}
    (h : Shape.Concatenates (([⟨s₁, x₁⟩, ⟨s₂, x₂⟩] : List ((s : Shape) × (s.Idx → EReal))).map (·.1)) t a)
    (h₁ : AllReal x₁) (h₂ : AllReal x₂) : AllReal (concatenate t a [⟨s₁, x₁⟩, ⟨s₂, x₂⟩] h) :=
  concatenate2_forall a x₁ x₂ h (P := fun v => ∃ r : ℝ, v = (r : EReal)) h₁ h₂

end MoveReal

/-! ### Contractions and accumulating scatters -/

/-- A finite sum of real extended reals is real. -/
theorem sum_real {ι : Type} (S : Finset ι) (f : ι → EReal) (hf : ∀ i ∈ S, ∃ r : ℝ, f i = (r : EReal)) :
    ∃ r : ℝ, (∑ i ∈ S, f i) = (r : EReal) := by
  classical
  induction S using Finset.induction_on with
  | empty => exact ⟨0, by simp⟩
  | insert x S hx ih =>
    obtain ⟨a, ha⟩ := hf x (Finset.mem_insert_self x S)
    obtain ⟨b, hb⟩ := ih fun i hi => hf i (Finset.mem_insert_of_mem hi)
    exact ⟨a + b, by rw [Finset.sum_insert hx, ha, hb, EReal.coe_add]⟩

/-- The host's contraction of two real arrays is real: each entry is a finite sum of products of reals. -/
theorem allReal_dotGeneral {sl sr so : Shape} {φ₁ φ₂ : FTy} (d : DotDims sl sr so) (prec : Option ContractPrecision)
    {lhs : FVec Ideal sl φ₁} {rhs : FVec Ideal sr φ₂} (hl : AllReal lhs) (hr : AllReal rhs) :
    AllReal (Host.dotGeneral d prec lhs rhs) := fun j => by
  show ∃ r : ℝ, FloatOps.dotGeneral d prec .single lhs rhs j = (r : EReal)
  rw [Ideal.dotGeneral_apply]
  refine sum_real _ _ fun k _ => ?_
  obtain ⟨a, ha⟩ := hl (d.lhsIdx j k)
  obtain ⟨b, hb⟩ := hr (d.rhsIdx j k)
  exact ⟨a * b, by rw [ha, hb, EReal.coe_mul]⟩

/-- The host's accumulating scatter of real updates into a real array is real: each entry is the operand's plus a
    finite sum of updates. -/
theorem allReal_scatterAdd {s si u : Shape} {w : Nat} {φ : FTy} (d : ScatterDims s si u) {x : FVec Ideal s φ}
    (idx : IVec si w) {upd : FVec Ideal u φ} (hx : AllReal x) (hu : AllReal upd) :
    AllReal (Host.scatterAdd d x idx upd) := fun i => by
  show ∃ r : ℝ, Ideal.hostScatterAdd d x idx upd i = (r : EReal)
  unfold Ideal.hostScatterAdd
  obtain ⟨a, ha⟩ := hx i
  obtain ⟨b, hb⟩ := sum_real (Finset.univ.filter fun j => d.resultIdx? j idx = some i) upd fun j _ => hu j
  exact ⟨a + b, by rw [ha, hb, EReal.coe_add]⟩

end Cert.LibReal

end
-- ==== Proof.Hidden.lean ====
/-
  The layer-normalised embeddings, as one function of the argument arrays, and their realness.

  For token ids `x`, an embedding table `tbl` and layer-norm parameters `g`, `b`:

    e(p, ·)  = tbl[x(p)]               (a negative id wraps around by the table's height)
    μ(p)     = (0 + Σ_f e(p, f)) / 512
    c(p, f)  = e(p, f) − μ(p)
    σ²(p)    = (0 + Σ_f c(p, f)²) / 512
    h(p, f)  = c(p, f) / √(σ²(p) + ε) · g(f) + b(f),     ε the single-precision 1e-5.

  When the table and the parameters are real, every `h(p, f)` is real: the mean is a finite sum of reals over the
  positive real 512; the variance is a finite sum of squares of reals over 512, hence a nonnegative real; adding the
  positive `ε` makes it positive, so its square root is positive and the quotient by it is real.
-/
import proofs.«155498_j13322988552231_1_alg».proof.Proof.Gen.ReferenceIdeal.Run
import proofs.«155498_j13322988552231_1_alg».proof.Pre_finite_inputs
import proofs.«155498_j13322988552231_1_alg».proof.Proof.Spec
import proofs.«155498_j13322988552231_1_alg».proof.Proof.LibReal
import Idealize.ShloMosaic.Lib.ReduceAll

noncomputable section

open scoped BigOperators

namespace Cert.ReferenceIdeal.RefValue

open Cert.ReferenceIdeal Cert.ReferenceIdeal.Gen Cert.ReferenceIdeal.Value Idealize.ShloMosaic Idealize.ShloMosaic.TcCoe
  Cert.Attn Cert.LibReal

/-! ### The function -/

/-- The token ids with a negative id wrapped around by the table's height, as a column of start indices. -/
def tokenIdx (x : IVec S8x1024 32) : IVec S8x1024x1 32 :=
  broadcastInDim S8x1024x1 ![0, 1] bcast_S8x1024_S8x1024x1_0_1
    (select (cmpi .slt x (broadcastInDim S8x1024 ![] bcast_S_S8x1024 (constantI S_ 32 0#32)))
      (addi x (broadcastInDim S8x1024 ![] bcast_S_S8x1024 (constantI S_ 32 32000#32))) x)

/-- The embeddings: the table's rows at the token ids. -/
def embed (x : IVec S8x1024 32) (tbl : FVec Ideal S32000x512 .f32) : FVec Ideal S8x1024x512 .f32 :=
  Host.gather gather_S32000x512_S8x1024x1_S8x1024x512_2_0_n_n_0_2_1512 tbl (tokenIdx x)

/-- The constant 512 at every position. -/
def width : FVec Ideal S8x1024x1 .f32 :=
  broadcastInDim S8x1024x1 ![] bcast_S_S8x1024x1 (constant S_ .f32 0x44000000#32)

/-- The sum of an array over its last axis divided by 512, one entry per position. -/
def meanOf (y : FVec Ideal S8x1024x512 .f32) : FVec Ideal S8x1024x1 .f32 :=
  Host.divf
    (broadcastInDim S8x1024x1 ![0, 1] bcast_S8x1024_S8x1024x1_0_1
      (Host.reduceAdd y (constant S_ .f32 0x00000000#32) reducesTo_S8x1024x512_S8x1024_d2 h_S_))
    width

/-- The embeddings minus their mean over the features. -/
def centred (x : IVec S8x1024 32) (tbl : FVec Ideal S32000x512 .f32) : FVec Ideal S8x1024x512 .f32 :=
  subf (embed x tbl) (broadcastInDim S8x1024x512 ![0, 1, 2] bcast_S8x1024x1_S8x1024x512_0_1_2 (meanOf (embed x tbl)))

/-- The square root of the variance plus `1e-5`, one entry per position. -/
def spread (x : IVec S8x1024 32) (tbl : FVec Ideal S32000x512 .f32) : FVec Ideal S8x1024x1 .f32 :=
  Host.sqrt (addf (meanOf (mulf (centred x tbl) (centred x tbl)))
    (broadcastInDim S8x1024x1 ![] bcast_S_S8x1024x1 (constant S_ .f32 0x3727C5AC#32)))

/-- A parameter vector repeated at every position. -/
def perFeature (p : FVec Ideal S512 .f32) : FVec Ideal S8x1024x512 .f32 :=
  broadcastInDim S8x1024x512 ![0, 1, 2] bcast_S1x1x512_S8x1024x512_0_1_2
    (broadcastInDim S1x1x512 ![2] bcast_S512_S1x1x512_2 p)

/-- The layer-normalised embeddings. -/
def hidden (x : IVec S8x1024 32) (tbl : FVec Ideal S32000x512 .f32) (g b : FVec Ideal S512 .f32) :
    FVec Ideal S8x1024x512 .f32 :=
  addf (mulf (Host.divf (centred x tbl)
      (broadcastInDim S8x1024x512 ![0, 1, 2] bcast_S8x1024x1_S8x1024x512_0_1_2 (spread x tbl))) (perFeature g))
    (perFeature b)

/-- The reference program's composed term of its first 38 operations is `hidden` of the four argument arrays. -/
theorem res_main_v30_eq (V0 : Valuation τ sig (Elt Ideal)) :
    res_main_v30 (F := Ideal) V0
      = hidden (V0 (Proc.devRef .tc main_arg0)) (V0 (Proc.devRef .tc main_arg1)) (V0 (Proc.devRef .tc main_arg2))
          (V0 (Proc.devRef .tc main_arg3)) := rfl

/-! ### Realness -/

/-- A finite sum of nonnegative reals is a nonnegative real. -/
theorem sum_nonneg_real {ι : Type} (S : Finset ι) (f : ι → EReal)
    (hf : ∀ i ∈ S, ∃ r : ℝ, 0 ≤ r ∧ f i = (r : EReal)) : ∃ r : ℝ, 0 ≤ r ∧ (∑ i ∈ S, f i) = (r : EReal) := by
  classical
  induction S using Finset.induction_on with
  | empty => exact ⟨0, le_refl _, by simp⟩
  | insert x S hx ih =>
    obtain ⟨a, ha0, ha⟩ := hf x (Finset.mem_insert_self x S)
    obtain ⟨b, hb0, hb⟩ := ih fun i hi => hf i (Finset.mem_insert_of_mem hi)
    exact ⟨a + b, add_nonneg ha0 hb0, by rw [Finset.sum_insert hx, ha, hb, EReal.coe_add]⟩

section Reduce
variable {s t u : Shape} {φ : FTy} {axes : List (Fin s.rank)}

/-- The host's sum over some axes of a real array, from a real initial value, is real: each entry is the initial
    value plus a finite sum of entries. -/
theorem allReal_reduceAdd {y : FVec Ideal s φ} {init : FVec Ideal u φ} (h : s.ReducesTo axes t) (hu : 0 < u.numel)
    (hy : AllReal y) (hi : AllReal init) : AllReal (Host.reduceAdd y init h hu) := fun j => by
  show ∃ r : ℝ, Ideal.hostReduceAdd h y (init (Shape.Idx.first hu)) j = (r : EReal)
  unfold Ideal.hostReduceAdd
  obtain ⟨a, ha⟩ := hi (Shape.Idx.first hu)
  obtain ⟨b, hb⟩ := sum_real (Finset.univ.filter fun i => h.drop i = j) y fun i _ => hy i
  exact ⟨a + b, by rw [ha, hb, EReal.coe_add]⟩

/-- The host's sum over some axes of a nonnegative array, from a nonnegative initial value, is nonnegative. -/
theorem allNonneg_reduceAdd {y : FVec Ideal s φ} {init : FVec Ideal u φ} (h : s.ReducesTo axes t) (hu : 0 < u.numel)
    (hy : AllNonneg y) (hi : AllNonneg init) : AllNonneg (Host.reduceAdd y init h hu) := fun j => by
  show ∃ r : ℝ, 0 ≤ r ∧ Ideal.hostReduceAdd h y (init (Shape.Idx.first hu)) j = (r : EReal)
  unfold Ideal.hostReduceAdd
  obtain ⟨a, ha0, ha⟩ := hi (Shape.Idx.first hu)
  obtain ⟨b, hb0, hb⟩ := sum_nonneg_real (Finset.univ.filter fun i => h.drop i = j) y fun i _ => hy i
  exact ⟨a + b, add_nonneg ha0 hb0, by rw [ha, hb, EReal.coe_add]⟩

/-- The entrywise square of a real array is nonnegative. -/
theorem allNonneg_mulf_self {y : FVec Ideal s φ} (hy : AllReal y) : AllNonneg (mulf y y) := fun i => by
  obtain ⟨a, ha⟩ := hy i
  exact ⟨a * a, mul_self_nonneg a, by show y i * y i = _; rw [ha, EReal.coe_mul]⟩

/-- A nonnegative array divided entrywise by a positive array is nonnegative. -/
theorem allNonneg_divf {x y : FVec Ideal s φ} (hx : AllNonneg x) (hy : AllPos y) : AllNonneg (Host.divf x y) :=
  fun i => by
    obtain ⟨a, ha0, ha⟩ := hx i
    obtain ⟨b, hb0, hb⟩ := hy i
    exact ⟨a * (1 / b), mul_nonneg ha0 (one_div_pos.mpr hb0).le, by
      show Ideal.div (x i) (y i) = _; rw [ha, hb, Ideal.div_coe hb0.ne', EReal.coe_mul]⟩

end Reduce

/-- The pattern of `512.0` denotes a positive real. -/
theorem ofBits_width : ∃ e : ℝ, 0 < e ∧ Ideal.ofBits .f32 0x44000000#32 = (e : EReal) := by
  refine ⟨_, ?_, by simp [Ideal.ofBits, Ideal.ieee, -EReal.coe_mul]; rfl⟩
  positivity

/-- The array of the constant 512 is positive. -/
theorem allPos_width : AllPos width :=
  allPos_broadcastInDim _ _ (allPos_constant _ ofBits_width)

/-- The array of the zero word is nonnegative. -/
theorem allNonneg_zero : AllNonneg (constant (F := Ideal) S_ .f32 0x00000000#32) :=
  fun _ => ⟨0, le_refl _, ofBits_zero⟩

/-- The mean over the features of a real array is real. -/
theorem allReal_meanOf {y : FVec Ideal S8x1024x512 .f32} (hy : AllReal y) : AllReal (meanOf y) :=
  allReal_divf (allReal_broadcastInDim _ _ (allReal_reduceAdd _ _ hy allNonneg_zero.allReal)) allPos_width

/-- The mean over the features of a nonnegative array is nonnegative. -/
theorem allNonneg_meanOf {y : FVec Ideal S8x1024x512 .f32} (hy : AllNonneg y) : AllNonneg (meanOf y) :=
  allNonneg_divf (allNonneg_broadcastInDim _ _ (allNonneg_reduceAdd _ _ hy allNonneg_zero)) allPos_width

/-- The embeddings of a real table are real: each is a table entry. -/
theorem embed_real (x : IVec S8x1024 32) {tbl : FVec Ideal S32000x512 .f32} (ht : AllReal tbl) :
    AllReal (embed x tbl) :=
  allReal_gather _ _ ht

/-- The centred embeddings of a real table are real. -/
theorem centred_real (x : IVec S8x1024 32) {tbl : FVec Ideal S32000x512 .f32} (ht : AllReal tbl) :
    AllReal (centred x tbl) :=
  allReal_subf (embed_real x ht) (allReal_broadcastInDim _ _ (allReal_meanOf (embed_real x ht)))

/-- The square root of the variance plus `1e-5` is positive: the variance is a mean of squares of reals. -/
theorem spread_pos (x : IVec S8x1024 32) {tbl : FVec Ideal S32000x512 .f32} (ht : AllReal tbl) :
    AllPos (spread x tbl) :=
  allPos_sqrt (allPos_addf (allNonneg_meanOf (allNonneg_mulf_self (centred_real x ht)))
    (allPos_broadcastInDim _ _ (allPos_constant _ ofBits_eps)))

/-- A real parameter vector repeated at every position is real. -/
theorem perFeature_real {p : FVec Ideal S512 .f32} (hp : AllReal p) : AllReal (perFeature p) :=
  allReal_broadcastInDim _ _ (allReal_broadcastInDim _ _ hp)

/-- The layer-normalised embeddings of a real table under real parameters are real. -/
theorem hidden_real (x : IVec S8x1024 32) {tbl : FVec Ideal S32000x512 .f32} {g b : FVec Ideal S512 .f32}
    (ht : AllReal tbl) (hg : AllReal g) (hb : AllReal b) : AllReal (hidden x tbl g b) :=
  allReal_addf
    (allReal_mulf (allReal_divf (centred_real x ht) (allPos_broadcastInDim _ _ (spread_pos x ht)))
      (perFeature_real hg))
    (perFeature_real hb)

/-! ### The precondition -/

/-- An extended real whose absolute value is below `+∞` is a real number. -/
theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  unfold Ideal.cmp at h
  induction x using EReal.rec with
  | bot => simp at h
  | coe r => exact ⟨r, rfl⟩
  | top => simp at h

instance : Subsingleton Cert.Pre_finite_inputs.S_.Idx := ⟨fun a b => funext fun d => d.elim0⟩

/-- If the conjunction over a whole array of `|x| < +∞` holds, the array is real. -/
theorem allReal_of_all_finite {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (h : Host.reduce IntOp.andi
        (cmpf .olt (Host.absf x)
          (broadcastInDim s ![] hb (constant (F := Ideal) Cert.Pre_finite_inputs.S_ .f32 0x7F800000#32)))
        (constantI Cert.Pre_finite_inputs.S_ 1 1#1) hr hu ValueIdx.ix0 = 1#1) : AllReal x := fun i =>
  real_of_abs_lt_top (x i) (Host.reduce_andi_all _ _ hr hu ValueIdx.ix0 h i)

/-- Under the precondition that all entries of the six float arguments are finite, the six arrays are real. -/
theorem pre_real [Cert.Pre_finite_inputs.Facts] {a0 : IVec S8x1024 32} {a1 : FVec Ideal S32000x512 .f32}
    {a2 a3 : FVec Ideal S512 .f32} {a4 a5 : FVec Ideal S8x64x512 .f32} {a6 : FVec Ideal S8x512x512 .f32}
    (h : Cert.Pre_finite_inputs.fn (F := Ideal) a0 a1 a2 a3 a4 a5 a6 = fun _ => 1#1) :
    AllReal a1 ∧ AllReal a2 ∧ AllReal a3 ∧ AllReal a4 ∧ AllReal a5 ∧ AllReal a6 := by
  have h0 := congrFun h ValueIdx.ix0
  dsimp only [Cert.Pre_finite_inputs.fn, Cert.Pre_finite_inputs.fn_part1] at h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h1, h2⟩ := IntOp.andi_eq_one.1 h0
  exact ⟨allReal_of_all_finite a1 _ _ _ h1, allReal_of_all_finite a2 _ _ _ h2, allReal_of_all_finite a3 _ _ _ h3,
    allReal_of_all_finite a4 _ _ _ h4, allReal_of_all_finite a5 _ _ _ h5, allReal_of_all_finite a6 _ _ _ h6⟩

end Cert.ReferenceIdeal.RefValue

end
-- ==== Proof.KernelEntry.lean ====
/-
  What the attention launch finds on entry.

  Before the first launch the host operations leave the layer-normalised embeddings `h` in one buffer and do not
  touch the weight arrays; the first launch then leaves the queries, keys and values — the three projections of `h`
  — in the buffers the second launch reads.
-/
import proofs.«155498_j13322988552231_1_alg».proof.Proof.Gen.KernelIdeal.Frame
import proofs.«155498_j13322988552231_1_alg».proof.Proof.ProjArr
import proofs.«155498_j13322988552231_1_alg».proof.Proof.Hidden
import Idealize.ShloMosaic.Lib.StableHlo.Run

set_option maxRecDepth 16384

noncomputable section

namespace Cert.KernelIdeal.Hand

open Cert.KernelIdeal Cert.KernelIdeal.Gen Idealize.ShloMosaic Idealize.ShloMosaic.TcCoe Idealize.SL.Sem Cert.Attn
open Idealize.ShloMosaic.StableHlo

variable (m : (ℓ : Loc nD τ sig) → Buf (Elt Ideal) ℓ) (ρ : Dev nD → PrngReg)

/-- The layer-normalised embeddings of the launch arguments. -/
abbrev hid (c : Dev nD) : SHid.Idx → EReal :=
  Cert.ReferenceIdeal.RefValue.hidden (m ((c.tc : Thread nD τ).loc main_arg0)) (m ((c.tc : Thread nD τ).loc main_arg1))
    (m ((c.tc : Thread nD τ).loc main_arg2)) (m ((c.tc : Thread nD τ).loc main_arg3))

set_option maxHeartbeats 8000000 in
/-- The host operations leave the layer-normalised embeddings where the first launch reads them. -/
theorem entry_hid (c : Dev nD) : (V1 m ρ c main_v30 : SHid.Idx → EReal) = hid m c := by
  show StableHlo.after hostOps0 (W0 m ρ c) (Proc.devRef .tc main_v30) = _
  after_results_simp <;> rfl

/-- The host operations and the launches leave the query weights as launched; -/
theorem entry_wq (c : Dev nD) : V1 m ρ c main_arg4 = m ((c.tc : Thread nD τ).loc main_arg4) :=
  ((W2_arr m ρ c 1).trans (((dat0 (V1 m ρ) c).arrAt_in 1 rfl _).trans (A_eq0 (V1 m ρ) c 1))).symm.trans
    ((W3_of_ne m ρ c main_arg4 (by decide)).symm.trans (W3_main_arg4 m ρ c))
/-- the key weights; -/
theorem entry_wk (c : Dev nD) : V1 m ρ c main_arg5 = m ((c.tc : Thread nD τ).loc main_arg5) :=
  ((W2_arr m ρ c 2).trans (((dat0 (V1 m ρ) c).arrAt_in 2 rfl _).trans (A_eq0 (V1 m ρ) c 2))).symm.trans
    ((W3_of_ne m ρ c main_arg5 (by decide)).symm.trans (W3_main_arg5 m ρ c))
/-- and the value weights. -/
theorem entry_wv (c : Dev nD) : V1 m ρ c main_arg6 = m ((c.tc : Thread nD τ).loc main_arg6) :=
  ((W2_arr m ρ c 3).trans (((dat0 (V1 m ρ) c).arrAt_in 3 rfl _).trans (A_eq0 (V1 m ρ) c 3))).symm.trans
    ((W3_of_ne m ρ c main_arg6 (by decide)).symm.trans (W3_main_arg6 m ρ c))

/-- The second launch finds the queries, -/
theorem entryQ (c : Dev nD) :
    (V2 m ρ c main_v31_0 : SQK.Idx → EReal) = projQK (hid m c) (m ((c.tc : Thread nD τ).loc main_arg4)) := by
  show W2 m ρ c (Proc.devRef .tc (Pipeline.arrRef spec0 4)) = _
  rw [W2_arr, finalQ (V1 m ρ) c, entry_hid, entry_wq]
/-- the keys -/
theorem entryK (c : Dev nD) :
    (V2 m ρ c main_v31_1 : SQK.Idx → EReal) = projQK (hid m c) (m ((c.tc : Thread nD τ).loc main_arg5)) := by
  show W2 m ρ c (Proc.devRef .tc (Pipeline.arrRef spec0 5)) = _
  rw [W2_arr, finalK (V1 m ρ) c, entry_hid, entry_wk]
/-- and the values. -/
theorem entryV (c : Dev nD) :
    (V2 m ρ c main_v31_2 : SVal.Idx → EReal) = projV (hid m c) (m ((c.tc : Thread nD τ).loc main_arg6)) := by
  show W2 m ρ c (Proc.devRef .tc (Pipeline.arrRef spec0 6)) = _
  rw [W2_arr, finalV (V1 m ρ) c, entry_hid, entry_wv]

end Cert.KernelIdeal.Hand

end
-- ==== Proof.LibRowOps.lean ====
/-
  Rows and columns of rank-2 vectors read at an index, at the ideal values (extended reals, exact operations).

  * the keep-dimensions column forms: a length-`a` vector cast to `[a, 1]`, and an `[a, 1]` column broadcast over
    `b` lanes, read at `(p, c)`;
  * a bias row: a length-`b` vector cast to `[1, b]` and broadcast over `a` rows reads, at `(p, c)`, its entry `c`;
  * the sum over the lanes of a row (`vector.multi_reduction <add>` over axis 1 of an `[a, b]` vector into the zero
    accumulator) is the `Fin b`-indexed sum of the row's entries;
  * a plain `M×K` by `K×N` matrix product into the zero accumulator is, at `(r, j)`, the sum over `k : Fin K` of
    `lhs (r, k) * rhs (k, j)`, whatever the operands' float formats;
  * a sum over `Fin (m + n)` splits into the sums over its first `m` and its last `n` indices.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibRowOps

open Idealize.ShloMosaic Idealize.ShloMosaic.ValueIdx

variable {α : Type}

/-- A length-`a` vector cast to an `[a, 1]` column reads, at `(p, u)`, its entry `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast over `b` lanes reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A bias row: a length-`b` vector cast to `[1, b]` and broadcast over `a` rows reads, at `(p, c)`, its entry `c`. -/
theorem biasRow_apply {a b : ℕ} (x : (⟨1, ![b]⟩ : Shape).Idx → α) (h : (⟨1, ![b]⟩ : Shape).ShapeCasts ⟨2, ![1, b]⟩)
    (h' : (⟨2, ![1, b]⟩ : Shape).Broadcasts ⟨2, ![a, b]⟩) (p : Fin a) (c : Fin b) :
    broadcastTo ⟨2, ![a, b]⟩ (shapeCast ⟨2, ![1, b]⟩ x h) h' (ix2 p c) = x (ix1 c) :=
  (broadcastTo_1b_ab_apply _ h' p c).trans (shapeCast_a_1a_apply x h 0 c)

/-- A keep-dimensions column: a length-`a` vector `s` cast to `[a, 1]`, mapped entry by entry by `f`, and broadcast over
    `b` lanes reads, at `(p, c)`, `f` of the entry `p`. -/
theorem keepCol_apply {β : Type} {a b : ℕ} (x : (⟨1, ![a]⟩ : Shape).Idx → α) (h : (⟨1, ![a]⟩ : Shape).ShapeCasts ⟨2, ![a, 1]⟩)
    (f : α → β) (h' : (⟨2, ![a, 1]⟩ : Shape).Broadcasts ⟨2, ![a, b]⟩) (p : Fin a) (c : Fin b) :
    broadcastTo ⟨2, ![a, b]⟩ (fun i => f (shapeCast ⟨2, ![a, 1]⟩ x h i)) h' (ix2 p c) = f (x (ix1 p)) :=
  (broadcastTo_a1_ab_apply _ h' p c).trans (congrArg f (shapeCast_a_a1_apply x h p 0))

/-- The sum over the lanes of row `p` of an `[a, b]` vector, into the zero accumulator, at the ideal values. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src (funext fun ax => Fin.ext ?_)
  match ax with
  | ⟨0, _⟩ => rfl
  | ⟨1, _⟩ => rfl

/-- In a plain product the left operand's index at output `(r, j)` keeps the output row on its first axis; -/
theorem plain_lhs0 (M K N : ℕ) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch by simp [DotDims.plain]),
    dif_pos (show (0 : Fin 2) ∈ (DotDims.plain M K N).lhsNonContracting by simp [DotDims.plain])]
  rfl
/-- and the right operand's keeps the output lane on its second. -/
theorem plain_rhs1 (M K N : ℕ) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch by simp [DotDims.plain]),
    dif_pos (show (1 : Fin 2) ∈ (DotDims.plain M K N).rhsNonContracting by simp [DotDims.plain])]
  rfl

/-- A plain `M×K` by `K×N` product into the zero accumulator, at `(r, j)`: the sum over `k` of `lhs (r, k) * rhs (k, j)`. -/
theorem matmul_plain_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (j : Fin N) :
    FloatOps.matmul d prec lhs rhs (constant ⟨2, ![M, N]⟩ .f32 0x00000000#32) (ix2 r j)
      = ∑ k : Fin K, lhs (ix2 r k) * rhs (ix2 k j) := by
  subst hd
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r j) ((contrEquiv1 (DotDims.plain M K N) K rfl rfl).symm k) = ix2 r k :=
    funext fun ax => Fin.ext (by
      match ax with
      | ⟨0, _⟩ => exact plain_lhs0 M K N _ _
      | ⟨1, _⟩ => exact ((DotDims.plain M K N).lhsIdx_val_of_single (cl := (1 : Fin 2)) rfl _ _).trans hk)
  have er : (DotDims.plain M K N).rhsIdx (ix2 r j) ((contrEquiv1 (DotDims.plain M K N) K rfl rfl).symm k) = ix2 k j :=
    funext fun ax => Fin.ext (by
      match ax with
      | ⟨0, _⟩ => exact ((DotDims.plain M K N).rhsIdx_val_of_single (cr := (0 : Fin 2)) rfl _ _).trans hk
      | ⟨1, _⟩ => exact plain_rhs1 M K N _ _)
  rw [el, er]

/-- A sum over `Fin (m + n)` is the sum over its first `m` indices plus the sum over its last `n`. -/
theorem sum_fin_split {M : Type} [AddCommMonoid M] (m n : ℕ) (f : Fin (m + n) → M) :
    ∑ k, f k = (∑ a : Fin m, f ⟨a.val, by omega⟩) + ∑ a : Fin n, f ⟨m + a.val, by omega⟩ :=
  Fin.sum_univ_add f

end Cert.LibRowOps

end
-- ==== Proof.AttnBody.lean ====
/-
  The attention kernel's stored block, read at an entry.

  At one grid point the body loads a `[1, 1, 512, 64]` block `x0` of queries, a `[1, 1, 1024, 64]` block `x1` of
  keys and a `[1, 1, 1024, 512]` block `x2` of values. With

    x(s, t)  = (Σ_a x0(0, 0, s, a) · x1(0, 0, t, a)) · c              (c the scaling constant)
    sn(s, t) = (x(s, t) − min_t x(s, ·)) / (max_t x(s, ·) − min_t x(s, ·))
    M(s)     = max_t sn(s, ·)
    w(s, t)  = (1 − M(s)) · exp(sn(s, t) − M(s)) / Σ_u exp(sn(s, u) − M(s))
                 + M(s) · 1 / (1 + exp(0 − (sn(s, t) · 10 − 5)))

  the stored entry `(0, 0, s, e')` is `Σ_t w(s, t) · x2(0, 0, t, e')`. Changes of float format are the identity on
  extended reals; the leading unit axes, the `[512] → [512, 1]` casts and the `[512, 1] → [512, 1024]` broadcasts
  only rename indices; a reduction over the lanes of a row is the fold, or the sum, over the row's entries.
-/
import proofs.«155498_j13322988552231_1_alg».proof.Proof.Gen.KernelIdeal.Skeleton
import proofs.«155498_j13322988552231_1_alg».proof.Proof.Spec
import proofs.«155498_j13322988552231_1_alg».proof.Proof.LibMatmulNT
import proofs.«155498_j13322988552231_1_alg».proof.Proof.LibRowOps
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Hand

open Cert.KernelIdeal Cert.KernelIdeal.Gen Idealize.ShloMosaic Idealize.ShloMosaic.ValueIdx Cert.Attn Cert.LibMatmulNT
  Cert.LibRowOps

/-! ### Leading unit axes -/

/-- The query block viewed as `[512, 64]`, at `(s, a)`. -/
theorem qry_apply (x0 : Vec Ideal S1x1x512x64 .bf16) (s : Fin 512) (a : Fin 64) :
    shapeCast S512x64 x0 shapeCasts_S1x1x512x64_S512x64 (ix2 s a) = x0 (ix4 (0 : Fin 1) (0 : Fin 1) s a) :=
  shapeCast_apply x0 _ (ix2 s a) (ix4 (0 : Fin 1) (0 : Fin 1) s a) (by
    rw [Shape.rowMajor_val_four, Shape.rowMajor_val_two]
    show ((0 * 1 + 0) * 512 + s.val) * 64 + a.val = s.val * 64 + a.val
    omega)

/-- The key block viewed as `[1024, 64]`, at `(t, a)`. -/
theorem key_apply (x1 : Vec Ideal S1x1x1024x64 .bf16) (t : Fin 1024) (a : Fin 64) :
    shapeCast S1024x64 x1 shapeCasts_S1x1x1024x64_S1024x64 (ix2 t a) = x1 (ix4 (0 : Fin 1) (0 : Fin 1) t a) :=
  shapeCast_apply x1 _ (ix2 t a) (ix4 (0 : Fin 1) (0 : Fin 1) t a) (by
    rw [Shape.rowMajor_val_four, Shape.rowMajor_val_two]
    show ((0 * 1 + 0) * 1024 + t.val) * 64 + a.val = t.val * 64 + a.val
    omega)

/-- The value block viewed as `[1024, 512]`, at `(t, e')`. -/
theorem pay2_apply (x2 : Vec Ideal S1x1x1024x512 .bf16) (t : Fin 1024) (e' : Fin 512) :
    k1_pay2 x2 (ix2 t e') = x2 (ix4 (0 : Fin 1) (0 : Fin 1) t e') := by
  unfold k1_pay2
  exact shapeCast_apply x2 _ (ix2 t e') (ix4 (0 : Fin 1) (0 : Fin 1) t e') (by
    rw [Shape.rowMajor_val_four, Shape.rowMajor_val_two]
    show ((0 * 1 + 0) * 1024 + t.val) * 512 + e'.val = t.val * 512 + e'.val
    omega)

/-- A `[512, 512]` result stored as a `[1, 1, 512, 512]` block, at `(0, 0, s, e')`. -/
theorem outBlk_apply (v : FVec Ideal S512x512 .f32) (s e' : Fin 512) :
    shapeCast S1x1x512x512 v shapeCasts_S512x512_S1x1x512x512 (ix4 (0 : Fin 1) (0 : Fin 1) s e') = v (ix2 s e') :=
  shapeCast_apply v _ (ix4 (0 : Fin 1) (0 : Fin 1) s e') (ix2 s e') (by
    rw [Shape.rowMajor_val_four, Shape.rowMajor_val_two]
    show s.val * 512 + e'.val = ((0 * 1 + 0) * 512 + s.val) * 512 + e'.val
    omega)

/-! ### The scaled scores -/

/-- Row `s` of the scaled scores, as a function of the key position. -/
abbrev scoreRow (x0 : Vec Ideal S1x1x512x64 .bf16) (x1 : Vec Ideal S1x1x1024x64 .bf16) (s : Fin 512) :
    Fin 1024 → EReal :=
  fun t => (∑ a : Fin 64, x0 (ix4 (0 : Fin 1) (0 : Fin 1) s a) * x1 (ix4 (0 : Fin 1) (0 : Fin 1) t a)) * mulConst

/-- The scaled scores as the body computes them: the product of the queries with the transposed keys, times the
    scaling constant. -/
def scores (x0 : Vec Ideal S1x1x512x64 .bf16) (x1 : Vec Ideal S1x1x1024x64 .bf16) : FVec Ideal S512x1024 .f32 :=
  mulf
    (matmul dot_S512x64_S1024x64_S512x1024_1_1_0_0_n_n none
      (shapeCast S512x64 x0 shapeCasts_S1x1x512x64_S512x64 : FVec Ideal S512x64 .bf16)
      (shapeCast S1024x64 x1 shapeCasts_S1x1x1024x64_S1024x64 : FVec Ideal S1024x64 .bf16)
      (constant S512x1024 .f32 0x00000000#32))
    (broadcast S512x1024 (Scalar.ofBits .f32 0x3D3504F3#32))

/-- The scaled scores at `(s, t)`. -/
theorem scores_apply (x0 : Vec Ideal S1x1x512x64 .bf16) (x1 : Vec Ideal S1x1x1024x64 .bf16) (s : Fin 512)
    (t : Fin 1024) : scores x0 x1 (ix2 s t) = scoreRow x0 x1 s t := by
  unfold scores
  exact congrArg (· * mulConst)
    ((matmul_nt_apply (M := 512) (K := 64) (N := 1024) dot_S512x64_S1024x64_S512x1024_1_1_0_0_n_n rfl none _ _ s t).trans
      (Finset.sum_congr rfl fun a _ => congrArg₂ (· * ·) (qry_apply x0 s a) (key_apply x1 t a)))

/-! ### The maximum and the minimum of a row -/

/-- A minimum reduction over one axis, at the ideal values: the fold of `min` from the accumulator's value over that
    axis's coordinates. -/
theorem multiReduction_minimumf_single {s t : Shape} {a : Fin s.rank} {φ : FTy} (src : FVec Ideal s φ)
    (acc : BitVec φ.bits) (h : s.Reduces [a] t) (hφ : FKind.Formats φ) (hacc : acc = FKind.minimumf.neutral φ hφ)
    (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The maximum over the lanes of row `s`, from `−∞`. -/
theorem redMax_apply (v : FVec Ideal S512x1024 .f32) (s : Fin 512) :
    multiReduction .maximumf [1] S512 v 0xFF800000#32 reduces_S512x1024_S512 (.inl rfl) rfl (ix1 s)
      = rowMax fun t => v (ix2 s t) := by
  refine (Ideal.multiReduction_maximumf_single v _ reduces_S512x1024_S512 _ _ (ix1 s)).trans ?_
  unfold rowMax
  refine Finset.fold_congr fun t _ => congrArg v (funext fun ax => Fin.ext ?_)
  match ax with
  | ⟨0, _⟩ => rfl
  | ⟨1, _⟩ => rfl

/-- The minimum over the lanes of row `s`, from `+∞`. -/
theorem redMin_apply (v : FVec Ideal S512x1024 .f32) (s : Fin 512) :
    multiReduction .minimumf [1] S512 v 0x7F800000#32 reduces_S512x1024_S512 (.inl rfl) rfl (ix1 s)
      = rowMin fun t => v (ix2 s t) := by
  refine (multiReduction_minimumf_single v _ reduces_S512x1024_S512 _ _ (ix1 s)).trans ?_
  unfold rowMin
  refine Finset.fold_congr fun t _ => congrArg v (funext fun ax => Fin.ext ?_)
  match ax with
  | ⟨0, _⟩ => rfl
  | ⟨1, _⟩ => rfl

/-- The row maxima as a `[512, 1]` column. -/
def maxCol (v : FVec Ideal S512x1024 .f32) : FVec Ideal S512x1 .f32 :=
  shapeCast S512x1 (multiReduction .maximumf [1] S512 v 0xFF800000#32 reduces_S512x1024_S512 (.inl rfl) rfl)
    shapeCasts_S512_S512x1

/-- The row minima as a `[512, 1]` column. -/
def minCol (v : FVec Ideal S512x1024 .f32) : FVec Ideal S512x1 .f32 :=
  shapeCast S512x1 (multiReduction .minimumf [1] S512 v 0x7F800000#32 reduces_S512x1024_S512 (.inl rfl) rfl)
    shapeCasts_S512_S512x1

theorem maxCol_apply (v : FVec Ideal S512x1024 .f32) (s : Fin 512) (u : Fin 1) :
    maxCol v (ix2 s u) = rowMax fun t => v (ix2 s t) :=
  (shapeCast_a_a1_apply (a := 512) _ shapeCasts_S512_S512x1 s u).trans (redMax_apply v s)

theorem minCol_apply (v : FVec Ideal S512x1024 .f32) (s : Fin 512) (u : Fin 1) :
    minCol v (ix2 s u) = rowMin fun t => v (ix2 s t) :=
  (shapeCast_a_a1_apply (a := 512) _ shapeCasts_S512_S512x1 s u).trans (redMin_apply v s)

/-! ### Min–max normalisation -/

/-- Each row minus its minimum, over its maximum minus its minimum. -/
def normVec (v : FVec Ideal S512x1024 .f32) : FVec Ideal S512x1024 .f32 :=
  divf (subf v (broadcastTo S512x1024 (minCol v) broadcasts_S512x1_S512x1024))
    (broadcastTo S512x1024 (subf (maxCol v) (minCol v)) broadcasts_S512x1_S512x1024)

theorem normVec_apply (v : FVec Ideal S512x1024 .f32) (s : Fin 512) (t : Fin 1024) :
    normVec v (ix2 s t) = normed (fun t' => v (ix2 s t')) t := by
  have hmin : broadcastTo S512x1024 (minCol v) broadcasts_S512x1_S512x1024 (ix2 s t) = rowMin fun t' => v (ix2 s t') :=
    (broadcastTo_a1_ab_apply (a := 512) (b := 1024) (minCol v) broadcasts_S512x1_S512x1024 s t).trans
      (minCol_apply v s 0)
  have hrng : broadcastTo S512x1024 (subf (maxCol v) (minCol v)) broadcasts_S512x1_S512x1024 (ix2 s t)
      = (rowMax fun t' => v (ix2 s t')) - rowMin fun t' => v (ix2 s t') :=
    (broadcastTo_a1_ab_apply (a := 512) (b := 1024) (subf (maxCol v) (minCol v)) broadcasts_S512x1_S512x1024 s t).trans
      (congrArg₂ (· - ·) (maxCol_apply v s 0) (minCol_apply v s 0))
  exact (divf_apply _ _ (ix2 s t)).trans
    (congrArg₂ Ideal.div ((subf_apply v _ (ix2 s t)).trans (congrArg (fun z => v (ix2 s t) - z) hmin)) hrng)

set_option maxRecDepth 8192 in
/-- The normalised scaled scores are the body's `k1_pay3`. -/
theorem pay3_eq (x0 : Vec Ideal S1x1x512x64 .bf16) (x1 : Vec Ideal S1x1x1024x64 .bf16) :
    k1_pay3 x0 x1 = normVec (scores x0 x1) := rfl

/-- The normalised scaled scores at `(s, t)`. -/
theorem pay3_apply (x0 : Vec Ideal S1x1x512x64 .bf16) (x1 : Vec Ideal S1x1x1024x64 .bf16) (s : Fin 512)
    (t : Fin 1024) :
    k1_pay3 x0 x1 (ix2 s t)
      = normed (fun t' =>
          (∑ a : Fin 64, x0 (ix4 (0 : Fin 1) (0 : Fin 1) s a) * x1 (ix4 (0 : Fin 1) (0 : Fin 1) t' a)) * mulConst) t :=
  (congrFun (pay3_eq x0 x1) (ix2 s t)).trans
    ((normVec_apply (scores x0 x1) s t).trans
      (congrArg (fun r => normed r t) (funext fun t' => scores_apply x0 x1 s t')))

/-! ### The weights -/

/-- The exponentials of a vector minus a column repeated over the lanes. -/
def expShift (w : FVec Ideal S512x1024 .f32) (c : FVec Ideal S512x1 .f32) : FVec Ideal S512x1024 .f32 :=
  exp (subf w (broadcastTo S512x1024 c broadcasts_S512x1_S512x1024))

theorem expShift_apply (w : FVec Ideal S512x1024 .f32) (c : FVec Ideal S512x1 .f32) (s : Fin 512) (t : Fin 1024) :
    expShift w c (ix2 s t) = Ideal.exp (w (ix2 s t) - c (ix2 s (0 : Fin 1))) := by
  unfold expShift
  exact congrArg (fun z => Ideal.exp (w (ix2 s t) - z))
    (broadcastTo_a1_ab_apply (a := 512) (b := 1024) c broadcasts_S512x1_S512x1024 s t)

/-- The shifted exponentials over their row sums. -/
def softVec (w : FVec Ideal S512x1024 .f32) (c : FVec Ideal S512x1 .f32) : FVec Ideal S512x1024 .f32 :=
  divf (expShift w c)
    (broadcastTo S512x1024
      (shapeCast S512x1
        (multiReduction .add [1] S512 (expShift w c) 0x00000000#32 reduces_S512x1024_S512 (.inl rfl) rfl)
        shapeCasts_S512_S512x1)
      broadcasts_S512x1_S512x1024)

theorem softVec_apply (w : FVec Ideal S512x1024 .f32) (c : FVec Ideal S512x1 .f32) (s : Fin 512) (t : Fin 1024) :
    softVec w c (ix2 s t)
      = Ideal.div (Ideal.exp (w (ix2 s t) - c (ix2 s (0 : Fin 1))))
          (∑ u : Fin 1024, Ideal.exp (w (ix2 s u) - c (ix2 s (0 : Fin 1)))) := by
  unfold softVec
  exact congrArg₂ Ideal.div (expShift_apply w c s t)
    ((broadcastTo_a1_ab_apply (a := 512) (b := 1024) _ broadcasts_S512x1_S512x1024 s t).trans
      ((shapeCast_a_a1_apply (a := 512) _ shapeCasts_S512_S512x1 s 0).trans
        ((rowSum_apply (a := 512) (b := 1024) (expShift w c) _ reduces_S512x1024_S512 _ _ s).trans
          (Finset.sum_congr rfl fun u _ => expShift_apply w c s u))))

/-- Zero minus (the vector times ten, minus five). -/
def logitVec (w : FVec Ideal S512x1024 .f32) : FVec Ideal S512x1024 .f32 :=
  subf (broadcast S512x1024 (Scalar.ofBits .f32 0x00000000#32))
    (subf (mulf w (broadcast S512x1024 (Scalar.ofBits .f32 0x41200000#32)))
      (broadcast S512x1024 (Scalar.ofBits .f32 0x40A00000#32)))

/-- The weights from the two column factors `c1`, `c2`, the softmax part `p` and the logistic's argument `z`. -/
def wts (c1 c2 : FVec Ideal S512x1 .f32) (p z : FVec Ideal S512x1024 .f32) : FVec Ideal S512x1024 .f32 :=
  addf (mulf (broadcastTo S512x1024 c2 broadcasts_S512x1_S512x1024) p)
    (mulf (broadcastTo S512x1024 c1 broadcasts_S512x1_S512x1024)
      (divf (broadcast S512x1024 (Scalar.ofBits .f32 0x3F800000#32))
        (addf (broadcast S512x1024 (Scalar.ofBits .f32 0x3F800000#32)) (exp z))))

theorem wts_apply (c1 c2 : FVec Ideal S512x1 .f32) (p z : FVec Ideal S512x1024 .f32) (s : Fin 512) (t : Fin 1024) :
    wts c1 c2 p z (ix2 s t)
      = c2 (ix2 s (0 : Fin 1)) * p (ix2 s t)
        + c1 (ix2 s (0 : Fin 1))
          * Ideal.div (Ideal.ofBits .f32 0x3F800000#32)
              (Ideal.ofBits .f32 0x3F800000#32 + Ideal.exp (z (ix2 s t))) := by
  unfold wts
  exact congrArg₂ (· + ·)
    (congrArg (· * p (ix2 s t)) (broadcastTo_a1_ab_apply (a := 512) (b := 1024) c2 broadcasts_S512x1_S512x1024 s t))
    (congrArg
      (· * Ideal.div (Ideal.ofBits .f32 0x3F800000#32) (Ideal.ofBits .f32 0x3F800000#32 + Ideal.exp (z (ix2 s t))))
      (broadcastTo_a1_ab_apply (a := 512) (b := 1024) c1 broadcasts_S512x1_S512x1024 s t))

/-- The weights built from a vector whose row `s` is `sn` are `blend sn` on that row. -/
theorem wts_blend (sn : Fin 1024 → EReal) (w : FVec Ideal S512x1024 .f32) (s : Fin 512)
    (hw : ∀ t, w (ix2 s t) = sn t) (t : Fin 1024) :
    wts (maxCol w) (subf (broadcast S512x1 (Scalar.ofBits .f32 0x3F800000#32)) (maxCol w)) (softVec w (maxCol w))
        (logitVec w) (ix2 s t)
      = blend sn t := by
  have hM : maxCol w (ix2 s (0 : Fin 1)) = rowMax sn := (maxCol_apply w s 0).trans (congrArg rowMax (funext hw))
  refine (wts_apply _ _ _ _ s t).trans ?_
  unfold blend
  refine congrArg₂ (· + ·)
    (congrArg₂ (· * ·) (congrArg (Ideal.ofBits .f32 0x3F800000#32 - ·) hM) ?_)
    (congrArg₂ (· * ·) hM
      (congrArg (fun y => Ideal.div (Ideal.ofBits .f32 0x3F800000#32) (Ideal.ofBits .f32 0x3F800000#32 + Ideal.exp y))
        ?_))
  · refine (softVec_apply w (maxCol w) s t).trans ?_
    exact congrArg₂ Ideal.div (congrArg₂ (fun a b => Ideal.exp (a - b)) (hw t) hM)
      (Finset.sum_congr rfl fun u _ => congrArg₂ (fun a b => Ideal.exp (a - b)) (hw u) hM)
  · exact congrArg
      (fun y => Ideal.ofBits .f32 0x00000000#32 - (y * Ideal.ofBits .f32 0x41200000#32 - Ideal.ofBits .f32 0x40A00000#32))
      (hw t)

/-! ### The stored block -/

/-- The stored block from its five inputs: the weights times the values. -/
theorem pay1_apply (v5 : FVec Ideal S1024x512 .bf16) (c1 c2 : FVec Ideal S512x1 .f32)
    (p z : FVec Ideal S512x1024 .f32) (s e' : Fin 512) :
    k1_pay1 v5 c1 c2 p z (ix4 (0 : Fin 1) (0 : Fin 1) s e') = ∑ t : Fin 1024, wts c1 c2 p z (ix2 s t) * v5 (ix2 t e') := by
  unfold k1_pay1
  refine (outBlk_apply _ s e').trans ?_
  exact matmul_plain_apply (M := 512) (K := 1024) (N := 512) dot_S512x1024_S1024x512_S512x512_1_0_0_1_n_n rfl none _ _ s e'

/-- The stored entry `(0, 0, s, e')`: the weights of the normalised scaled scores of row `s`, times the values. -/
theorem payOut_apply (x0 : Vec Ideal S1x1x512x64 .bf16) (x1 : Vec Ideal S1x1x1024x64 .bf16)
    (x2 : Vec Ideal S1x1x1024x512 .bf16) (s : Fin 512) (e' : Fin 512) :
    k1_pay1 (k1_pay2 x2) (k1_pay4 x0 x1) (k1_pay5 x0 x1) (k1_pay6 x0 x1) (k1_pay7 x0 x1)
        (ix4 (0 : Fin 1) (0 : Fin 1) s e')
      = ∑ t : Fin 1024,
          blend (normed fun t' =>
              (∑ a : Fin 64, x0 (ix4 (0 : Fin 1) (0 : Fin 1) s a) * x1 (ix4 (0 : Fin 1) (0 : Fin 1) t' a)) * mulConst) t
            * x2 (ix4 (0 : Fin 1) (0 : Fin 1) t e') := by
  refine (pay1_apply _ _ _ _ _ s e').trans ?_
  exact Finset.sum_congr rfl fun t _ => congrArg₂ (· * ·)
    (wts_blend (normed (scoreRow x0 x1 s)) (k1_pay3 x0 x1) s (fun t' => pay3_apply x0 x1 s t') t)
    (pay2_apply x2 t e')

end Cert.KernelIdeal.Hand

end
-- ==== Proof.AttnArr.lean ====
/-
  The attention kernel's output array as one whole-array function of what the region finds.

  Grid point `(b, hh, qi)` reads the block of `512` query rows `qi` of batch `b` and head `hh` and all of that
  head's keys and values, and writes the block of `512` output rows `qi`; row `s` of the block is the attention
  weights of the scores of query row `s` against every key, times the values. The blocks tile the output, so after
  the last point the output array is, at every `(b, hh, s, e')`, that weighted sum over all key positions.
-/
import proofs.«155498_j13322988552231_1_alg».proof.Proof.Gen.KernelIdeal.Frame
import proofs.«155498_j13322988552231_1_alg».proof.Proof.Spec
import proofs.«155498_j13322988552231_1_alg».proof.Proof.AttnBody
import Idealize.ShloMosaic.Lib.Pipeline.Value
import Idealize.ShloMosaic.Lib.Tactic

set_option maxRecDepth 16384

noncomputable section

open scoped BigOperators

namespace Cert.KernelIdeal.Hand

open Cert.KernelIdeal Cert.KernelIdeal.Gen Idealize.ShloMosaic Idealize.ShloMosaic.TcCoe Idealize.ShloMosaic.ValueIdx Idealize.SL.Sem Cert.Attn
open Idealize.ShloMosaic.Pipeline (Dat)

variable (V : (c : Dev nD) → (b : Ref sig .tc) → Buf (Elt Ideal) ((c : Thread nD τ).loc b))

theorem hz4Out : (![0, 0, 0, 0] : Fin 4 → Nat) = fun _ => 0 := funext fun a => by fin_cases a <;> rfl

/-- The index maps over the grid: the queries move with the output's batch, head and row block; the keys and the
    values move with its batch and head only; every other block index is zero. -/
theorem idx_facts1 : ∀ t : Fin cfg1.N,
    win1_0.index t (0 : Fin 4) = win1_3.index t (0 : Fin 4) ∧ win1_0.index t (1 : Fin 4) = win1_3.index t (1 : Fin 4)
    ∧ win1_0.index t (2 : Fin 4) = win1_3.index t (2 : Fin 4) ∧ win1_0.index t (3 : Fin 4) = 0
    ∧ win1_1.index t (0 : Fin 4) = win1_3.index t (0 : Fin 4) ∧ win1_1.index t (1 : Fin 4) = win1_3.index t (1 : Fin 4)
    ∧ win1_1.index t (2 : Fin 4) = 0 ∧ win1_1.index t (3 : Fin 4) = 0
    ∧ win1_2.index t (0 : Fin 4) = win1_3.index t (0 : Fin 4) ∧ win1_2.index t (1 : Fin 4) = win1_3.index t (1 : Fin 4)
    ∧ win1_2.index t (2 : Fin 4) = 0 ∧ win1_2.index t (3 : Fin 4) = 0
    ∧ win1_3.index t (3 : Fin 4) = 0
    ∧ win1_3.index t (0 : Fin 4) ≤ 7 ∧ win1_3.index t (1 : Fin 4) ≤ 7 ∧ win1_3.index t (2 : Fin 4) ≤ 1 :=
  (by decide +kernel : ∀ t : Fin grid1.N, _)

/-- Every block `(b, hh, qi)` of the output is some point's. -/
theorem idx_onto1 : ∀ (q0 q1 : Fin 8) (q2 : Fin 2), ∃ t : Fin cfg1.N, win1_3.index t = ![q0.val, q1.val, q2.val, 0] :=
  (by decide +kernel : ∀ (q0 q1 : Fin 8) (q2 : Fin 2), ∃ t : Fin grid1.N, win1_3.index t = ![q0.val, q1.val, q2.val, 0])

/-- What point `t` writes back to the output array is block `t` of the attention output of what the region finds. -/
theorem flushedOut (c : Dev nD) (t : Fin cfg1.N) :
    (dat1 V c).flushed 3 t
      = ((cfg1.win 3).blk t).view.read (Elt Ideal) (outMul (V c main_v31_0) (V c main_v31_1) (V c main_v31_2)) := by
  show (cfg1.win 3).cut (grid1.coords t) ((dat1 V c).after 3 t) = _
  rw [after1_3]
  unfold out1_3
  rw [View.canon_unit_zero hz4Out]
  simp only [View.ld_unit_zero (S := S1x1x512x64) hz4Out, View.ld_unit_zero (S := S1x1x1024x64) hz4Out,
    View.ld_unit_zero (S := S1x1x1024x512) hz4Out]
  obtain ⟨e00, e01, e02, e03, e10, e11, e12, e13, e20, e21, e22, e23, e33, -, -, -⟩ := idx_facts1 t
  refine funext fun (y : S1x1x512x512.Idx) => ?_
  obtain ⟨y0, y1, s, e', rfl⟩ : ∃ (y0 y1 : Fin 1) (s : Fin 512) (e' : Fin 512), y = ix4 y0 y1 s e' :=
    ⟨y 0, y 1, y 2, y 3, eq_ix4 y⟩
  obtain rfl : y0 = 0 := Subsingleton.elim _ _
  obtain rfl : y1 = 0 := Subsingleton.elim _ _
  show k1_pay1 (k1_pay2 (iblk1 V c 2 t)) (k1_pay4 (iblk1 V c 0 t) (iblk1 V c 1 t)) (k1_pay5 (iblk1 V c 0 t) (iblk1 V c 1 t))
      (k1_pay6 (iblk1 V c 0 t) (iblk1 V c 1 t)) (k1_pay7 (iblk1 V c 0 t) (iblk1 V c 1 t)) (ix4 0 0 s e')
    = outMul (V c main_v31_0) (V c main_v31_1) (V c main_v31_2) (((cfg1.win 3).blk t).view.emb (ix4 0 0 s e'))
  refine (payOut_apply (iblk1 V c 0 t) (iblk1 V c 1 t) (iblk1 V c 2 t) s e').trans ?_
  show _ = outAt blend (fun x => x * mulConst) (V c main_v31_0) (V c main_v31_1) (V c main_v31_2) _ _ _ _
  unfold outAt
  refine Finset.sum_congr rfl fun t' _ => ?_
  refine congrArg₂ (· * ·) ?_ ?_
  · refine congrArg (fun sn => blend sn t') ?_
    refine congrArg normed (funext fun t'' => ?_)
    refine congrArg (· * mulConst) ?_
    unfold score
    refine Finset.sum_congr rfl fun a _ => ?_
    refine congrArg₂ (· * ·) ?_ ?_
    · show V c main_v31_0 (((cfg1.win 0).blk t).view.emb (ix4 0 0 s a)) = V c main_v31_0 _
      refine congrArg (V c main_v31_0) (funext fun ax => Fin.ext ?_)
      match ax with
      | ⟨0, _⟩ => show win1_0.index t (0 : Fin 4) * 1 + 1 * 0 = win1_3.index t (0 : Fin 4) * 1 + 1 * 0; omega
      | ⟨1, _⟩ => show win1_0.index t (1 : Fin 4) * 1 + 1 * 0 = win1_3.index t (1 : Fin 4) * 1 + 1 * 0; omega
      | ⟨2, _⟩ => show win1_0.index t (2 : Fin 4) * 512 + 1 * s.val = win1_3.index t (2 : Fin 4) * 512 + 1 * s.val; omega
      | ⟨3, _⟩ => show win1_0.index t (3 : Fin 4) * 64 + 1 * a.val = a.val; omega
    · show V c main_v31_1 (((cfg1.win 1).blk t).view.emb (ix4 0 0 t'' a)) = V c main_v31_1 _
      refine congrArg (V c main_v31_1) (funext fun ax => Fin.ext ?_)
      match ax with
      | ⟨0, _⟩ => show win1_1.index t (0 : Fin 4) * 1 + 1 * 0 = win1_3.index t (0 : Fin 4) * 1 + 1 * 0; omega
      | ⟨1, _⟩ => show win1_1.index t (1 : Fin 4) * 1 + 1 * 0 = win1_3.index t (1 : Fin 4) * 1 + 1 * 0; omega
      | ⟨2, _⟩ => show win1_1.index t (2 : Fin 4) * 1024 + 1 * t''.val = t''.val; omega
      | ⟨3, _⟩ => show win1_1.index t (3 : Fin 4) * 64 + 1 * a.val = a.val; omega
  · show V c main_v31_2 (((cfg1.win 2).blk t).view.emb (ix4 0 0 t' e')) = V c main_v31_2 _
    refine congrArg (V c main_v31_2) (funext fun ax => Fin.ext ?_)
    match ax with
    | ⟨0, _⟩ => show win1_2.index t (0 : Fin 4) * 1 + 1 * 0 = win1_3.index t (0 : Fin 4) * 1 + 1 * 0; omega
    | ⟨1, _⟩ => show win1_2.index t (1 : Fin 4) * 1 + 1 * 0 = win1_3.index t (1 : Fin 4) * 1 + 1 * 0; omega
    | ⟨2, _⟩ => show win1_2.index t (2 : Fin 4) * 1024 + 1 * t'.val = t'.val; omega
    | ⟨3, _⟩ => show win1_2.index t (3 : Fin 4) * 512 + 1 * e'.val = win1_3.index t (3 : Fin 4) * 512 + 1 * e'.val; omega

/-- An index of the output array is in point `t`'s block iff each coordinate is in the block's range on its axis. -/
theorem mem_blkOut (t : Fin cfg1.N) (i : S8x8x1024x512.Idx) :
    i ∈ ((cfg1.win 3).blk t).view.set ↔ ∀ a : Fin 4, win1_3.index t a * S1x1x512x512.size a ≤ (i a).val
      ∧ (i a).val < win1_3.index t a * S1x1x512x512.size a + S1x1x512x512.size a := by
  show i ∈ ((View.whole main_v32).slice (win1_3.rect t)).set ↔ _
  rw [View.set_slice_whole, Rect.mem_set_unit]
  exact Iff.rfl

/-- Every index of the output array is in the block of the point at its batch, its head and its block of `512` rows. -/
theorem coverOut (i : S8x8x1024x512.Idx) :
    ∃ t : Fin cfg1.N, (cfg1.win 3).flush t = true ∧ i ∈ ((cfg1.win 3).blk t).view.set := by
  have hi0 : (i 0).val < 8 := (i 0).isLt
  have hi1 : (i 1).val < 8 := (i 1).isLt
  have hi2 : (i 2).val < 1024 := (i 2).isLt
  have hi3 : (i 3).val < 512 := (i 3).isLt
  obtain ⟨t, ht⟩ := idx_onto1 ⟨(i 0).val, hi0⟩ ⟨(i 1).val, hi1⟩ ⟨(i 2).val / 512, by omega⟩
  have q0 : win1_3.index t (0 : Fin 4) = (i 0).val := congrFun ht 0
  have q1 : win1_3.index t (1 : Fin 4) = (i 1).val := congrFun ht 1
  have q2 : win1_3.index t (2 : Fin 4) = (i 2).val / 512 := congrFun ht 2
  have q3 : win1_3.index t (3 : Fin 4) = 0 := congrFun ht 3
  refine ⟨t, flush1_3 t, ?_⟩
  rw [mem_blkOut]
  intro a
  match a with
  | ⟨0, _⟩ => show win1_3.index t (0 : Fin 4) * 1 ≤ (i 0).val ∧ (i 0).val < win1_3.index t (0 : Fin 4) * 1 + 1; omega
  | ⟨1, _⟩ => show win1_3.index t (1 : Fin 4) * 1 ≤ (i 1).val ∧ (i 1).val < win1_3.index t (1 : Fin 4) * 1 + 1; omega
  | ⟨2, _⟩ => show win1_3.index t (2 : Fin 4) * 512 ≤ (i 2).val ∧ (i 2).val < win1_3.index t (2 : Fin 4) * 512 + 512; omega
  | ⟨3, _⟩ => show win1_3.index t (3 : Fin 4) * 512 ≤ (i 3).val ∧ (i 3).val < win1_3.index t (3 : Fin 4) * 512 + 512; omega

/-- The output array after the launch: the attention output of what the region finds, at every index. -/
theorem finalOut (c : Dev nD) :
    (dat1 V c).arrAt 3 cfg1.N = outMul (V c main_v31_0) (V c main_v31_1) (V c main_v31_2) :=
  (dat1 V c).arrAt_eq_of_cover 3 _ (fun t _ => flushedOut V c t) coverOut

end Cert.KernelIdeal.Hand

end
-- ==== Proof.KernelValue.lean ====
/-
  The kernel program's result as one function of the launch arguments.

  The second launch leaves in the result buffer the attention output of what it finds — the three projections of the
  layer-normalised embeddings — so the result is that output of the launch arguments.
-/
import proofs.«155498_j13322988552231_1_alg».proof.Proof.KernelEntry
import proofs.«155498_j13322988552231_1_alg».proof.Proof.AttnArr

set_option maxRecDepth 16384

noncomputable section

namespace Cert.KernelIdeal.Hand

open Cert.KernelIdeal Cert.KernelIdeal.Gen Idealize.ShloMosaic Idealize.ShloMosaic.TcCoe Idealize.SL.Sem Cert.Attn

variable (m : (ℓ : Loc nD τ sig) → Buf (Elt Ideal) ℓ) (ρ : Dev nD → PrngReg)

/-- The attention output of the launch arguments, scores multiplied by the constant. -/
abbrev resultOf (c : Dev nD) : SVal.Idx → EReal :=
  outMul (projQK (hid m c) (m ((c.tc : Thread nD τ).loc main_arg4))) (projQK (hid m c) (m ((c.tc : Thread nD τ).loc main_arg5)))
    (projV (hid m c) (m ((c.tc : Thread nD τ).loc main_arg6)))

/-- What the second launch leaves in the result buffer. -/
theorem result_eq (c : Dev nD) : (W3 m ρ c (Proc.devRef .tc main_v32) : SVal.Idx → EReal) = resultOf m c := by
  show W3 m ρ c (Proc.devRef .tc (Pipeline.arrRef spec1 3)) = _
  rw [W3_arr, finalOut (V2 m ρ) c, entryQ, entryK, entryV]

end Cert.KernelIdeal.Hand

end
-- ==== Proof.RefValueA.lean ====
/-
  The reference program's host operations read at an index, over arbitrary operands: the four contractions
  (queries and keys, values, scores, output) as sums over one coordinate, the head/position transposition,
  the kept-dimension broadcasts, and the row reductions (maximum, minimum, sum) along the last axis.
-/
import proofs.«155498_j13322988552231_1_alg».proof.Proof.Gen.ReferenceIdeal.Run
import proofs.«155498_j13322988552231_1_alg».proof.Proof.Spec
import Idealize.ShloMosaic.Lib.ValueIdx
import Idealize.ShloMosaic.Lib.IdealHost
import Idealize.ShloMosaic.Lib.Pipeline.Value
import Idealize.ShloMosaic.Lib.ValueLayout
import Idealize.ShloMosaic.PureOps.Ideal.Laws

noncomputable section

open scoped BigOperators

namespace Cert.ReferenceIdeal.RefValue

open Cert.ReferenceIdeal Cert.ReferenceIdeal.Gen Cert.ReferenceIdeal.Value Idealize.ShloMosaic Idealize.ShloMosaic.TcCoe
  Idealize.ShloMosaic.ValueIdx Cert.Attn

/-! ## The four contractions' operand indices, coordinate by coordinate -/

theorem lhs_qk_0 (i : S8x1024x8x64.Idx) (q : dot_S8x1024x512_S8x64x512_S8x1024x8x64_2_2_01_01_n_n.contr.Idx) :
    (dot_S8x1024x512_S8x64x512_S8x1024x8x64_2_2_01_01_n_n.lhsIdx i q 0).val = (i 0).val := by
  unfold DotDims.lhsIdx
  rw [dif_neg (show ¬(0 : Fin S8x1024x512.rank) ∈ dot_S8x1024x512_S8x64x512_S8x1024x8x64_2_2_01_01_n_n.lhsBatch by decide), dif_pos (show (0 : Fin S8x1024x512.rank) ∈ dot_S8x1024x512_S8x64x512_S8x1024x8x64_2_2_01_01_n_n.lhsNonContracting by decide)]
  rfl
theorem lhs_qk_1 (i : S8x1024x8x64.Idx) (q : dot_S8x1024x512_S8x64x512_S8x1024x8x64_2_2_01_01_n_n.contr.Idx) :
    (dot_S8x1024x512_S8x64x512_S8x1024x8x64_2_2_01_01_n_n.lhsIdx i q 1).val = (i 1).val := by
  unfold DotDims.lhsIdx
  rw [dif_neg (show ¬(1 : Fin S8x1024x512.rank) ∈ dot_S8x1024x512_S8x64x512_S8x1024x8x64_2_2_01_01_n_n.lhsBatch by decide), dif_pos (show (1 : Fin S8x1024x512.rank) ∈ dot_S8x1024x512_S8x64x512_S8x1024x8x64_2_2_01_01_n_n.lhsNonContracting by decide)]
  rfl
theorem lhs_qk_2 (i : S8x1024x8x64.Idx) (q : dot_S8x1024x512_S8x64x512_S8x1024x8x64_2_2_01_01_n_n.contr.Idx) :
    (dot_S8x1024x512_S8x64x512_S8x1024x8x64_2_2_01_01_n_n.lhsIdx i q 2).val = (q ⟨0, by decide⟩).val :=
  dot_S8x1024x512_S8x64x512_S8x1024x8x64_2_2_01_01_n_n.lhsIdx_val_of_single rfl i q
theorem rhs_qk_0 (i : S8x1024x8x64.Idx) (q : dot_S8x1024x512_S8x64x512_S8x1024x8x64_2_2_01_01_n_n.contr.Idx) :
    (dot_S8x1024x512_S8x64x512_S8x1024x8x64_2_2_01_01_n_n.rhsIdx i q 0).val = (i 2).val := by
  unfold DotDims.rhsIdx
  rw [dif_neg (show ¬(0 : Fin S8x64x512.rank) ∈ dot_S8x1024x512_S8x64x512_S8x1024x8x64_2_2_01_01_n_n.rhsBatch by decide), dif_pos (show (0 : Fin S8x64x512.rank) ∈ dot_S8x1024x512_S8x64x512_S8x1024x8x64_2_2_01_01_n_n.rhsNonContracting by decide)]
  rfl
theorem rhs_qk_1 (i : S8x1024x8x64.Idx) (q : dot_S8x1024x512_S8x64x512_S8x1024x8x64_2_2_01_01_n_n.contr.Idx) :
    (dot_S8x1024x512_S8x64x512_S8x1024x8x64_2_2_01_01_n_n.rhsIdx i q 1).val = (i 3).val := by
  unfold DotDims.rhsIdx
  rw [dif_neg (show ¬(1 : Fin S8x64x512.rank) ∈ dot_S8x1024x512_S8x64x512_S8x1024x8x64_2_2_01_01_n_n.rhsBatch by decide), dif_pos (show (1 : Fin S8x64x512.rank) ∈ dot_S8x1024x512_S8x64x512_S8x1024x8x64_2_2_01_01_n_n.rhsNonContracting by decide)]
  rfl
theorem rhs_qk_2 (i : S8x1024x8x64.Idx) (q : dot_S8x1024x512_S8x64x512_S8x1024x8x64_2_2_01_01_n_n.contr.Idx) :
    (dot_S8x1024x512_S8x64x512_S8x1024x8x64_2_2_01_01_n_n.rhsIdx i q 2).val = (q ⟨0, by decide⟩).val :=
  dot_S8x1024x512_S8x64x512_S8x1024x8x64_2_2_01_01_n_n.rhsIdx_val_of_single rfl i q

theorem lhs_v_0 (i : S8x1024x8x512.Idx) (q : dot_S8x1024x512_S8x512x512_S8x1024x8x512_2_2_01_01_n_n.contr.Idx) :
    (dot_S8x1024x512_S8x512x512_S8x1024x8x512_2_2_01_01_n_n.lhsIdx i q 0).val = (i 0).val := by
  unfold DotDims.lhsIdx
  rw [dif_neg (show ¬(0 : Fin S8x1024x512.rank) ∈ dot_S8x1024x512_S8x512x512_S8x1024x8x512_2_2_01_01_n_n.lhsBatch by decide), dif_pos (show (0 : Fin S8x1024x512.rank) ∈ dot_S8x1024x512_S8x512x512_S8x1024x8x512_2_2_01_01_n_n.lhsNonContracting by decide)]
  rfl
theorem lhs_v_1 (i : S8x1024x8x512.Idx) (q : dot_S8x1024x512_S8x512x512_S8x1024x8x512_2_2_01_01_n_n.contr.Idx) :
    (dot_S8x1024x512_S8x512x512_S8x1024x8x512_2_2_01_01_n_n.lhsIdx i q 1).val = (i 1).val := by
  unfold DotDims.lhsIdx
  rw [dif_neg (show ¬(1 : Fin S8x1024x512.rank) ∈ dot_S8x1024x512_S8x512x512_S8x1024x8x512_2_2_01_01_n_n.lhsBatch by decide), dif_pos (show (1 : Fin S8x1024x512.rank) ∈ dot_S8x1024x512_S8x512x512_S8x1024x8x512_2_2_01_01_n_n.lhsNonContracting by decide)]
  rfl
theorem lhs_v_2 (i : S8x1024x8x512.Idx) (q : dot_S8x1024x512_S8x512x512_S8x1024x8x512_2_2_01_01_n_n.contr.Idx) :
    (dot_S8x1024x512_S8x512x512_S8x1024x8x512_2_2_01_01_n_n.lhsIdx i q 2).val = (q ⟨0, by decide⟩).val :=
  dot_S8x1024x512_S8x512x512_S8x1024x8x512_2_2_01_01_n_n.lhsIdx_val_of_single rfl i q
theorem rhs_v_0 (i : S8x1024x8x512.Idx) (q : dot_S8x1024x512_S8x512x512_S8x1024x8x512_2_2_01_01_n_n.contr.Idx) :
    (dot_S8x1024x512_S8x512x512_S8x1024x8x512_2_2_01_01_n_n.rhsIdx i q 0).val = (i 2).val := by
  unfold DotDims.rhsIdx
  rw [dif_neg (show ¬(0 : Fin S8x512x512.rank) ∈ dot_S8x1024x512_S8x512x512_S8x1024x8x512_2_2_01_01_n_n.rhsBatch by decide), dif_pos (show (0 : Fin S8x512x512.rank) ∈ dot_S8x1024x512_S8x512x512_S8x1024x8x512_2_2_01_01_n_n.rhsNonContracting by decide)]
  rfl
theorem rhs_v_1 (i : S8x1024x8x512.Idx) (q : dot_S8x1024x512_S8x512x512_S8x1024x8x512_2_2_01_01_n_n.contr.Idx) :
    (dot_S8x1024x512_S8x512x512_S8x1024x8x512_2_2_01_01_n_n.rhsIdx i q 1).val = (i 3).val := by
  unfold DotDims.rhsIdx
  rw [dif_neg (show ¬(1 : Fin S8x512x512.rank) ∈ dot_S8x1024x512_S8x512x512_S8x1024x8x512_2_2_01_01_n_n.rhsBatch by decide), dif_pos (show (1 : Fin S8x512x512.rank) ∈ dot_S8x1024x512_S8x512x512_S8x1024x8x512_2_2_01_01_n_n.rhsNonContracting by decide)]
  rfl
theorem rhs_v_2 (i : S8x1024x8x512.Idx) (q : dot_S8x1024x512_S8x512x512_S8x1024x8x512_2_2_01_01_n_n.contr.Idx) :
    (dot_S8x1024x512_S8x512x512_S8x1024x8x512_2_2_01_01_n_n.rhsIdx i q 2).val = (q ⟨0, by decide⟩).val :=
  dot_S8x1024x512_S8x512x512_S8x1024x8x512_2_2_01_01_n_n.rhsIdx_val_of_single rfl i q

theorem lhs_sc_0 (i : S8x8x1024x1024.Idx) (q : dot_S8x8x1024x64_S8x8x1024x64_S8x8x1024x1024_3_3_2_2_01_01.contr.Idx) :
    (dot_S8x8x1024x64_S8x8x1024x64_S8x8x1024x1024_3_3_2_2_01_01.lhsIdx i q 0).val = (i 0).val := by
  unfold DotDims.lhsIdx
  rw [dif_pos (show (0 : Fin S8x8x1024x64.rank) ∈ dot_S8x8x1024x64_S8x8x1024x64_S8x8x1024x1024_3_3_2_2_01_01.lhsBatch by decide)]
  rfl
theorem lhs_sc_1 (i : S8x8x1024x1024.Idx) (q : dot_S8x8x1024x64_S8x8x1024x64_S8x8x1024x1024_3_3_2_2_01_01.contr.Idx) :
    (dot_S8x8x1024x64_S8x8x1024x64_S8x8x1024x1024_3_3_2_2_01_01.lhsIdx i q 1).val = (i 1).val := by
  unfold DotDims.lhsIdx
  rw [dif_pos (show (1 : Fin S8x8x1024x64.rank) ∈ dot_S8x8x1024x64_S8x8x1024x64_S8x8x1024x1024_3_3_2_2_01_01.lhsBatch by decide)]
  rfl
theorem lhs_sc_2 (i : S8x8x1024x1024.Idx) (q : dot_S8x8x1024x64_S8x8x1024x64_S8x8x1024x1024_3_3_2_2_01_01.contr.Idx) :
    (dot_S8x8x1024x64_S8x8x1024x64_S8x8x1024x1024_3_3_2_2_01_01.lhsIdx i q 2).val = (i 2).val := by
  unfold DotDims.lhsIdx
  rw [dif_neg (show ¬(2 : Fin S8x8x1024x64.rank) ∈ dot_S8x8x1024x64_S8x8x1024x64_S8x8x1024x1024_3_3_2_2_01_01.lhsBatch by decide), dif_pos (show (2 : Fin S8x8x1024x64.rank) ∈ dot_S8x8x1024x64_S8x8x1024x64_S8x8x1024x1024_3_3_2_2_01_01.lhsNonContracting by decide)]
  rfl
theorem lhs_sc_3 (i : S8x8x1024x1024.Idx) (q : dot_S8x8x1024x64_S8x8x1024x64_S8x8x1024x1024_3_3_2_2_01_01.contr.Idx) :
    (dot_S8x8x1024x64_S8x8x1024x64_S8x8x1024x1024_3_3_2_2_01_01.lhsIdx i q 3).val = (q ⟨0, by decide⟩).val :=
  dot_S8x8x1024x64_S8x8x1024x64_S8x8x1024x1024_3_3_2_2_01_01.lhsIdx_val_of_single rfl i q
theorem rhs_sc_0 (i : S8x8x1024x1024.Idx) (q : dot_S8x8x1024x64_S8x8x1024x64_S8x8x1024x1024_3_3_2_2_01_01.contr.Idx) :
    (dot_S8x8x1024x64_S8x8x1024x64_S8x8x1024x1024_3_3_2_2_01_01.rhsIdx i q 0).val = (i 0).val := by
  unfold DotDims.rhsIdx
  rw [dif_pos (show (0 : Fin S8x8x1024x64.rank) ∈ dot_S8x8x1024x64_S8x8x1024x64_S8x8x1024x1024_3_3_2_2_01_01.rhsBatch by decide)]
  rfl
theorem rhs_sc_1 (i : S8x8x1024x1024.Idx) (q : dot_S8x8x1024x64_S8x8x1024x64_S8x8x1024x1024_3_3_2_2_01_01.contr.Idx) :
    (dot_S8x8x1024x64_S8x8x1024x64_S8x8x1024x1024_3_3_2_2_01_01.rhsIdx i q 1).val = (i 1).val := by
  unfold DotDims.rhsIdx
  rw [dif_pos (show (1 : Fin S8x8x1024x64.rank) ∈ dot_S8x8x1024x64_S8x8x1024x64_S8x8x1024x1024_3_3_2_2_01_01.rhsBatch by decide)]
  rfl
theorem rhs_sc_2 (i : S8x8x1024x1024.Idx) (q : dot_S8x8x1024x64_S8x8x1024x64_S8x8x1024x1024_3_3_2_2_01_01.contr.Idx) :
    (dot_S8x8x1024x64_S8x8x1024x64_S8x8x1024x1024_3_3_2_2_01_01.rhsIdx i q 2).val = (i 3).val := by
  unfold DotDims.rhsIdx
  rw [dif_neg (show ¬(2 : Fin S8x8x1024x64.rank) ∈ dot_S8x8x1024x64_S8x8x1024x64_S8x8x1024x1024_3_3_2_2_01_01.rhsBatch by decide), dif_pos (show (2 : Fin S8x8x1024x64.rank) ∈ dot_S8x8x1024x64_S8x8x1024x64_S8x8x1024x1024_3_3_2_2_01_01.rhsNonContracting by decide)]
  rfl
theorem rhs_sc_3 (i : S8x8x1024x1024.Idx) (q : dot_S8x8x1024x64_S8x8x1024x64_S8x8x1024x1024_3_3_2_2_01_01.contr.Idx) :
    (dot_S8x8x1024x64_S8x8x1024x64_S8x8x1024x1024_3_3_2_2_01_01.rhsIdx i q 3).val = (q ⟨0, by decide⟩).val :=
  dot_S8x8x1024x64_S8x8x1024x64_S8x8x1024x1024_3_3_2_2_01_01.rhsIdx_val_of_single rfl i q

theorem lhs_out_0 (i : S8x8x1024x512.Idx) (q : dot_S8x8x1024x1024_S8x8x1024x512_S8x8x1024x512_3_2_2_3_01_01.contr.Idx) :
    (dot_S8x8x1024x1024_S8x8x1024x512_S8x8x1024x512_3_2_2_3_01_01.lhsIdx i q 0).val = (i 0).val := by
  unfold DotDims.lhsIdx
  rw [dif_pos (show (0 : Fin S8x8x1024x1024.rank) ∈ dot_S8x8x1024x1024_S8x8x1024x512_S8x8x1024x512_3_2_2_3_01_01.lhsBatch by decide)]
  rfl
theorem lhs_out_1 (i : S8x8x1024x512.Idx) (q : dot_S8x8x1024x1024_S8x8x1024x512_S8x8x1024x512_3_2_2_3_01_01.contr.Idx) :
    (dot_S8x8x1024x1024_S8x8x1024x512_S8x8x1024x512_3_2_2_3_01_01.lhsIdx i q 1).val = (i 1).val := by
  unfold DotDims.lhsIdx
  rw [dif_pos (show (1 : Fin S8x8x1024x1024.rank) ∈ dot_S8x8x1024x1024_S8x8x1024x512_S8x8x1024x512_3_2_2_3_01_01.lhsBatch by decide)]
  rfl
theorem lhs_out_2 (i : S8x8x1024x512.Idx) (q : dot_S8x8x1024x1024_S8x8x1024x512_S8x8x1024x512_3_2_2_3_01_01.contr.Idx) :
    (dot_S8x8x1024x1024_S8x8x1024x512_S8x8x1024x512_3_2_2_3_01_01.lhsIdx i q 2).val = (i 2).val := by
  unfold DotDims.lhsIdx
  rw [dif_neg (show ¬(2 : Fin S8x8x1024x1024.rank) ∈ dot_S8x8x1024x1024_S8x8x1024x512_S8x8x1024x512_3_2_2_3_01_01.lhsBatch by decide), dif_pos (show (2 : Fin S8x8x1024x1024.rank) ∈ dot_S8x8x1024x1024_S8x8x1024x512_S8x8x1024x512_3_2_2_3_01_01.lhsNonContracting by decide)]
  rfl
theorem lhs_out_3 (i : S8x8x1024x512.Idx) (q : dot_S8x8x1024x1024_S8x8x1024x512_S8x8x1024x512_3_2_2_3_01_01.contr.Idx) :
    (dot_S8x8x1024x1024_S8x8x1024x512_S8x8x1024x512_3_2_2_3_01_01.lhsIdx i q 3).val = (q ⟨0, by decide⟩).val :=
  dot_S8x8x1024x1024_S8x8x1024x512_S8x8x1024x512_3_2_2_3_01_01.lhsIdx_val_of_single rfl i q
theorem rhs_out_0 (i : S8x8x1024x512.Idx) (q : dot_S8x8x1024x1024_S8x8x1024x512_S8x8x1024x512_3_2_2_3_01_01.contr.Idx) :
    (dot_S8x8x1024x1024_S8x8x1024x512_S8x8x1024x512_3_2_2_3_01_01.rhsIdx i q 0).val = (i 0).val := by
  unfold DotDims.rhsIdx
  rw [dif_pos (show (0 : Fin S8x8x1024x512.rank) ∈ dot_S8x8x1024x1024_S8x8x1024x512_S8x8x1024x512_3_2_2_3_01_01.rhsBatch by decide)]
  rfl
theorem rhs_out_1 (i : S8x8x1024x512.Idx) (q : dot_S8x8x1024x1024_S8x8x1024x512_S8x8x1024x512_3_2_2_3_01_01.contr.Idx) :
    (dot_S8x8x1024x1024_S8x8x1024x512_S8x8x1024x512_3_2_2_3_01_01.rhsIdx i q 1).val = (i 1).val := by
  unfold DotDims.rhsIdx
  rw [dif_pos (show (1 : Fin S8x8x1024x512.rank) ∈ dot_S8x8x1024x1024_S8x8x1024x512_S8x8x1024x512_3_2_2_3_01_01.rhsBatch by decide)]
  rfl
theorem rhs_out_2 (i : S8x8x1024x512.Idx) (q : dot_S8x8x1024x1024_S8x8x1024x512_S8x8x1024x512_3_2_2_3_01_01.contr.Idx) :
    (dot_S8x8x1024x1024_S8x8x1024x512_S8x8x1024x512_3_2_2_3_01_01.rhsIdx i q 2).val = (q ⟨0, by decide⟩).val :=
  dot_S8x8x1024x1024_S8x8x1024x512_S8x8x1024x512_3_2_2_3_01_01.rhsIdx_val_of_single rfl i q
theorem rhs_out_3 (i : S8x8x1024x512.Idx) (q : dot_S8x8x1024x1024_S8x8x1024x512_S8x8x1024x512_3_2_2_3_01_01.contr.Idx) :
    (dot_S8x8x1024x1024_S8x8x1024x512_S8x8x1024x512_3_2_2_3_01_01.rhsIdx i q 3).val = (i 3).val := by
  unfold DotDims.rhsIdx
  rw [dif_neg (show ¬(3 : Fin S8x8x1024x512.rank) ∈ dot_S8x8x1024x1024_S8x8x1024x512_S8x8x1024x512_3_2_2_3_01_01.rhsBatch by decide), dif_pos (show (3 : Fin S8x8x1024x512.rank) ∈ dot_S8x8x1024x1024_S8x8x1024x512_S8x8x1024x512_3_2_2_3_01_01.rhsNonContracting by decide)]
  rfl

/-! ## The four contractions read at an index -/

/-- A query or key entry before the transposition: position `s` of batch `b` against row `a` of head `hh`. -/
theorem dotQK_apply (h : FVec Ideal S8x1024x512 .f32) (w : FVec Ideal S8x64x512 .f32) (b : Fin 8) (s : Fin 1024) (hh : Fin 8) (a : Fin 64) :
    Host.dotGeneral (F := Ideal) (φ₁ := .f32) (φ₂ := .f32) dot_S8x1024x512_S8x64x512_S8x1024x8x64_2_2_01_01_n_n none h w (ix4 b s hh a)
      = proj64 h w b hh s a := by
  simp only [Host.dotGeneral]
  rw [Ideal.dotGeneral_apply, ← Equiv.sum_comp (contrEquiv1 dot_S8x1024x512_S8x64x512_S8x1024x8x64_2_2_01_01_n_n 512 rfl rfl).symm]
  unfold proj64
  refine Finset.sum_congr rfl fun k _ => ?_
  have hk := contrEquiv1_symm_val dot_S8x1024x512_S8x64x512_S8x1024x8x64_2_2_01_01_n_n 512 rfl rfl k
  have el : dot_S8x1024x512_S8x64x512_S8x1024x8x64_2_2_01_01_n_n.lhsIdx (ix4 b s hh a) ((contrEquiv1 dot_S8x1024x512_S8x64x512_S8x1024x8x64_2_2_01_01_n_n 512 rfl rfl).symm k) = ix3 b s k := funext fun x => Fin.ext (by
    match x with
    | ⟨0, _⟩ => exact lhs_qk_0 _ _
    | ⟨1, _⟩ => exact lhs_qk_1 _ _
    | ⟨2, _⟩ => exact (lhs_qk_2 _ _).trans hk)
  have er : dot_S8x1024x512_S8x64x512_S8x1024x8x64_2_2_01_01_n_n.rhsIdx (ix4 b s hh a) ((contrEquiv1 dot_S8x1024x512_S8x64x512_S8x1024x8x64_2_2_01_01_n_n 512 rfl rfl).symm k) = ix3 hh a k := funext fun x => Fin.ext (by
    match x with
    | ⟨0, _⟩ => exact rhs_qk_0 _ _
    | ⟨1, _⟩ => exact rhs_qk_1 _ _
    | ⟨2, _⟩ => exact (rhs_qk_2 _ _).trans hk)
  rw [el, er]

/-- A value entry before the transposition. -/
theorem dotV_apply (h : FVec Ideal S8x1024x512 .f32) (w : FVec Ideal S8x512x512 .f32) (b : Fin 8) (t : Fin 1024) (hh : Fin 8) (e' : Fin 512) :
    Host.dotGeneral (F := Ideal) (φ₁ := .f32) (φ₂ := .f32) dot_S8x1024x512_S8x512x512_S8x1024x8x512_2_2_01_01_n_n none h w (ix4 b t hh e')
      = proj512 h w b hh t e' := by
  simp only [Host.dotGeneral]
  rw [Ideal.dotGeneral_apply, ← Equiv.sum_comp (contrEquiv1 dot_S8x1024x512_S8x512x512_S8x1024x8x512_2_2_01_01_n_n 512 rfl rfl).symm]
  unfold proj512
  refine Finset.sum_congr rfl fun k _ => ?_
  have hk := contrEquiv1_symm_val dot_S8x1024x512_S8x512x512_S8x1024x8x512_2_2_01_01_n_n 512 rfl rfl k
  have el : dot_S8x1024x512_S8x512x512_S8x1024x8x512_2_2_01_01_n_n.lhsIdx (ix4 b t hh e') ((contrEquiv1 dot_S8x1024x512_S8x512x512_S8x1024x8x512_2_2_01_01_n_n 512 rfl rfl).symm k) = ix3 b t k := funext fun x => Fin.ext (by
    match x with
    | ⟨0, _⟩ => exact lhs_v_0 _ _
    | ⟨1, _⟩ => exact lhs_v_1 _ _
    | ⟨2, _⟩ => exact (lhs_v_2 _ _).trans hk)
  have er : dot_S8x1024x512_S8x512x512_S8x1024x8x512_2_2_01_01_n_n.rhsIdx (ix4 b t hh e') ((contrEquiv1 dot_S8x1024x512_S8x512x512_S8x1024x8x512_2_2_01_01_n_n 512 rfl rfl).symm k) = ix3 hh e' k := funext fun x => Fin.ext (by
    match x with
    | ⟨0, _⟩ => exact rhs_v_0 _ _
    | ⟨1, _⟩ => exact rhs_v_1 _ _
    | ⟨2, _⟩ => exact (rhs_v_2 _ _).trans hk)
  rw [el, er]

/-- The batched contraction of queries against keys is the score. -/
theorem dotScore_apply (q k' : FVec Ideal S8x8x1024x64 .f32) (b hh : Fin 8) (s t : Fin 1024) :
    Host.dotGeneral (F := Ideal) (φ₁ := .f32) (φ₂ := .f32) dot_S8x8x1024x64_S8x8x1024x64_S8x8x1024x1024_3_3_2_2_01_01 none q k' (ix4 b hh s t)
      = score q k' b hh s t := by
  simp only [Host.dotGeneral]
  rw [Ideal.dotGeneral_apply, ← Equiv.sum_comp (contrEquiv1 dot_S8x8x1024x64_S8x8x1024x64_S8x8x1024x1024_3_3_2_2_01_01 64 rfl rfl).symm]
  unfold score
  refine Finset.sum_congr rfl fun k _ => ?_
  have hk := contrEquiv1_symm_val dot_S8x8x1024x64_S8x8x1024x64_S8x8x1024x1024_3_3_2_2_01_01 64 rfl rfl k
  have el : dot_S8x8x1024x64_S8x8x1024x64_S8x8x1024x1024_3_3_2_2_01_01.lhsIdx (ix4 b hh s t) ((contrEquiv1 dot_S8x8x1024x64_S8x8x1024x64_S8x8x1024x1024_3_3_2_2_01_01 64 rfl rfl).symm k) = ix4 b hh s k := funext fun x => Fin.ext (by
    match x with
    | ⟨0, _⟩ => exact lhs_sc_0 _ _
    | ⟨1, _⟩ => exact lhs_sc_1 _ _
    | ⟨2, _⟩ => exact lhs_sc_2 _ _
    | ⟨3, _⟩ => exact (lhs_sc_3 _ _).trans hk)
  have er : dot_S8x8x1024x64_S8x8x1024x64_S8x8x1024x1024_3_3_2_2_01_01.rhsIdx (ix4 b hh s t) ((contrEquiv1 dot_S8x8x1024x64_S8x8x1024x64_S8x8x1024x1024_3_3_2_2_01_01 64 rfl rfl).symm k) = ix4 b hh t k := funext fun x => Fin.ext (by
    match x with
    | ⟨0, _⟩ => exact rhs_sc_0 _ _
    | ⟨1, _⟩ => exact rhs_sc_1 _ _
    | ⟨2, _⟩ => exact rhs_sc_2 _ _
    | ⟨3, _⟩ => exact (rhs_sc_3 _ _).trans hk)
  rw [el, er]

/-- The batched contraction of the weights against the values. -/
theorem dotOut_apply (w : FVec Ideal S8x8x1024x1024 .f32) (v : FVec Ideal S8x8x1024x512 .f32) (b hh : Fin 8) (s : Fin 1024) (e' : Fin 512) :
    Host.dotGeneral (F := Ideal) (φ₁ := .f32) (φ₂ := .f32) dot_S8x8x1024x1024_S8x8x1024x512_S8x8x1024x512_3_2_2_3_01_01 none w v (ix4 b hh s e')
      = ∑ t : Fin 1024, w (ix4 b hh s t) * v (ix4 b hh t e') := by
  simp only [Host.dotGeneral]
  rw [Ideal.dotGeneral_apply, ← Equiv.sum_comp (contrEquiv1 dot_S8x8x1024x1024_S8x8x1024x512_S8x8x1024x512_3_2_2_3_01_01 1024 rfl rfl).symm]
  refine Finset.sum_congr rfl fun k _ => ?_
  have hk := contrEquiv1_symm_val dot_S8x8x1024x1024_S8x8x1024x512_S8x8x1024x512_3_2_2_3_01_01 1024 rfl rfl k
  have el : dot_S8x8x1024x1024_S8x8x1024x512_S8x8x1024x512_3_2_2_3_01_01.lhsIdx (ix4 b hh s e') ((contrEquiv1 dot_S8x8x1024x1024_S8x8x1024x512_S8x8x1024x512_3_2_2_3_01_01 1024 rfl rfl).symm k) = ix4 b hh s k := funext fun x => Fin.ext (by
    match x with
    | ⟨0, _⟩ => exact lhs_out_0 _ _
    | ⟨1, _⟩ => exact lhs_out_1 _ _
    | ⟨2, _⟩ => exact lhs_out_2 _ _
    | ⟨3, _⟩ => exact (lhs_out_3 _ _).trans hk)
  have er : dot_S8x8x1024x1024_S8x8x1024x512_S8x8x1024x512_3_2_2_3_01_01.rhsIdx (ix4 b hh s e') ((contrEquiv1 dot_S8x8x1024x1024_S8x8x1024x512_S8x8x1024x512_3_2_2_3_01_01 1024 rfl rfl).symm k) = ix4 b hh k e' := funext fun x => Fin.ext (by
    match x with
    | ⟨0, _⟩ => exact rhs_out_0 _ _
    | ⟨1, _⟩ => exact rhs_out_1 _ _
    | ⟨2, _⟩ => exact (rhs_out_2 _ _).trans hk
    | ⟨3, _⟩ => exact rhs_out_3 _ _)
  rw [el, er]

/-! ## The transposition and the broadcasts read at an index -/

/-- Exchanging the position and head axes of a query or key array. -/
theorem transposeQK_apply {α : Type} (x : S8x1024x8x64.Idx → α) (b hh : Fin 8) (s : Fin 1024) (a : Fin 64) :
    transpose S8x8x1024x64 [0, 2, 1, 3] x transposes_S8x1024x8x64_S8x8x1024x64_0_2_1_3 (ix4 b hh s a) = x (ix4 b s hh a) :=
  transpose_apply _ x _ _ _ fun c => by
    match c with
    | ⟨0, _⟩ => rfl
    | ⟨1, _⟩ => rfl
    | ⟨2, _⟩ => rfl
    | ⟨3, _⟩ => rfl

/-- Exchanging the position and head axes of the value array. -/
theorem transposeV_apply {α : Type} (x : S8x1024x8x512.Idx → α) (b hh : Fin 8) (t : Fin 1024) (e' : Fin 512) :
    transpose S8x8x1024x512 [0, 2, 1, 3] x transposes_S8x1024x8x512_S8x8x1024x512_0_2_1_3 (ix4 b hh t e') = x (ix4 b t hh e') :=
  transpose_apply _ x _ _ _ fun c => by
    match c with
    | ⟨0, _⟩ => rfl
    | ⟨1, _⟩ => rfl
    | ⟨2, _⟩ => rfl
    | ⟨3, _⟩ => rfl

/-- A per-row value given a trailing unit axis reads the row's value. -/
theorem keep_apply {α : Type} (x : S8x8x1024.Idx → α) (b hh : Fin 8) (s : Fin 1024) (u : Fin 1) :
    broadcastInDim S8x8x1024x1 ![0, 1, 2] bcast_S8x8x1024_S8x8x1024x1_0_1_2 x (ix4 b hh s u) = x (ix3 b hh s) :=
  broadcastInDim_apply _ _ x _ _ fun c => by
    match c with
    | ⟨0, _⟩ => rfl
    | ⟨1, _⟩ => rfl
    | ⟨2, _⟩ => rfl

/-- A kept-dimension array broadcast along the row reads the row's one entry. -/
theorem alongRow_apply {α : Type} (x : S8x8x1024x1.Idx → α) (b hh : Fin 8) (s t : Fin 1024) :
    broadcastInDim S8x8x1024x1024 ![0, 1, 2, 3] bcast_S8x8x1024x1_S8x8x1024x1024_0_1_2_3 x (ix4 b hh s t) = x (ix4 b hh s 0) :=
  broadcastInDim_apply _ _ x _ _ fun c => by
    match c with
    | ⟨0, _⟩ => rfl
    | ⟨1, _⟩ => rfl
    | ⟨2, _⟩ => rfl
    | ⟨3, _⟩ => rfl

/-- A constant broadcast to any shape reads the constant's value. -/
theorem splat_apply {T : Shape} (h : S_.BroadcastsInDim T ![]) (c : BitVec 32) (j : T.Idx) :
    broadcastInDim T ![] h (constant (F := Ideal) S_ .f32 c) j = Ideal.ofBits .f32 c :=
  broadcastInDim_scalar_apply h _ j

/-! ## The row reductions read at an index -/

/-- The last-axis reduction's index with the coordinate inserted. -/
theorem lift_row (h : S8x8x1024x1024.Reduces [3] S8x8x1024) (b hh : Fin 8) (s t : Fin 1024) :
    h.lift (ix3 b hh s) t = ix4 b hh s t :=
  funext fun c => Fin.ext (by
    match c with
    | ⟨0, _⟩ => rfl
    | ⟨1, _⟩ => rfl
    | ⟨2, _⟩ => rfl
    | ⟨3, _⟩ => rfl)

/-- A row's maximum, folded from the initial word's value. -/
theorem rowMax_apply (x : FVec Ideal S8x8x1024x1024 .f32) (c : BitVec 32) (b hh : Fin 8) (s : Fin 1024) :
    Host.reduce FloatOps.maximumf x (constant (F := Ideal) S_ .f32 c) reducesTo_S8x8x1024x1024_S8x8x1024_d3 h_S_ (ix3 b hh s)
      = (Finset.univ : Finset (Fin 1024)).fold max (Ideal.ofBits .f32 c) (fun t => x (ix4 b hh s t)) := by
  have h : S8x8x1024x1024.Reduces [3] S8x8x1024 := by decide
  rw [Host.reduce_eq_fold_single FloatOps.maximumf x _ reducesTo_S8x8x1024x1024_S8x8x1024_d3 h h_S_]
  have e : (x ∘ h.lift (ix3 b hh s)) = fun t => x (ix4 b hh s t) := funext fun t => congrArg x (lift_row h b hh s t)
  rw [e]
  rfl

/-- A row's minimum, folded from the initial word's value. -/
theorem rowMin_apply (x : FVec Ideal S8x8x1024x1024 .f32) (c : BitVec 32) (b hh : Fin 8) (s : Fin 1024) :
    Host.reduce FloatOps.minimumf x (constant (F := Ideal) S_ .f32 c) reducesTo_S8x8x1024x1024_S8x8x1024_d3 h_S_ (ix3 b hh s)
      = (Finset.univ : Finset (Fin 1024)).fold min (Ideal.ofBits .f32 c) (fun t => x (ix4 b hh s t)) := by
  have h : S8x8x1024x1024.Reduces [3] S8x8x1024 := by decide
  rw [Host.reduce_eq_fold_single FloatOps.minimumf x _ reducesTo_S8x8x1024x1024_S8x8x1024_d3 h h_S_]
  have e : (x ∘ h.lift (ix3 b hh s)) = fun t => x (ix4 b hh s t) := funext fun t => congrArg x (lift_row h b hh s t)
  rw [e]
  rfl

/-- A row's sum, added to the initial word's value. -/
theorem rowSum_apply (x : FVec Ideal S8x8x1024x1024 .f32) (c : BitVec 32) (b hh : Fin 8) (s : Fin 1024) :
    Host.reduceAdd x (constant (F := Ideal) S_ .f32 c) reducesTo_S8x8x1024x1024_S8x8x1024_d3 h_S_ (ix3 b hh s)
      = Ideal.ofBits .f32 c + ∑ t : Fin 1024, x (ix4 b hh s t) := by
  have h : S8x8x1024x1024.Reduces [3] S8x8x1024 := by decide
  rw [hostReduceAdd_apply, Ideal.hostReduceAdd_single reducesTo_S8x8x1024x1024_S8x8x1024_d3 h]
  refine congrArg (_ + ·) (Finset.sum_congr rfl fun t _ => ?_)
  exact congrArg x (lift_row h b hh s t)

end Cert.ReferenceIdeal.RefValue

end
-- ==== Proof.RefValue.lean ====
/-
  The reference program's result, read at an index.

  The reference computes h = layernorm(table[x]); per batch b and head hh the projections
  q(s,a) = Σ_e h(b,s,e)·Wq(hh,a,e), k likewise, v(t,e') = Σ_e h(b,t,e)·Wv(hh,e',e); the scores
  Σ_a q(s,a)·k(t,a) divided by a constant; each row min–max normalised to sn; the weights
  (1 − M)·softmax(sn) + M·logistic(10·sn − 5) with M = max sn; and the output weights · v.
  This module reads every named stage of that composed term at explicit coordinates and concludes that the
  whole term is the specification's `Cert.Attn.outDiv` of the three projections. The layer-normalised
  embeddings h stay an opaque array throughout.
-/
import proofs.«155498_j13322988552231_1_alg».proof.Proof.RefValueA

noncomputable section

open scoped BigOperators

namespace Cert.ReferenceIdeal.RefValue

open Cert.ReferenceIdeal Cert.ReferenceIdeal.Gen Cert.ReferenceIdeal.Value Idealize.ShloMosaic Idealize.ShloMosaic.TcCoe
  Idealize.ShloMosaic.ValueIdx Cert.Attn

/-! ## The run's term and its two operands -/

set_option maxRecDepth 8192 in
/-- The attention weights: the first operand of the run's last contraction, for any float values. -/
def wtsF {F : FTy → Type} [FloatOps F] (V0 : Valuation τ sig (Elt F)) : FVec F S8x8x1024x1024 .f32 :=
  addf (mulf (broadcastInDim S8x8x1024x1024 ![0, 1, 2, 3] bcast_S8x8x1024x1_S8x8x1024x1024_0_1_2_3 (res_main_v52 V0)) (Host.divf (res_main_v61 V0) (broadcastInDim S8x8x1024x1024 ![0, 1, 2, 3] bcast_S8x8x1024x1_S8x8x1024x1024_0_1_2_3 (broadcastInDim S8x8x1024x1 ![0, 1, 2] bcast_S8x8x1024_S8x8x1024x1_0_1_2 (Host.reduceAdd (res_main_v61 V0) (constant S_ .f32 0x00000000#32) reducesTo_S8x8x1024x1024_S8x8x1024_d3 h_S_))))) (mulf (broadcastInDim S8x8x1024x1024 ![0, 1, 2, 3] bcast_S8x8x1024x1_S8x8x1024x1024_0_1_2_3 (subf (broadcastInDim S8x8x1024x1 ![] bcast_S_S8x8x1024x1 (constant S_ .f32 0x3F800000#32)) (res_main_v52 V0))) (Host.divf (broadcastInDim S8x8x1024x1024 ![] bcast_S_S8x8x1024x1024 (constant S_ .f32 0x3F800000#32)) (addf (broadcastInDim S8x8x1024x1024 ![] bcast_S_S8x8x1024x1024 (constant S_ .f32 0x3F800000#32)) (Host.exp (Host.negf (subf (mulf (res_main_v48 V0) (broadcastInDim S8x8x1024x1024 ![] bcast_S_S8x8x1024x1024 (constant S_ .f32 0x41200000#32))) (broadcastInDim S8x8x1024x1024 ![] bcast_S_S8x8x1024x1024 (constant S_ .f32 0x40A00000#32))))))))

set_option maxRecDepth 8192 in
/-- The values: the second operand of the run's last contraction, for any float values. -/
def vTF {F : FTy → Type} [FloatOps F] (V0 : Valuation τ sig (Elt F)) : FVec F S8x8x1024x512 .f32 :=
  transpose S8x8x1024x512 [0, 2, 1, 3] (Host.dotGeneral dot_S8x1024x512_S8x512x512_S8x1024x8x512_2_2_01_01_n_n none (res_main_v30 V0) (V0 (Proc.devRef .tc main_arg6))) transposes_S8x1024x8x512_S8x8x1024x512_0_2_1_3

set_option maxRecDepth 8192 in
/-- The composed term the reference's run states for its result, over a valuation of the arguments, for any
    float values. -/
def refTermF {F : FTy → Type} [FloatOps F] (V0 : Valuation τ sig (Elt F)) : FVec F S8x8x1024x512 .f32 :=
  Host.dotGeneral dot_S8x8x1024x1024_S8x8x1024x512_S8x8x1024x512_3_2_2_3_01_01 none (addf (mulf (broadcastInDim S8x8x1024x1024 ![0, 1, 2, 3] bcast_S8x8x1024x1_S8x8x1024x1024_0_1_2_3 (res_main_v52 V0)) (Host.divf (res_main_v61 V0) (broadcastInDim S8x8x1024x1024 ![0, 1, 2, 3] bcast_S8x8x1024x1_S8x8x1024x1024_0_1_2_3 (broadcastInDim S8x8x1024x1 ![0, 1, 2] bcast_S8x8x1024_S8x8x1024x1_0_1_2 (Host.reduceAdd (res_main_v61 V0) (constant S_ .f32 0x00000000#32) reducesTo_S8x8x1024x1024_S8x8x1024_d3 h_S_))))) (mulf (broadcastInDim S8x8x1024x1024 ![0, 1, 2, 3] bcast_S8x8x1024x1_S8x8x1024x1024_0_1_2_3 (subf (broadcastInDim S8x8x1024x1 ![] bcast_S_S8x8x1024x1 (constant S_ .f32 0x3F800000#32)) (res_main_v52 V0))) (Host.divf (broadcastInDim S8x8x1024x1024 ![] bcast_S_S8x8x1024x1024 (constant S_ .f32 0x3F800000#32)) (addf (broadcastInDim S8x8x1024x1024 ![] bcast_S_S8x8x1024x1024 (constant S_ .f32 0x3F800000#32)) (Host.exp (Host.negf (subf (mulf (res_main_v48 V0) (broadcastInDim S8x8x1024x1024 ![] bcast_S_S8x8x1024x1024 (constant S_ .f32 0x41200000#32))) (broadcastInDim S8x8x1024x1024 ![] bcast_S_S8x8x1024x1024 (constant S_ .f32 0x40A00000#32))))))))) (transpose S8x8x1024x512 [0, 2, 1, 3] (Host.dotGeneral dot_S8x1024x512_S8x512x512_S8x1024x8x512_2_2_01_01_n_n none (res_main_v30 V0) (V0 (Proc.devRef .tc main_arg6))) transposes_S8x1024x8x512_S8x8x1024x512_0_2_1_3)

/-- The same term at the extended reals. -/
def refTerm (V0 : Valuation τ sig (Elt Ideal)) : FVec Ideal S8x8x1024x512 .f32 := refTermF (F := Ideal) V0

/-- The run's term is the contraction of the weights against the values. -/
theorem refTermF_eq {F : FTy → Type} [FloatOps F] (V0 : Valuation τ sig (Elt F)) :
    refTermF V0 = Host.dotGeneral dot_S8x8x1024x1024_S8x8x1024x512_S8x8x1024x512_3_2_2_3_01_01 none (wtsF V0) (vTF V0) := rfl

open Idealize.SL.Sem Idealize.ShloMosaic.StableHlo in
/-- The reference's run, restated: the result buffer ends at `refTerm` of the arguments' launch contents. -/
theorem run_refTerm (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v81) = refTerm (launchContents m c) :=
  (θ_run defs _ _).mono (fun _ h c => (h c).1) (Value.run (F := Ideal) m ρ)

/-! ## The projections -/

/-- The transposed contraction with the query or key weights is the specification's projection. -/
theorem qT_eq (h : FVec Ideal S8x1024x512 .f32) (w : FVec Ideal S8x64x512 .f32) :
    transpose S8x8x1024x64 [0, 2, 1, 3]
        (Host.dotGeneral (F := Ideal) (φ₁ := .f32) (φ₂ := .f32) dot_S8x1024x512_S8x64x512_S8x1024x8x64_2_2_01_01_n_n none h w)
        transposes_S8x1024x8x64_S8x8x1024x64_0_2_1_3
      = projQK h w := by
  funext j
  obtain ⟨b, hh, s, a, rfl⟩ : ∃ b hh s a, j = ix4 b hh s a := ⟨j 0, j 1, j 2, j 3, eq_ix4 j⟩
  rw [transposeQK_apply, dotQK_apply]
  rfl

/-- The transposed contraction with the value weights is the specification's projection. -/
theorem vT_eq (h : FVec Ideal S8x1024x512 .f32) (w : FVec Ideal S8x512x512 .f32) :
    transpose S8x8x1024x512 [0, 2, 1, 3]
        (Host.dotGeneral (F := Ideal) (φ₁ := .f32) (φ₂ := .f32) dot_S8x1024x512_S8x512x512_S8x1024x8x512_2_2_01_01_n_n none h w)
        transposes_S8x1024x8x512_S8x8x1024x512_0_2_1_3
      = projV h w := by
  funext j
  obtain ⟨b, hh, t, e', rfl⟩ : ∃ b hh t e', j = ix4 b hh t e' := ⟨j 0, j 1, j 2, j 3, eq_ix4 j⟩
  rw [transposeV_apply, dotV_apply]
  rfl

/-- The host's exponential at an index. -/
theorem hostExp_apply {s : Shape} {φ : FTy} (x : FVec Ideal s φ) (i : s.Idx) : Host.exp x i = Ideal.exp (x i) := rfl
/-- The host's negation at an index. -/
theorem hostNegf_apply {s : Shape} {φ : FTy} (x : FVec Ideal s φ) (i : s.Idx) : Host.negf x i = -(x i) := rfl

/-! ## The named stages at explicit coordinates -/

section Stages
variable (V0 : Valuation τ sig (Elt Ideal))

/-- The queries. -/
abbrev Qa : SQK.Idx → EReal := projQK (res_main_v30 (F := Ideal) V0) (V0 (Proc.devRef .tc main_arg4))
/-- The keys. -/
abbrev Ka : SQK.Idx → EReal := projQK (res_main_v30 (F := Ideal) V0) (V0 (Proc.devRef .tc main_arg5))
/-- The values. -/
abbrev Va : SVal.Idx → EReal := projV (res_main_v30 (F := Ideal) V0) (V0 (Proc.devRef .tc main_arg6))

/-- A row of divided scores. -/
def rowX (b hh : Fin 8) (s : Fin 1024) : Fin 1024 → EReal :=
  fun t => Ideal.div (score (Qa V0) (Ka V0) b hh s t) divConst

/-- The divided scores. -/
theorem v39_apply (b hh : Fin 8) (s t : Fin 1024) :
    res_main_v39 (F := Ideal) V0 (ix4 b hh s t) = rowX V0 b hh s t := by
  unfold res_main_v39
  rw [qT_eq, qT_eq, hostDivf_apply, dotScore_apply, splat_apply]
  rfl

theorem v39_row (b hh : Fin 8) (s : Fin 1024) :
    (fun t => res_main_v39 (F := Ideal) V0 (ix4 b hh s t)) = rowX V0 b hh s :=
  funext fun t => v39_apply V0 b hh s t

/-- The rows' minima, with the kept unit axis. -/
theorem v43_apply (b hh : Fin 8) (s : Fin 1024) (u : Fin 1) :
    res_main_v43 (F := Ideal) V0 (ix4 b hh s u) = rowMin (rowX V0 b hh s) := by
  unfold res_main_v43
  rw [keep_apply, rowMin_apply, v39_row]
  rfl

/-- The min–max normalised scores. -/
theorem v48_apply (b hh : Fin 8) (s t : Fin 1024) :
    res_main_v48 (F := Ideal) V0 (ix4 b hh s t) = normed (rowX V0 b hh s) t := by
  unfold res_main_v48
  rw [hostDivf_apply, subf_apply, alongRow_apply, alongRow_apply, subf_apply, keep_apply, rowMax_apply, v43_apply,
    v39_apply, v39_row]
  rfl

theorem v48_row (b hh : Fin 8) (s : Fin 1024) :
    (fun t => res_main_v48 (F := Ideal) V0 (ix4 b hh s t)) = normed (rowX V0 b hh s) :=
  funext fun t => v48_apply V0 b hh s t

/-- One minus the normalised row's maximum. -/
theorem v52_apply (b hh : Fin 8) (s : Fin 1024) (u : Fin 1) :
    res_main_v52 (F := Ideal) V0 (ix4 b hh s u)
      = Ideal.ofBits .f32 0x3F800000#32 - rowMax (normed (rowX V0 b hh s)) := by
  unfold res_main_v52
  rw [subf_apply, splat_apply, keep_apply, rowMax_apply, v48_row]
  rfl

/-- The softmax's numerators. -/
theorem v61_apply (b hh : Fin 8) (s t : Fin 1024) :
    res_main_v61 (F := Ideal) V0 (ix4 b hh s t)
      = Ideal.exp (normed (rowX V0 b hh s) t
          - max (Ideal.ofBits .f32 0xFF800000#32) (rowMax (normed (rowX V0 b hh s)))) := by
  unfold res_main_v61
  rw [hostExp_apply, subf_apply, alongRow_apply, keep_apply, maximumf_apply, splat_apply, rowMax_apply, v48_apply, v48_row]
  rfl

theorem v61_row (b hh : Fin 8) (s : Fin 1024) :
    (fun t => res_main_v61 (F := Ideal) V0 (ix4 b hh s t))
      = fun t => Ideal.exp (normed (rowX V0 b hh s) t
          - max (Ideal.ofBits .f32 0xFF800000#32) (rowMax (normed (rowX V0 b hh s)))) :=
  funext fun t => v61_apply V0 b hh s t

/-- The attention weights. -/
theorem wts_apply (b hh : Fin 8) (s t : Fin 1024) :
    wtsF (F := Ideal) V0 (ix4 b hh s t) = blendR (normed (rowX V0 b hh s)) t := by
  unfold wtsF
  rw [addf_apply, mulf_apply, mulf_apply, hostDivf_apply, hostDivf_apply, alongRow_apply, alongRow_apply, alongRow_apply,
    keep_apply, rowSum_apply, subf_apply, addf_apply, hostExp_apply, hostNegf_apply, subf_apply, mulf_apply,
    splat_apply, splat_apply, splat_apply, splat_apply, v52_apply, v61_apply, v48_apply, v61_row]
  rfl

/-- The values. -/
theorem vT_apply : vTF (F := Ideal) V0 = Va V0 := by
  unfold vTF
  exact vT_eq _ _

/-- The reference's result at explicit coordinates. -/
theorem refTerm_apply (b hh : Fin 8) (s : Fin 1024) (e' : Fin 512) :
    refTerm V0 (ix4 b hh s e')
      = outAt blendR (fun x => Ideal.div x divConst) (Qa V0) (Ka V0) (Va V0) b hh s e' := by
  unfold refTerm
  rw [refTermF_eq, dotOut_apply, vT_apply]
  unfold outAt
  refine Finset.sum_congr rfl fun t _ => ?_
  rw [wts_apply]
  rfl

end Stages

/-- The reference's result is the specification's output of the dividing program, over the three projections of the
    layer-normalised embeddings. -/
theorem refTerm_eq (V0 : Valuation τ sig (Elt Ideal)) :
    refTerm V0 = Cert.Attn.outDiv
      (Cert.Attn.projQK (res_main_v30 (F := Ideal) V0) (V0 (Proc.devRef .tc main_arg4)))
      (Cert.Attn.projQK (res_main_v30 (F := Ideal) V0) (V0 (Proc.devRef .tc main_arg5)))
      (Cert.Attn.projV (res_main_v30 (F := Ideal) V0) (V0 (Proc.devRef .tc main_arg6))) := by
  funext j
  obtain ⟨b, hh, s, e', rfl⟩ : ∃ b hh s e', j = ix4 b hh s e' := ⟨j 0, j 1, j 2, j 3, eq_ix4 j⟩
  exact refTerm_apply V0 b hh s e'

end Cert.ReferenceIdeal.RefValue

end
-- ==== Proof.NormScale.lean ====
/-
  Min–max normalisation forgets a positive rescaling.

  A row of real scores is rescaled in one program by multiplication with a positive constant and in the other
  by division by another positive constant. Either way every entry becomes `r(t) · c` for a positive real `c`;
  the maximum and the minimum of the row are multiplied by `c` as well, so in
  `(x(t) − min x) / (max x − min x)` the factor cancels; and when the row is constant both quotients are `0 / 0`,
  the same value. The two spellings of the attention weights agree for every extended real row maximum, by
  `max(−∞, M) = M`, `0 + Σ = Σ`, `1 − (1 − M) = M` and `−z = 0 − z`.
-/
import Mathlib.Order.Monotone.Basic
import Mathlib.Data.Finset.Lattice.Fold
import Mathlib.Tactic
import proofs.«155498_j13322988552231_1_alg».proof.Proof.Spec

noncomputable section

open scoped BigOperators

namespace Cert.Attn

open Idealize.ShloMosaic Idealize.ShloMosaic.ValueIdx

/-! ### The constants -/

namespace NormScale

/-- The pattern of `1.0` denotes `1`. -/
theorem ofBits_one' : Ideal.ofBits .f32 0x3F800000#32 = (1 : EReal) := by
  rw [← EReal.coe_one]
  simp [Ideal.ofBits, Ideal.ieee, -EReal.coe_mul]; norm_num

/-- The pattern of `+0.0` denotes `0`. -/
theorem ofBits_zero' : Ideal.ofBits .f32 0x00000000#32 = (0 : EReal) := by
  simp [Ideal.ofBits, Ideal.ieee]

/-- The pattern of `−∞` denotes the bottom element. -/
theorem ofBits_negInf : Ideal.ofBits .f32 0xFF800000#32 = (⊥ : EReal) := by
  simp [Ideal.ofBits, Ideal.ieee]

/-- The pattern of `+∞` denotes the top element. -/
theorem ofBits_posInf : Ideal.ofBits .f32 0x7F800000#32 = (⊤ : EReal) := by
  simp [Ideal.ofBits, Ideal.ieee]

end NormScale

open NormScale

/-- The multiplier is a positive real. -/
theorem mulConst_pos : ∃ c : ℝ, 0 < c ∧ mulConst = (c : EReal) := by
  refine ⟨_, ?_, by simp [mulConst, Ideal.ofBits, Ideal.ieee, -EReal.coe_mul]; rfl⟩
  positivity

/-- The divisor is a positive real. -/
theorem divConst_pos : ∃ c : ℝ, 0 < c ∧ divConst = (c : EReal) := by
  refine ⟨_, ?_, by simp [divConst, Ideal.ofBits, Ideal.ieee, -EReal.coe_mul]; rfl⟩
  positivity

/-! ### Folded maxima and minima of a row of reals -/

namespace NormScale

/-- The maximum of finitely many reals, folded from `−∞` in the extended reals, is the real maximum. -/
theorem fold_max_coe {ι : Type} (S : Finset ι) (hS : S.Nonempty) (f : ι → ℝ) :
    S.fold max (⊥ : EReal) (fun t => (f t : EReal)) = ((S.sup' hS f : ℝ) : EReal) := by
  induction hS using Finset.Nonempty.cons_induction with
  | singleton a =>
    rw [Finset.fold_singleton, Finset.sup'_singleton, max_eq_left bot_le]
  | cons a s ha hs ih =>
    rw [Finset.fold_cons, ih, Finset.sup'_cons hs]
    exact (EReal.coe_strictMono.monotone.map_max).symm

/-- The minimum of finitely many reals, folded from `+∞` in the extended reals, is the real minimum. -/
theorem fold_min_coe {ι : Type} (S : Finset ι) (hS : S.Nonempty) (f : ι → ℝ) :
    S.fold min (⊤ : EReal) (fun t => (f t : EReal)) = ((S.inf' hS f : ℝ) : EReal) := by
  induction hS using Finset.Nonempty.cons_induction with
  | singleton a =>
    rw [Finset.fold_singleton, Finset.inf'_singleton, min_eq_left le_top]
  | cons a s ha hs ih =>
    rw [Finset.fold_cons, ih, Finset.inf'_cons hs]
    exact (EReal.coe_strictMono.monotone.map_min).symm

/-- A row has at least one position. -/
theorem univ_ne : (Finset.univ : Finset (Fin 1024)).Nonempty := ⟨⟨0, by norm_num⟩, Finset.mem_univ _⟩

/-- The maximum of a row of reals is the real maximum. -/
theorem rowMax_coe (f : Fin 1024 → ℝ) :
    rowMax (fun t => (f t : EReal)) = ((Finset.univ.sup' univ_ne f : ℝ) : EReal) := by
  unfold rowMax
  rw [ofBits_negInf]
  exact fold_max_coe _ univ_ne f

/-- The minimum of a row of reals is the real minimum. -/
theorem rowMin_coe (f : Fin 1024 → ℝ) :
    rowMin (fun t => (f t : EReal)) = ((Finset.univ.inf' univ_ne f : ℝ) : EReal) := by
  unfold rowMin
  rw [ofBits_posInf]
  exact fold_min_coe _ univ_ne f

/-- The real maximum of a row scaled by a nonnegative factor is the scaled maximum. -/
theorem sup'_mul {ι : Type} (S : Finset ι) (hS : S.Nonempty) (f : ι → ℝ) {c : ℝ} (hc : 0 ≤ c) :
    S.sup' hS (fun t => f t * c) = S.sup' hS f * c :=
  (Finset.apply_sup'_eq_sup'_comp hS (fun y => y * c) (fun a b => max_mul_of_nonneg a b hc)).symm

/-- The real minimum of a row scaled by a nonnegative factor is the scaled minimum. -/
theorem inf'_mul {ι : Type} (S : Finset ι) (hS : S.Nonempty) (f : ι → ℝ) {c : ℝ} (hc : 0 ≤ c) :
    S.inf' hS (fun t => f t * c) = S.inf' hS f * c :=
  (Finset.apply_inf'_eq_inf'_comp hS (fun y => y * c) (fun a b => min_mul_of_nonneg a b hc)).symm

/-! ### The normalisation is scale invariant -/

/-- The quotient `(y − m) / (M − m)` of reals with `m ≤ y ≤ M` is unchanged when all three are scaled by a
    positive factor: off the diagonal the factor cancels, and for `M = m` both sides are `0 / 0`. -/
theorem div_scale {y m M c : ℝ} (hc : 0 < c) (hmy : m ≤ y) (hyM : y ≤ M) :
    Ideal.div (((y * c : ℝ) : EReal) - ((m * c : ℝ) : EReal)) (((M * c : ℝ) : EReal) - ((m * c : ℝ) : EReal))
      = Ideal.div ((y : EReal) - (m : EReal)) ((M : EReal) - (m : EReal)) := by
  rw [← EReal.coe_sub, ← EReal.coe_sub, ← EReal.coe_sub, ← EReal.coe_sub]
  by_cases hMm : M = m
  · have hym : y = m := le_antisymm (hMm ▸ hyM) hmy
    subst hMm hym
    simp
  · have h1 : M - m ≠ 0 := sub_ne_zero.mpr hMm
    have h2 : M * c - m * c ≠ 0 := by
      rw [← sub_mul]; exact mul_ne_zero h1 hc.ne'
    rw [Ideal.div_coe h2, Ideal.div_coe h1, ← EReal.coe_mul, ← EReal.coe_mul]
    congr 1
    field_simp

/-- Min–max normalisation of a row of reals forgets a positive factor. -/
theorem normed_coe_scale (f : Fin 1024 → ℝ) {c : ℝ} (hc : 0 < c) :
    normed (fun t => ((f t * c : ℝ) : EReal)) = normed (fun t => (f t : EReal)) := by
  funext t
  unfold normed
  rw [rowMax_coe (fun t => f t * c), rowMin_coe (fun t => f t * c), rowMax_coe f, rowMin_coe f,
    sup'_mul _ _ _ hc.le, inf'_mul _ _ _ hc.le]
  exact div_scale hc (Finset.inf'_le f (Finset.mem_univ t)) (Finset.le_sup' f (Finset.mem_univ t))

end NormScale

/-- The two rescalings of a row of real scores have the same min–max normalisation. -/
theorem normed_scale (x : Fin 1024 → EReal) (hx : AllReal x) :
    normed (fun t => x t * mulConst) = normed (fun t => Ideal.div (x t) divConst) := by
  obtain ⟨c₁, hc₁, h₁⟩ := mulConst_pos
  obtain ⟨c₂, hc₂, h₂⟩ := divConst_pos
  choose r hr using hx
  have e₁ : (fun t => x t * mulConst) = fun t => ((r t * c₁ : ℝ) : EReal) := by
    funext t; rw [hr t, h₁, EReal.coe_mul]
  have e₂ : (fun t => Ideal.div (x t) divConst) = fun t => ((r t * (1 / c₂) : ℝ) : EReal) := by
    funext t; rw [hr t, h₂, Ideal.div_coe hc₂.ne', EReal.coe_mul]
  rw [e₁, e₂, normed_coe_scale r hc₁, normed_coe_scale r (one_div_pos.mpr hc₂)]

/-! ### The two spellings of the weights -/

namespace NormScale

/-- `1 − (1 − M) = M` for every extended real `M`: at `−∞` the inner difference is `+∞` and the outer one
    `−∞`, at `+∞` the other way round. -/
theorem one_sub_one_sub (M : EReal) : (1 : EReal) - (1 - M) = M := by
  have h1 : (1 : EReal) - ⊥ = ⊤ := by rw [← EReal.coe_one]; exact EReal.coe_sub_bot 1
  induction M using EReal.rec with
  | bot => rw [h1, EReal.sub_top]
  | coe r =>
    rw [← EReal.coe_one, ← EReal.coe_sub, ← EReal.coe_sub]
    congr 1
    ring
  | top => rw [EReal.sub_top, h1]

end NormScale

/-- The two spellings of the attention weights agree on every row. -/
theorem blendR_eq_blend (sn : Fin 1024 → EReal) : blendR sn = blend sn := by
  funext t
  unfold blendR blend
  rw [ofBits_negInf, ofBits_zero', ofBits_one', max_bot_left, zero_add, one_sub_one_sub, zero_sub]

/-! ### Sums of products of reals -/

namespace NormScale

/-- A finite sum of products of reals is real. -/
theorem sum_mul_real {ι : Type} (S : Finset ι) (f g : ι → EReal) (hf : ∀ i, ∃ r : ℝ, f i = (r : EReal))
    (hg : ∀ i, ∃ r : ℝ, g i = (r : EReal)) : ∃ r : ℝ, ∑ i ∈ S, f i * g i = (r : EReal) := by
  classical
  induction S using Finset.induction_on with
  | empty => exact ⟨0, by simp⟩
  | insert a S ha ih =>
    obtain ⟨x, hx⟩ := hf a
    obtain ⟨y, hy⟩ := hg a
    obtain ⟨z, hz⟩ := ih
    exact ⟨x * y + z, by rw [Finset.sum_insert ha, hx, hy, hz, EReal.coe_add, EReal.coe_mul]⟩

end NormScale

/-- Queries and keys computed from real embeddings and real weights are real. -/
theorem allReal_projQK {h : SHid.Idx → EReal} {w : SWqk.Idx → EReal} (hh : AllReal h) (hw : AllReal w) :
    AllReal (projQK h w) := by
  intro j
  unfold projQK proj64
  exact sum_mul_real _ (fun e => h (ix3 (j 0) (j 2) e)) (fun e => w (ix3 (j 1) (j 3) e))
    (fun _ => hh _) (fun _ => hw _)

/-! ### The two outputs -/

/-- For real queries and keys the program that divides the scores and the program that multiplies them give
    the same output: the scores are real, so the two rescaled rows have the same normalisation, and the two
    spellings of the weights agree. -/
theorem outDiv_eq_outMul {q k : SQK.Idx → EReal} (v : SVal.Idx → EReal) (hq : AllReal q) (hk : AllReal k) :
    outDiv q k v = outMul q k v := by
  funext j
  have hs : AllReal (fun t' => score q k (j 0) (j 1) (j 2) t') := by
    intro t'
    unfold score
    exact sum_mul_real _ (fun a => q (ix4 (j 0) (j 1) (j 2) a)) (fun a => k (ix4 (j 0) (j 1) t' a))
      (fun _ => hq _) (fun _ => hk _)
  have hn := normed_scale _ hs
  simp only [outDiv, outMul, outAt, blendR_eq_blend]
  rw [← hn]

end Cert.Attn

end
-- ==== Proof.RefSide.lean ====
/-
  The reference side, wrapped up.

  Under the precondition that every float input is finite, the table, the layer-norm parameters and the three
  weight arrays are arrays of real numbers; hence so are the layer-normalised embeddings h and the queries and
  keys projected from them. On rows of real scores the min–max normalisation forgets the positive rescaling, so
  the reference's result — the specification's output of the program that divides the scores — is the
  specification's output of the program that multiplies them, over the same three projections of h.
-/
import proofs.«155498_j13322988552231_1_alg».proof.Proof.RefValue
import proofs.«155498_j13322988552231_1_alg».proof.Proof.Hidden
import proofs.«155498_j13322988552231_1_alg».proof.Proof.NormScale

noncomputable section

open scoped BigOperators

namespace Cert.ReferenceIdeal.RefValue

open Cert.ReferenceIdeal Cert.ReferenceIdeal.Gen Cert.ReferenceIdeal.Value Idealize.ShloMosaic Idealize.ShloMosaic.TcCoe
  Idealize.ShloMosaic.StableHlo Cert.Attn

/-- The reference's result, from a memory whose float arguments are finite: the multiplying program's output over
    the projections of the layer-normalised embeddings of the arguments. -/
theorem ref_result [Cert.Pre_finite_inputs.Facts] (m : (ℓ : Loc nD τ sig) → Buf (Elt Ideal) ℓ) (c : Dev nD)
    (hpre : Cert.Pre_finite_inputs.fn (F := Ideal) (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) = fun _ => 1#1) :
    refTerm (launchContents m c)
      = Cert.Attn.outMul
          (Cert.Attn.projQK (RefValue.hidden (m ((c.tc : Thread nD τ).loc main_arg0)) (m ((c.tc : Thread nD τ).loc main_arg1)) (m ((c.tc : Thread nD τ).loc main_arg2)) (m ((c.tc : Thread nD τ).loc main_arg3)))
            (m ((c.tc : Thread nD τ).loc main_arg4)))
          (Cert.Attn.projQK (RefValue.hidden (m ((c.tc : Thread nD τ).loc main_arg0)) (m ((c.tc : Thread nD τ).loc main_arg1)) (m ((c.tc : Thread nD τ).loc main_arg2)) (m ((c.tc : Thread nD τ).loc main_arg3)))
            (m ((c.tc : Thread nD τ).loc main_arg5)))
          (Cert.Attn.projV (RefValue.hidden (m ((c.tc : Thread nD τ).loc main_arg0)) (m ((c.tc : Thread nD τ).loc main_arg1)) (m ((c.tc : Thread nD τ).loc main_arg2)) (m ((c.tc : Thread nD τ).loc main_arg3)))
            (m ((c.tc : Thread nD τ).loc main_arg6))) := by
  obtain ⟨ht, hg, hb, hwq, hwk, _⟩ := pre_real hpre
  rw [refTerm_eq, res_main_v30_eq]
  exact outDiv_eq_outMul _ (allReal_projQK (hidden_real _ ht hg hb) hwq) (allReal_projQK (hidden_real _ ht hg hb) hwk)

end Cert.ReferenceIdeal.RefValue

end
-- ==== Proof.lean ====
/-
  The certificate: a two-launch attention kernel against its plain reference, at the ideal values.

  Both programs layer-normalise gathered embeddings to `h`, project `h` to queries, keys and values per head, and form
  the scores `Σ_a q(s, a) · k(t, a)`. The kernel multiplies the scores by the single-precision number nearest `1/√512`;
  the reference divides them by the single-precision number nearest `√512`. These two constants are not reciprocal, so
  the scaled scores differ — but each row of scores is then normalised by its own minimum and maximum,
  `(x − min x) / (max x − min x)`, and that quotient is the same for every positive rescaling of a row of real numbers
  (when the row is constant both sides are the same quotient of zero by zero). The rows are real because the inputs are
  finite: every gathered entry is a table entry, the variance plus a positive constant is positive, so `h` is real, and
  sums of products of reals are real. After the normalisation the two programs apply the same softmax–logistic blend,
  spelt slightly differently (`1 − (1 − M)` for `M`, `max(−∞, M)` for `M`, `−z` for `0 − z`, `0 + Σ` for `Σ`), and
  the same product with the values.

  The kernel's side: each launch writes blocks of one whole-array function that tile its outputs; the first launch's
  outputs are what the second finds. The reference's side: its run's composed term read entry by entry. The frames are
  the generated ones; no rewrite was applied when the kernel was idealised, so that claim is trivial.
-/
import proofs.«155498_j13322988552231_1_alg».proof.Defs
import proofs.«155498_j13322988552231_1_alg».proof.Proof.Gen.Kernel
import proofs.«155498_j13322988552231_1_alg».proof.Proof.Gen.Kernel.Skeleton
import proofs.«155498_j13322988552231_1_alg».proof.Proof.Gen.Kernel.Launch
import proofs.«155498_j13322988552231_1_alg».proof.Proof.Gen.Kernel.Points
import proofs.«155498_j13322988552231_1_alg».proof.Proof.Gen.Kernel.Frame
import proofs.«155498_j13322988552231_1_alg».proof.Proof.Gen.KernelIdeal
import proofs.«155498_j13322988552231_1_alg».proof.Proof.Gen.KernelIdeal.Skeleton
import proofs.«155498_j13322988552231_1_alg».proof.Proof.Gen.KernelIdeal.Launch
import proofs.«155498_j13322988552231_1_alg».proof.Proof.Gen.KernelIdeal.Points
import proofs.«155498_j13322988552231_1_alg».proof.Proof.Gen.KernelIdeal.Frame
import proofs.«155498_j13322988552231_1_alg».proof.Proof.Gen.ReferenceIdeal
import proofs.«155498_j13322988552231_1_alg».proof.Proof.Gen.Pre_finite_inputs
import proofs.«155498_j13322988552231_1_alg».proof.Proof.Gen.ReferenceIdeal.Run
import proofs.«155498_j13322988552231_1_alg».proof.Proof.KernelRun
import proofs.«155498_j13322988552231_1_alg».proof.Proof.KernelValue
import proofs.«155498_j13322988552231_1_alg».proof.Proof.RefSide
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Gen.frame m ρ

/-- So does the kernel at the ideal values. -/
theorem frame_ki : Cert.frame_KernelIdeal := fun m ρ _ => Cert.KernelIdeal.Gen.frame m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Idealising the kernel rewrote nothing. -/
theorem preserves : Cert.preserves_Kernel_KernelIdeal := trivial

/-- From memories agreeing on the arguments both programs end with the attention output of the launch arguments: the
    kernel's with the scores multiplied, the reference's with the scores divided, equal because the rows are real. -/
theorem algebraic : Cert.algebraic_KernelIdeal_ReferenceIdeal := by
  intro m ρ m' ρ' hpre hagree
  refine ⟨fun c => Cert.KernelIdeal.Hand.resultOf m c, ?_, ?_⟩
  · exact (θ_run Cert.KernelIdeal.defs _ _).mono
      (fun r h c => ⟨(h c).1.trans (Cert.KernelIdeal.Hand.result_eq m ρ c), (h c).2⟩)
      (Cert.KernelIdeal.Hand.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6⟩ := hagree c
    have hp := hpre c
    rw [← a0, ← a1, ← a2, ← a3, ← a4, ← a5, ← a6] at hp
    refine (Cert.ReferenceIdeal.RefValue.ref_result m' c hp).trans ?_
    show _ = Cert.KernelIdeal.Hand.resultOf m c
    unfold Cert.KernelIdeal.Hand.resultOf Cert.KernelIdeal.Hand.hid
    rw [a0, a1, a2, a3, a4, a5, a6]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
